-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel
  bcast_S_S1x512x16 : S_.BroadcastsInDim S1x512x16 (![] : Fin 0 → Fin S1x512x16.rank)
  reducesTo_S1x512x16_S_d0_1_2 : S1x512x16.ReducesTo [0, 1, 2] S_
  bcast_S_S1x16 : S_.BroadcastsInDim S1x16 (![] : Fin 0 → Fin S1x16.rank)
  reducesTo_S1x16_S_d0_1 : S1x16.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_arg6 : FVec F S1x512 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S64x512x32x32 .f32) (main_arg1 : FVec F S1x512x16 .f32) (main_arg2 : FVec F S1x16 .f32) (main_arg3 : FVec F S1x512 .f32) (main_arg4 : FVec F S1x512 .f32) (main_arg5 : FVec F S1x512 .f32) (main_arg6 : FVec F S1x512 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  let main_v4 : FVec F S1x512x16 .f32 := Host.absf main_arg1
  let main_cst_0 : FVec F S_ .f32 := constant S_ .f32 0x7F800000#32
  let main_v5 : FVec F S1x512x16 .f32 := broadcastInDim S1x512x16 ![] bcast_S_S1x512x16 main_cst_0
  let main_v6 : IVec S1x512x16 1 := cmpf .olt main_v4 main_v5
  let main_c_1 : IVec S_ 1 := constantI S_ 1 1#1
  let main_v7 : IVec S_ 1 := (fun x v => Host.reduce IntOp.andi x v reducesTo_S1x512x16_S_d0_1_2 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg6 main_v13 main_v16
-- ==== Kernel.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S64x512x1024 : Shape := ⟨3, ![64, 512, 1024]⟩
abbrev S64x512 : Shape := ⟨2, ![64, 512]⟩
abbrev S16x128x1024 : Shape := ⟨3, ![16, 128, 1024]⟩
abbrev S16x128 : Shape := ⟨2, ![16, 128]⟩
abbrev S16x128x256 : Shape := ⟨3, ![16, 128, 256]⟩
abbrev S_ : Shape := ⟨0, ![]⟩
abbrev S512 : Shape := ⟨1, ![512]⟩
abbrev S1x64x512 : Shape := ⟨3, ![1, 64, 512]⟩
abbrev S1x1x512 : Shape := ⟨3, ![1, 1, 512]⟩
abbrev S1x16x512 : Shape := ⟨3, ![1, 16, 512]⟩
abbrev S1x16x1 : Shape := ⟨3, ![1, 16, 1]⟩
abbrev S1x64x16 : Shape := ⟨3, ![1, 64, 16]⟩
abbrev S1x1x16 : Shape := ⟨3, ![1, 1, 16]⟩
abbrev S1x64 : Shape := ⟨2, ![1, 64]⟩
abbrev S1x64x1 : Shape := ⟨3, ![1, 64, 1]⟩

abbrev nBuf : Space → Nat
  | .hbm => 109
  | .vmem => 6
  | .smem => 0
  | _ => 0

abbrev bufTy : (tb : Table) → Fin (tcTables nBuf tb) → BufTy
  | .hbm, ⟨0, _⟩ => ⟨S64x512x32x32, .f32⟩
  | .hbm, ⟨1, _⟩ => ⟨S1x512x16, .f32⟩
  | .hbm, ⟨2, _⟩ => ⟨S1x16, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S64x512x1024, .f32⟩
  | .hbm, ⟨8, _⟩ => ⟨S64x512, .f32⟩
  | .hbm, ⟨9, _⟩ => ⟨S64x512, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S64x512, .f32⟩
  | .hbm, ⟨31, _⟩ => ⟨S64x512, .f32⟩
  | .hbm, ⟨32, _⟩ => ⟨S1x64x512, .f32⟩
  | .hbm, ⟨33, _⟩ => ⟨S1x1x512, .f32⟩
  | .hbm, ⟨34, _⟩ => ⟨S1x64x512, .f32⟩
  | .hbm, ⟨35, _⟩ => ⟨S1x64x512, .f32⟩
  | .hbm, ⟨36, _⟩ => ⟨S1x1x512, .f32⟩
  | .hbm, ⟨37, _⟩ => ⟨S1x64x512, .f32⟩
  | .hbm, ⟨38, _⟩ => ⟨S1x64x512, .f32⟩
  | .hbm, ⟨39, _⟩ => ⟨S1x1x512, .f32⟩
  | .hbm, ⟨40, _⟩ => ⟨S1x64x512, .f32⟩
  | .hbm, ⟨41, _⟩ => ⟨S1x64x512, .f32⟩
  | .hbm, ⟨42, _⟩ => ⟨S1x1x512, .f32⟩
  | .hbm, ⟨43, _⟩ => ⟨S1x64x512, .f32⟩
  | .hbm, ⟨44, _⟩ => ⟨S1x64x512, .f32⟩
  | .hbm, ⟨45, _⟩ => ⟨S1x16x512, .f32⟩
  | .hbm, ⟨46, _⟩ => ⟨S_, .f32⟩
  | .hbm, ⟨47, _⟩ => ⟨S1x16, .f32⟩
  | .hbm, ⟨48, _⟩ => ⟨S1x16x1, .f32⟩
  | .hbm, ⟨49, _⟩ => ⟨S_, .f32⟩
  | .hbm, ⟨50, _⟩ => ⟨S1x16x1, .f32⟩
  | .hbm, ⟨51, _⟩ => ⟨S1x16x1, .f32⟩
  | .hbm, ⟨52, _⟩ => ⟨S_, .i32⟩
  | .hbm, ⟨53, _⟩ => ⟨S_, .f32⟩
  | .hbm, ⟨54, _⟩ => ⟨S1x16, .f32⟩
  | .hbm, ⟨55, _⟩ => ⟨S1x16x1, .f32⟩
  | .hbm, ⟨56, _⟩ => ⟨S_, .f32⟩
  | .hbm, ⟨57, _⟩ => ⟨S1x16x1, .f32⟩
  | .hbm, ⟨58, _⟩ => ⟨S1x16x1, .f32⟩
  | .hbm, ⟨59, _⟩ => ⟨S1x16x512, .f32⟩
  | .hbm, ⟨60, _⟩ => ⟨S1x16x512, .f32⟩
  | .hbm, ⟨61, _⟩ => ⟨S1x16x512, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S1x16, .f32⟩
  | .hbm, ⟨67, _⟩ => ⟨S1x16x1, .f32⟩
  | .hbm, ⟨68, _⟩ => ⟨S1x16x1, .f32⟩
  | .hbm, ⟨69, _⟩ => ⟨S1x16x1, .f32⟩
  | .hbm, ⟨70, _⟩ => ⟨S_, .f32⟩
  | .hbm, ⟨71, _⟩ => ⟨S_, .i1⟩
  | .hbm, ⟨72, _⟩ => ⟨S_, .f32⟩
  | .hbm, ⟨73, _⟩ => ⟨S_, .f32⟩
  | .hbm, ⟨74, _⟩ => ⟨S1x16x1, .f32⟩
  | .hbm, ⟨75, _⟩ => ⟨S1x16x1, .f32⟩
  | .hbm, ⟨76, _⟩ => ⟨S1x16x512, .f32⟩
  | .hbm, ⟨77, _⟩ => ⟨S1x16x512, .f32⟩
  | .hbm, ⟨78, _⟩ => ⟨S_, .f32⟩
  | .hbm, ⟨79, _⟩ => ⟨S1x16x1, .f32⟩
  | .hbm, ⟨80, _⟩ => ⟨S1x16x1, .f32⟩
  | .hbm, ⟨81, _⟩ => ⟨S1x16x1, .f32⟩
  | .hbm, ⟨82, _⟩ => ⟨S1x16x512, .f32⟩
  | .hbm, ⟨83, _⟩ => ⟨S1x16x512, .f32⟩
  | .hbm, ⟨84, _⟩ => ⟨S1x1x512, .f32⟩
  | .hbm, ⟨85, _⟩ => ⟨S1x16x512, .f32⟩
  | .hbm, ⟨86, _⟩ => ⟨S1x16x512, .f32⟩
  | .hbm, ⟨87, _⟩ => ⟨S1x1x512, .f32⟩
  | .hbm, ⟨88, _⟩ => ⟨S1x16x512, .f32⟩
  | .hbm, ⟨89, _⟩ => ⟨S1x16x512, .f32⟩
  | .hbm, ⟨90, _⟩ => ⟨S1x512x16, .f32⟩
  | .hbm, ⟨91, _⟩ => ⟨S1x64x16, .f32⟩
  | .hbm, ⟨92, _⟩ => ⟨S1x1x16, .f32⟩
  | .hbm, ⟨93, _⟩ => ⟨S1x64x16, .f32⟩
  | .hbm, ⟨94, _⟩ => ⟨S1x64x16, .f32⟩
  | .hbm, ⟨95, _⟩ => ⟨S_, .f32⟩
  | .hbm, ⟨96, _⟩ => ⟨S1x64, .f32⟩
  | .hbm, ⟨97, _⟩ => ⟨S_, .f32⟩
  | .hbm, ⟨98, _⟩ => ⟨S1x64, .f32⟩
  | .hbm, ⟨99, _⟩ => ⟨S1x64, .f32⟩
  | .hbm, ⟨100, _⟩ => ⟨S1x64x1, .f32⟩
  | .hbm, ⟨101, _⟩ => ⟨S1x64x16, .f32⟩
  | .hbm, ⟨102, _⟩ => ⟨S1x64x16, .f32⟩
  | .hbm, ⟨103, _⟩ => ⟨S1x64x16, .f32⟩
  | .hbm, ⟨104, _⟩ => ⟨S_, .f32⟩
  | .hbm, ⟨105, _⟩ => ⟨S1x64, .f32⟩
  | .hbm, ⟨106, _⟩ => ⟨S1x64x1, .f32⟩
  | .hbm, ⟨107, _⟩ => ⟨S1x64x16, .f32⟩
  | .hbm, ⟨108, _⟩ => ⟨S1x64x16, .f32⟩
  | .local _ .vmem, ⟨0, _⟩ => ⟨S16x128x1024, .f32⟩
  | .local _ .vmem, ⟨1, _⟩ => ⟨S16x128x1024, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_cst_1 : Ref sig .tc := ⟨.hbm, 63, rfl⟩
abbrev main_call0_v8 : Ref sig .tc := ⟨.hbm, 64, rfl⟩
abbrev main_call0_cst_2 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_cst_3 : Ref sig .tc := ⟨.hbm, 70, rfl⟩
abbrev main_call0_v13 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_8 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_cst_10 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_11 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  let c256_i32 : BitVec 32 := 256#32
  let v1 : BitVec 32 := Scalar.muli c0_i32 c256_i32
  v1
def k0_off1 (c0_i32 : BitVec 32) : Fin 3 → Nat :=
  let c0 : Index := 0#32
  let c0_0 : Index := 0#32
  let c256_i32 : BitVec 32 := 256#32
  let v1 : BitVec 32 := Scalar.muli c0_i32 c256_i32
  let v2 : BitVec 32 := v1
  let v3 : Index := Scalar.indexCast v2
  ![0, 0, v3.toNat]
def k0_mult2 : BitVec 32 :=
  let c1_i32 : BitVec 32 := 1#32
  let c256_i32_3 : BitVec 32 := 256#32
  let v11 : BitVec 32 := Scalar.muli c1_i32 c256_i32_3
  v11
def k0_mult3 : BitVec 32 :=
  let c2_i32 : BitVec 32 := 2#32
  let c256_i32_8 : BitVec 32 := 256#32
  let v21 : BitVec 32 := Scalar.muli c2_i32 c256_i32_8
  v21
def k0_mult4 : BitVec 32 :=
  let c3_i32 : BitVec 32 := 3#32
  let c256_i32_13 : BitVec 32 := 256#32
  let v31 : BitVec 32 := Scalar.muli c3_i32 c256_i32_13
  v31
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x512x32x32_S64x512x1024 : S64x512x32x32.ShapeCasts S64x512x1024
  h_S16x128x256 : 0 < S16x128x256.numel
  shapeCasts_S16x128x256_S16x128x256 : S16x128x256.ShapeCasts S16x128x256
  reduces_S16x128x256_S16x128 : S16x128x256.Reduces [2] S16x128
  inb_S16x128_S16x128_0_0 : ∀ a, (![0, 0] : Fin 2 → Nat) a + S16x128.size a ≤ S16x128.size a
  h_S16x128 : 0 < S16x128.numel
  reducesTo_S64x512_S512_d0 : S64x512.ReducesTo [0] S512
  h_S_ : 0 < S_.numel
  bcast_S_S512 : S_.BroadcastsInDim S512 (![] : Fin 0 → Fin S512.rank)
  bcast_S_S64x512 : S_.BroadcastsInDim S64x512 (![] : Fin 0 → Fin S64x512.rank)
  bcast_S64x512_S1x64x512_1_2 : S64x512.BroadcastsInDim S1x64x512 (![1, 2] : Fin 2 → Fin S1x64x512.rank)
  bcast_S512_S1x1x512_2 : S512.BroadcastsInDim S1x1x512 (![2] : Fin 1 → Fin S1x1x512.rank)
  bcast_S1x1x512_S1x64x512_0_1_2 : S1x1x512.BroadcastsInDim S1x64x512 (![0, 1, 2] : Fin 3 → Fin S1x64x512.rank)
  bcast_S1x512_S1x1x512_0_2 : S1x512.BroadcastsInDim S1x1x512 (![0, 2] : Fin 2 → Fin S1x1x512.rank)
  transposes_S1x512x16_S1x16x512_0_2_1 : S1x512x16.Transposes [0, 2, 1] S1x16x512
  reducesTo_S1x16x512_S1x16_d2 : S1x16x512.ReducesTo [2] S1x16
  bcast_S1x16_S1x16x1_0_1 : S1x16.BroadcastsInDim S1x16x1 (![0, 1] : Fin 2 → Fin S1x16x1.rank)
  bcast_S_S1x16x1 : S_.BroadcastsInDim S1x16x1 (![] : Fin 0 → Fin S1x16x1.rank)
  bcast_S1x16x1_S1x16x512_0_1_2 : S1x16x1.BroadcastsInDim S1x16x512 (![0, 1, 2] : Fin 3 → Fin S1x16x512.rank)
  bcast_S1x1x512_S1x16x512_0_1_2 : S1x1x512.BroadcastsInDim S1x16x512 (![0, 1, 2] : Fin 3 → Fin S1x16x512.rank)
  transposes_S1x16x512_S1x512x16_0_2_1 : S1x16x512.Transposes [0, 2, 1] S1x512x16
  bcast_S1x16_S1x1x16_0_2 : S1x16.BroadcastsInDim S1x1x16 (![0, 2] : Fin 2 → Fin S1x1x16.rank)
  bcast_S1x1x16_S1x64x16_0_1_2 : S1x1x16.BroadcastsInDim S1x64x16 (![0, 1, 2] : Fin 3 → Fin S1x64x16.rank)
  reducesTo_S1x64x16_S1x64_d2 : S1x64x16.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x16_0_1_2 : S1x64x1.BroadcastsInDim S1x64x16 (![0, 1, 2] : Fin 3 → Fin S1x64x16.rank)
  dot_S1x64x512_S1x512x16_S1x64x16_2_1_1_2_0_0_wf : DotDims.WF S1x64x512 S1x512x16 S1x64x16 [2] [1] [1] [2] [0] [0]
  hrank0 : 0 < grid0.rank
  k0_mult1_dvd : 256 ∣ k0_mult1.toNat
  k0_off1_inb : ∀ (r : Fin 4), ∀ a, (k0_off1 (BitVec.ofNat 32 r.val)) a + S16x128x256.size a ≤ S16x128x1024.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x1024.size a ≤ S64x512x1024.size a
  hwx0_0 : ∀ i : grid0.Coords, EltTy.bits .f32 = 32 ∨ (Rect.block (s := S64x512x1024) S16x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S64x512.size a
  hwx0_1 : ∀ i : grid0.Coords, EltTy.bits .f32 = 32 ∨ (Rect.block (s := S64x512) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S64x512.size a
  hwx0_2 : ∀ i : grid0.Coords, EltTy.bits .f32 = 32 ∨ (Rect.block (s := S64x512) S16x128.size (cc0_transform_2 i) (hinb0_2 i)).WholeWords (EltTy.packing .f32)

variable [Facts₀]

def dot_S1x64x512_S1x512x16_S1x64x16_2_1_1_2_0_0 : DotDims S1x64x512 S1x512x16 S1x64x16 where
  lhsContracting := [2]
  rhsContracting := [1]
  lhsNonContracting := [1]
  rhsNonContracting := [2]
  lhsBatch := [0]
  rhsBatch := [0]
  wf := dot_S1x64x512_S1x512x16_S1x64x16_2_1_1_2_0_0_wf

abbrev win0_0 : Pipeline.Window sig grid0 :=
  Pipeline.Window.ofSpec (Memref.whole main_v0) S16x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S16x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x32x32 : Shape := ⟨4, ![64, 512, 32, 32]⟩
abbrev S1x512x16 : Shape := ⟨3, ![1, 512, 16]⟩
abbrev S1x16 : Shape := ⟨2, ![1, 16]⟩
abbrev S1x512 : Shape := ⟨2, ![1, 512]⟩
abbrev S_ : Shape := ⟨0, ![]⟩
abbrev S512 : Shape := ⟨1, ![512]⟩
abbrev S1x512x1x1 : Shape := ⟨4, ![1, 512, 1, 1]⟩
abbrev S1x1x512x1x1 : Shape := ⟨5, ![1, 1, 512, 1, 1]⟩
abbrev S1x64x512x32x32 : Shape := ⟨5, ![1, 64, 512, 32, 32]⟩
abbrev S1x64x512 : Shape := ⟨3, ![1, 64, 512]⟩
abbrev S1x16x512 : Shape := ⟨3, ![1, 16, 512]⟩
abbrev S1x16x1 : Shape := ⟨3, ![1, 16, 1]⟩
abbrev S1x1x512 : Shape := ⟨3, ![1, 1, 512]⟩
abbrev S1x64x16 : Shape := ⟨3, ![1, 64, 16]⟩
abbrev S1x1x16 : Shape := ⟨3, ![1, 1, 16]⟩
abbrev S1x64 : Shape := ⟨2, ![1, 64]⟩
abbrev S1x64x1 : Shape := ⟨3, ![1, 64, 1]⟩

abbrev nBuf : Space → Nat
  | .hbm => 121
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S1x512x16, .f32⟩
  | .hbm, ⟨2, _⟩ => ⟨S1x16, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S512, .f32⟩
  | .hbm, ⟨9, _⟩ => ⟨S_, .f32⟩
  | .hbm, ⟨10, _⟩ => ⟨S512, .f32⟩
  | .hbm, ⟨11, _⟩ => ⟨S512, .f32⟩
  | .hbm, ⟨12, _⟩ => ⟨S_, .i32⟩
  | .hbm, ⟨13, _⟩ => ⟨S_, .f32⟩
  | .hbm, ⟨14, _⟩ => ⟨S512, .f32⟩
  | .hbm, ⟨15, _⟩ => ⟨S1x512x1x1, .f32⟩
  | .hbm, ⟨16, _⟩ => ⟨S_, .f32⟩
  | .hbm, ⟨17, _⟩ => ⟨S1x512x1x1, .f32⟩
  | .hbm, ⟨18, _⟩ => ⟨S1x512x1x1, .f32⟩
  | .hbm, ⟨19, _⟩ => ⟨S64x512x32x32, .f32⟩
  | .hbm, ⟨20, _⟩ => ⟨S64x512x32x32, .f32⟩
  | .hbm, ⟨21, _⟩ => ⟨S64x512x32x32, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S1x512x1x1, .f32⟩
  | .hbm, ⟨36, _⟩ => ⟨S64x512x32x32, .f32⟩
  | .hbm, ⟨37, _⟩ => ⟨S64x512x32x32, .f32⟩
  | .hbm, ⟨38, _⟩ => ⟨S_, .f32⟩
  | .hbm, ⟨39, _⟩ => ⟨S512, .f32⟩
  | .hbm, ⟨40, _⟩ => ⟨S512, .f32⟩
  | .hbm, ⟨41, _⟩ => ⟨S512, .f32⟩
  | .hbm, ⟨42, _⟩ => ⟨S1x512x1x1, .f32⟩
  | .hbm, ⟨43, _⟩ => ⟨S64x512x32x32, .f32⟩
  | .hbm, ⟨44, _⟩ => ⟨S64x512x32x32, .f32⟩
  | .hbm, ⟨45, _⟩ => ⟨S1x1x512x1x1, .f32⟩
  | .hbm, ⟨46, _⟩ => ⟨S1x64x512x32x32, .f32⟩
  | .hbm, ⟨47, _⟩ => ⟨S1x64x512x32x32, .f32⟩
  | .hbm, ⟨48, _⟩ => ⟨S1x64x512x32x32, .f32⟩
  | .hbm, ⟨49, _⟩ => ⟨S1x1x512x1x1, .f32⟩
  | .hbm, ⟨50, _⟩ => ⟨S1x64x512x32x32, .f32⟩
  | .hbm, ⟨51, _⟩ => ⟨S1x64x512x32x32, .f32⟩
  | .hbm, ⟨52, _⟩ => ⟨S_, .f32⟩
  | .hbm, ⟨53, _⟩ => ⟨S1x64x512, .f32⟩
  | .hbm, ⟨54, _⟩ => ⟨S_, .f32⟩
  | .hbm, ⟨55, _⟩ => ⟨S1x64x512, .f32⟩
  | .hbm, ⟨56, _⟩ => ⟨S1x64x512, .f32⟩
  | .hbm, ⟨57, _⟩ => ⟨S1x16x512, .f32⟩
  | .hbm, ⟨58, _⟩ => ⟨S_, .f32⟩
  | .hbm, ⟨59, _⟩ => ⟨S1x16, .f32⟩
  | .hbm, ⟨60, _⟩ => ⟨S1x16x1, .f32⟩
  | .hbm, ⟨61, _⟩ => ⟨S_, .f32⟩
  | .hbm, ⟨62, _⟩ => ⟨S1x16x1, .f32⟩
  | .hbm, ⟨63, _⟩ => ⟨S1x16x1, .f32⟩
  | .hbm, ⟨64, _⟩ => ⟨S_, .i32⟩
  | .hbm, ⟨65, _⟩ => ⟨S_, .f32⟩
  | .hbm, ⟨66, _⟩ => ⟨S1x16, .f32⟩
  | .hbm, ⟨67, _⟩ => ⟨S1x16x1, .f32⟩
  | .hbm, ⟨68, _⟩ => ⟨S_, .f32⟩
  | .hbm, ⟨69, _⟩ => ⟨S1x16x1, .f32⟩
  | .hbm, ⟨70, _⟩ => ⟨S1x16x1, .f32⟩
  | .hbm, ⟨71, _⟩ => ⟨S1x16x512, .f32⟩
  | .hbm, ⟨72, _⟩ => ⟨S1x16x512, .f32⟩
  | .hbm, ⟨73, _⟩ => ⟨S1x16x512, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x16, .f32⟩
  | .hbm, ⟨79, _⟩ => ⟨S1x16x1, .f32⟩
  | .hbm, ⟨80, _⟩ => ⟨S1x16x1, .f32⟩
  | .hbm, ⟨81, _⟩ => ⟨S1x16x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S1x16x1, .f32⟩
  | .hbm, ⟨87, _⟩ => ⟨S1x16x1, .f32⟩
  | .hbm, ⟨88, _⟩ => ⟨S1x16x512, .f32⟩
  | .hbm, ⟨89, _⟩ => ⟨S1x16x512, .f32⟩
  | .hbm, ⟨90, _⟩ => ⟨S_, .f32⟩
  | .hbm, ⟨91, _⟩ => ⟨S1x16x1, .f32⟩
  | .hbm, ⟨92, _⟩ => ⟨S1x16x1, .f32⟩
  | .hbm, ⟨93, _⟩ => ⟨S1x16x1, .f32⟩
  | .hbm, ⟨94, _⟩ => ⟨S1x16x512, .f32⟩
  | .hbm, ⟨95, _⟩ => ⟨S1x16x512, .f32⟩
  | .hbm, ⟨96, _⟩ => ⟨S1x1x512, .f32⟩
  | .hbm, ⟨97, _⟩ => ⟨S1x16x512, .f32⟩
  | .hbm, ⟨98, _⟩ => ⟨S1x16x512, .f32⟩
  | .hbm, ⟨99, _⟩ => ⟨S1x1x512, .f32⟩
  | .hbm, ⟨100, _⟩ => ⟨S1x16x512, .f32⟩
  | .hbm, ⟨101, _⟩ => ⟨S1x16x512, .f32⟩
  | .hbm, ⟨102, _⟩ => ⟨S1x512x16, .f32⟩
  | .hbm, ⟨103, _⟩ => ⟨S1x64x16, .f32⟩
  | .hbm, ⟨104, _⟩ => ⟨S1x1x16, .f32⟩
  | .hbm, ⟨105, _⟩ => ⟨S1x64x16, .f32⟩
  | .hbm, ⟨106, _⟩ => ⟨S1x64x16, .f32⟩
  | .hbm, ⟨107, _⟩ => ⟨S_, .f32⟩
  | .hbm, ⟨108, _⟩ => ⟨S1x64, .f32⟩
  | .hbm, ⟨109, _⟩ => ⟨S_, .f32⟩
  | .hbm, ⟨110, _⟩ => ⟨S1x64, .f32⟩
  | .hbm, ⟨111, _⟩ => ⟨S1x64, .f32⟩
  | .hbm, ⟨112, _⟩ => ⟨S1x64x1, .f32⟩
  | .hbm, ⟨113, _⟩ => ⟨S1x64x16, .f32⟩
  | .hbm, ⟨114, _⟩ => ⟨S1x64x16, .f32⟩
  | .hbm, ⟨115, _⟩ => ⟨S1x64x16, .f32⟩
  | .hbm, ⟨116, _⟩ => ⟨S_, .f32⟩
  | .hbm, ⟨117, _⟩ => ⟨S1x64, .f32⟩
  | .hbm, ⟨118, _⟩ => ⟨S1x64x1, .f32⟩
  | .hbm, ⟨119, _⟩ => ⟨S1x64x16, .f32⟩
  | .hbm, ⟨120, _⟩ => ⟨S1x64x16, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_cst_1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_2 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_c_6 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_v7 : Ref sig .tc := ⟨.hbm, 74, rfl⟩
abbrev main_call1_cst_1 : Ref sig .tc := ⟨.hbm, 75, rfl⟩
abbrev main_call1_v8 : Ref sig .tc := ⟨.hbm, 76, rfl⟩
abbrev main_call1_cst_2 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_v12 : Ref sig .tc := ⟨.hbm, 81, rfl⟩
abbrev main_call1_cst_3 : Ref sig .tc := ⟨.hbm, 82, rfl⟩
abbrev main_call1_v13 : Ref sig .tc := ⟨.hbm, 83, rfl⟩
abbrev main_call1_cst_4 : Ref sig .tc := ⟨.hbm, 84, rfl⟩
abbrev main_call1_call0_v0 : Ref sig .tc := ⟨.hbm, 85, rfl⟩
abbrev main_call1_call0_v1 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst_7 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_8 : Ref sig .tc := ⟨.hbm, 107, rfl⟩
abbrev main_v47 : Ref sig .tc := ⟨.hbm, 108, rfl⟩
abbrev main_cst_9 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_10 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩

abbrev nD : Nat := 1
abbrev τ : Topo := Topo.v7x

variable {F : FTy → Type} [FloatOps F]

class Facts₀ : Prop where
  reducesTo_S64x512x32x32_S512_d0_2_3 : S64x512x32x32.ReducesTo [0, 2, 3] S512
  h_S_ : 0 < S_.numel
  bcast_S_S512 : S_.BroadcastsInDim S512 (![] : Fin 0 → Fin S512.rank)
  bcast_S512_S1x512x1x1_1 : S512.BroadcastsInDim S1x512x1x1 (![1] : Fin 1 → Fin S1x512x1x1.rank)
  bcast_S_S1x512x1x1 : S_.BroadcastsInDim S1x512x1x1 (![] : Fin 0 → Fin S1x512x1x1.rank)
  bcast_S1x512x1x1_S64x512x32x32_0_1_2_3 : S1x512x1x1.BroadcastsInDim S64x512x32x32 (![0, 1, 2, 3] : Fin 4 → Fin S64x512x32x32.rank)
  bcast_S1x512_S1x1x512x1x1_0_2 : S1x512.BroadcastsInDim S1x1x512x1x1 (![0, 2] : Fin 2 → Fin S1x1x512x1x1.rank)
  bcast_S64x512x32x32_S1x64x512x32x32_1_2_3_4 : S64x512x32x32.BroadcastsInDim S1x64x512x32x32 (![1, 2, 3, 4] : Fin 4 → Fin S1x64x512x32x32.rank)
  bcast_S1x1x512x1x1_S1x64x512x32x32_0_1_2_3_4 : S1x1x512x1x1.BroadcastsInDim S1x64x512x32x32 (![0, 1, 2, 3, 4] : Fin 5 → Fin S1x64x512x32x32.rank)
  reducesTo_S1x64x512x32x32_S1x64x512_d3_4 : S1x64x512x32x32.ReducesTo [3, 4] S1x64x512
  bcast_S_S1x64x512 : S_.BroadcastsInDim S1x64x512 (![] : Fin 0 → Fin S1x64x512.rank)
  transposes_S1x512x16_S1x16x512_0_2_1 : S1x512x16.Transposes [0, 2, 1] S1x16x512
  reducesTo_S1x16x512_S1x16_d2 : S1x16x512.ReducesTo [2] S1x16
  bcast_S1x16_S1x16x1_0_1 : S1x16.BroadcastsInDim S1x16x1 (![0, 1] : Fin 2 → Fin S1x16x1.rank)
  bcast_S_S1x16x1 : S_.BroadcastsInDim S1x16x1 (![] : Fin 0 → Fin S1x16x1.rank)
  bcast_S1x16x1_S1x16x512_0_1_2 : S1x16x1.BroadcastsInDim S1x16x512 (![0, 1, 2] : Fin 3 → Fin S1x16x512.rank)
  bcast_S1x512_S1x1x512_0_2 : S1x512.BroadcastsInDim S1x1x512 (![0, 2] : Fin 2 → Fin S1x1x512.rank)
  bcast_S1x1x512_S1x16x512_0_1_2 : S1x1x512.BroadcastsInDim S1x16x512 (![0, 1, 2] : Fin 3 → Fin S1x16x512.rank)
  transposes_S1x16x512_S1x512x16_0_2_1 : S1x16x512.Transposes [0, 2, 1] S1x512x16
  bcast_S1x16_S1x1x16_0_2 : S1x16.BroadcastsInDim S1x1x16 (![0, 2] : Fin 2 → Fin S1x1x16.rank)
  bcast_S1x1x16_S1x64x16_0_1_2 : S1x1x16.BroadcastsInDim S1x64x16 (![0, 1, 2] : Fin 3 → Fin S1x64x16.rank)
  reducesTo_S1x64x16_S1x64_d2 : S1x64x16.ReducesTo [2] S1x64
  bcast_S_S1x64 : S_.BroadcastsInDim S1x64 (![] : Fin 0 → Fin S1x64.rank)
  bcast_S1x64_S1x64x1_0_1 : S1x64.BroadcastsInDim S1x64x1 (![0, 1] : Fin 2 → Fin S1x64x1.rank)
  bcast_S1x64x1_S1x64x16_0_1_2 : S1x64x1.BroadcastsInDim S1x64x16 (![0, 1, 2] : Fin 3 → Fin S1x64x16.rank)
  dot_S1x64x512_S1x512x16_S1x64x16_2_1_1_2_0_0_wf : DotDims.WF S1x64x512 S1x512x16 S1x64x16 [2] [1] [1] [2] [0] [0]

variable [Facts₀]

def dot_S1x64x512_S1x512x16_S1x64x16_2_1_1_2_0_0 : DotDims S1x64x512 S1x512x16 S1x64x16 where
  lhsContracting := [2]
  rhsContracting := [1]
  lhsNonContracting := [1]
  rhsNonContracting := [2]
  lhsBatch := [0]
  rhsBatch := [0]
  wf := dot_S1x64x512_S1x512x16_S1x64x16_2_1_1_2_0_0_wf

class Facts : Prop extends Facts₀ where

variable [Facts]
-- ==== Proof.KFrameBody.lean ====
/- The kernel body's triple: what the two output staging buffers hold after one call of the body, as a function of
   the input staging buffer's contents. -/
import proofs.«100338_j23983097381582_2_alg».proof.Proof.Gen.Kernel.Launch
import proofs.«100338_j23983097381582_2_alg».proof.Proof.Gen.Kernel.Skeleton
import proofs.«100338_j23983097381582_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.FrameH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The four quarter slabs of the input block along its last axis, in the order the body loads them. -/
abbrev rA : Rect S16x128x1024 := Rect.unit (s := S16x128x1024) (k0_off1 0#32) S16x128x256.size (k0_off1_inb 0)
abbrev rB : Rect S16x128x1024 := Rect.unit (s := S16x128x1024) (k0_off1 1#32) S16x128x256.size (k0_off1_inb 1)
abbrev rC : Rect S16x128x1024 := Rect.unit (s := S16x128x1024) (k0_off1 2#32) S16x128x256.size (k0_off1_inb 2)
abbrev rD : Rect S16x128x1024 := Rect.unit (s := S16x128x1024) (k0_off1 3#32) S16x128x256.size (k0_off1_inb 3)
/-- The whole of an output block. -/
abbrev rOut : Rect S16x128 := Rect.unit (s := S16x128) ![0, 0] S16x128.size inb_S16x128_S16x128_0_0

/-! ## What the body leaves in each output window's buffer -/

/-- The first output's buffer after the body: the sum over the last axis of the four slabs, accumulated from zero in
    the order the body adds them, stored over the whole buffer. -/
def out0_1 (x0 : Vec F S16x128x1024 .f32) : Vec F S16x128 .f32 :=
  View.canon [⟨rOut, k0_pay2 (k0_pay8 (View.ld x0 rA) (View.ld x0 rB) (View.ld x0 rC)) (View.ld x0 rD)⟩]

/-- The second output's buffer after the body: the same accumulation of the slabs' squares. -/
def out0_2 (x0 : Vec F S16x128x1024 .f32) : Vec F S16x128 .f32 :=
  View.canon [⟨rOut, k0_pay3 (k0_pay9 (View.ld x0 rA) (View.ld x0 rB) (View.ld x0 rC)) (View.ld x0 rD)⟩]

/-- One store of the whole block tiles the buffer, so it covers it. -/
theorem cover0 (p0 : Vec F S16x128 .f32) (y : S16x128.Idx) :
    ∃ pc ∈ ([⟨rOut, p0⟩] : List (View.Piece (Elt F) S16x128 .f32)), y ∈ pc.1.set :=
  View.cover_of_tiled [⟨rOut, p0⟩] S16x128.size (by rfl) y

/-! ## The body's triple -/

set_option maxHeartbeats 1000000 in
/-- The kernel body on whole staging memrefs, the input's at read contents `x0` and the outputs' at anything, runs to
    the continuation holding the input's as it was and each output's at `out0_W` of the input's: the four loads read
    the slabs, the two loads of the output buffers read values nothing uses, and each output is stored whole. -/
theorem sound_kernel (c : Dev nD) (E : Set ℕ) (i : grid0.Coords)
    (arg2 : Memref sig .tc .vmem S16x128x1024 .f32) (harg2 : arg2.IsWhole)
    (arg3 : Memref sig .tc .vmem S16x128 .f32) (harg3 : arg3.IsWhole)
    (arg4 : Memref sig .tc .vmem S16x128 .f32) (harg4 : arg4.IsWhole)
    (x0 : Vec F S16x128x1024 .f32) (K : PUnit → sProp 𝕄) :
    iprop(owns (c : Thread nD τ) arg2 fullShare x0 ∗ (∃ d, owns (c : Thread nD τ) arg3 fullShare d)
        ∗ (∃ d, owns (c : Thread nD τ) arg4 fullShare d)
        ∗ (iprop(owns (c : Thread nD τ) arg2 fullShare x0 ∗ owns (c : Thread nD τ) arg3 fullShare (out0_1 x0)
            ∗ owns (c : Thread nD τ) arg4 fullShare (out0_2 x0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- info: 'Cert.Kernel.FrameH.sound_kernel' depends on axioms: [propext, Classical.choice, Quot.sound] -/
#guard_msgs in #print axioms sound_kernel

end Cert.Kernel.FrameH

end
-- ==== Proof.KFrame.lean ====
/- The frame run of the program: the host operation before the one region, the region over its sixteen grid points, and
   the three stretches of host operations after it; every argument array ends as launched. -/
import proofs.«100338_j23983097381582_2_alg».proof.Proof.KFrameBody

set_option maxRecDepth 16384

noncomputable section

namespace Cert.Kernel.FrameH

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2]

/-- Core `c`'s TensorCore buffer contents when the region is entered, as a valuation: after the host operation before
    the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The seven argument arrays. -/
abbrev argRefs : List (Ref sig .tc) := [main_arg0, main_arg1, main_arg2, main_arg3, main_arg4, main_arg5, main_arg6]
/-- The references no host operation after the region writes: the three arrays of the pipeline and the arguments. -/
abbrev keepRefs : List (Ref sig .tc) := main_v0 :: main_v1_0 :: main_v1_1 :: argRefs

/-- References of a list, each distinct from `y`, are none of them the one buffer an operation writing `y` writes. -/
theorem nw_of (R : List (Ref sig .tc)) (y : Ref sig .tc) (h : ∀ r ∈ R, r ≠ y) :
    ∀ r ∈ R, Proc.devRef (τ := τ) .tc r ∉ ({Proc.devRef .tc y} : Finset (DevRef τ sig)) := fun r hr => by
  rw [Finset.mem_singleton]; exact StableHlo.devRef_ne_of_ne (h r hr)

/-- The operation before the region writes no argument array. -/
theorem hostOps0_nw : (hostOps0 : List (HloOp τ sig (Elt F))).Forall fun op => ∀ r ∈ argRefs, Proc.devRef .tc r ∉ op.writes := by
  simp only [hostOps0, List.Forall, StableHlo.reshape_writes]
  exact nw_of _ _ (by decide)

/-- No operation after the region writes an array of the pipeline or an argument array: each writes its own result. -/
theorem hostOps1_nw : (hostOps1 : List (HloOp τ sig (Elt F))).Forall fun op => ∀ r ∈ keepRefs, Proc.devRef .tc r ∉ op.writes := by
  simp only [hostOps1, List.Forall, StableHlo.nullary_writes, StableHlo.unary_writes, StableHlo.binary_writes, StableHlo.ternary_writes]
  repeat' apply And.intro
  all_goals exact nw_of _ _ (by decide)
theorem hostOps1_1_nw : (hostOps1_1 : List (HloOp τ sig (Elt F))).Forall fun op => ∀ r ∈ keepRefs, Proc.devRef .tc r ∉ op.writes := by
  simp only [hostOps1_1, List.Forall, StableHlo.nullary_writes, StableHlo.unary_writes, StableHlo.binary_writes, StableHlo.ternary_writes]
  repeat' apply And.intro
  all_goals exact nw_of _ _ (by decide)
theorem hostOps1_2_nw : (hostOps1_2 : List (HloOp τ sig (Elt F))).Forall fun op => ∀ r ∈ keepRefs, Proc.devRef .tc r ∉ op.writes := by
  simp only [hostOps1_2, List.Forall, StableHlo.nullary_writes, StableHlo.unary_writes, StableHlo.binary_writes, StableHlo.ternary_writes]
  repeat' apply And.intro
  all_goals exact nw_of _ _ (by decide)

/-- They allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host operation before it, the region, the host operations after it. It reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- An operation of a stretch after the region is an operation of one of the three. -/
theorem tail_cases {p : HloOp τ sig (Elt F) → Prop} (h1 : (hostOps1 : List (HloOp τ sig (Elt F))).Forall p)
    (h2 : (hostOps1_1 : List (HloOp τ sig (Elt F))).Forall p) (h3 : (hostOps1_2 : List (HloOp τ sig (Elt F))).Forall p) :
    ∀ ops ∈ (tailOps : List (List (HloOp τ sig (Elt F)))), ∀ op ∈ ops, p op := by
  intro ops hops op hop
  simp only [List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_cases (p := fun op => op.bufs ⊆ StableHlo.tcRefs τ sig) hostOps1_sub hostOps1_1_sub hostOps1_2_sub ops hops op hop)
/-- They allocate nothing. -/
theorem sfx_fresh : ∀ ops ∈ (tailOps : List (List (HloOp τ sig (Elt F)))), ∀ op ∈ ops, op.fresh = ∅ :=
  tail_cases hostOps1_fresh hostOps1_1_fresh hostOps1_2_fresh
/-- None writes a reference of `keepRefs`. -/
theorem sfx_nw : ∀ ops ∈ (tailOps : List (List (HloOp τ sig (Elt F)))), ∀ op ∈ ops, ∀ r ∈ keepRefs, Proc.devRef .tc r ∉ op.writes :=
  tail_cases hostOps1_nw hostOps1_1_nw hostOps1_2_nw
/-- And so none writes an array of the pipeline. -/
theorem sfx_keeps : ∀ ops ∈ (tailOps : List (List (HloOp τ sig (Elt F)))), ∀ op ∈ ops,
    ∀ w, Proc.devRef .tc (Pipeline.arrRef spec0 w) ∉ op.writes := fun ops hops op hop w =>
  sfx_nw ops hops op hop _ ((by decide : ∀ w, Pipeline.arrRef spec0 w ∈ keepRefs) w)

/-- The host operation before the region writes no argument array: the region finds each as launched. -/
theorem V_arg (c : Dev nD) (r : Ref sig .tc) (hr : r ∈ argRefs) : V m c r = m ((c : Thread nD τ).loc r) :=
  StableHlo.after_of_forall_not_mem (b := Proc.devRef .tc r) _ _ (fun op hop => by
    simp only [List.flatten_cons, List.flatten_nil, List.append_nil] at hop
    exact (List.forall_iff_forall_mem.mp hostOps0_nw) op hop r hr)

/-- No host operation after the region writes an argument array, and none is an array of the pipeline: each ends as
    launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact sfx_nw ops hops op hop' r (List.mem_cons_of_mem _ (List.mem_cons_of_mem _ (List.mem_cons_of_mem _ hr)))),
    Pipeline.withArrays_of_ne _ c (V0 m c) _ r ((by decide : ∀ r ∈ argRefs, ∀ w, Pipeline.arrRef spec0 w ≠ r) r hr)]
  exact V_arg m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument array at the end of a frame run: it bypasses the region, so the run's post has it at what the later
    operations leave, which is what was launched. -/
theorem end_arg (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r) (c : Dev nD)
    (b : Ref sig .tc) (hb : b ∈ argRefs) :
    r.2.mem ((c.tc : Thread nD τ).loc b) = m ((c.tc : Thread nD τ).loc b) :=
  ((h c).2 b (Pipeline.mem_restRefs_of b ((by decide : ∀ b ∈ argRefs, b.isScoped = false) b hb)
      ((by decide : ∀ b ∈ argRefs, ∀ w, (spec0 w).arr.view.ref ≠ b) b hb))).trans (W_arg m dats c b hb)

/-- The frame from a frame run: every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨end_arg m dats h c main_arg0 (by decide), end_arg m dats h c main_arg1 (by decide), end_arg m dats h c main_arg2 (by decide),
     end_arg m dats h c main_arg3 (by decide), end_arg m dats h c main_arg4 (by decide), end_arg m dats h c main_arg5 (by decide),
     end_arg m dats h c main_arg6 (by decide)⟩) h

/-! ## The pipeline's proof data -/

/-- The proof data of the one pipeline on core `c`: the arrays as the region finds them; after the body at point `t`
    the input's buffer at its block and each output's at `out0_W` of the input block; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the input's buffer at its block, each output's at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, the outputs' hold anything, so the body's triple applies;
    the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.FrameH.run_main' depends on axioms: [propext, Classical.choice, Quot.sound] -/
#guard_msgs in #print axioms run_main

/-- The frame: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.Kernel.FrameH

end
-- ==== Proof.KIFrameBody.lean ====
/- The kernel body's triple: what the two output staging buffers hold after one call of the body, as a function of
   the input staging buffer's contents. -/
import proofs.«100338_j23983097381582_2_alg».proof.Proof.Gen.KernelIdeal.Launch
import proofs.«100338_j23983097381582_2_alg».proof.Proof.Gen.KernelIdeal.Skeleton
import proofs.«100338_j23983097381582_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.FrameH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The four quarter slabs of the input block along its last axis, in the order the body loads them. -/
abbrev rA : Rect S16x128x1024 := Rect.unit (s := S16x128x1024) (k0_off1 0#32) S16x128x256.size (k0_off1_inb 0)
abbrev rB : Rect S16x128x1024 := Rect.unit (s := S16x128x1024) (k0_off1 1#32) S16x128x256.size (k0_off1_inb 1)
abbrev rC : Rect S16x128x1024 := Rect.unit (s := S16x128x1024) (k0_off1 2#32) S16x128x256.size (k0_off1_inb 2)
abbrev rD : Rect S16x128x1024 := Rect.unit (s := S16x128x1024) (k0_off1 3#32) S16x128x256.size (k0_off1_inb 3)
/-- The whole of an output block. -/
abbrev rOut : Rect S16x128 := Rect.unit (s := S16x128) ![0, 0] S16x128.size inb_S16x128_S16x128_0_0

/-! ## What the body leaves in each output window's buffer -/

/-- The first output's buffer after the body: the sum over the last axis of the four slabs, accumulated from zero in
    the order the body adds them, stored over the whole buffer. -/
def out0_1 (x0 : Vec F S16x128x1024 .f32) : Vec F S16x128 .f32 :=
  View.canon [⟨rOut, k0_pay2 (k0_pay8 (View.ld x0 rA) (View.ld x0 rB) (View.ld x0 rC)) (View.ld x0 rD)⟩]

/-- The second output's buffer after the body: the same accumulation of the slabs' squares. -/
def out0_2 (x0 : Vec F S16x128x1024 .f32) : Vec F S16x128 .f32 :=
  View.canon [⟨rOut, k0_pay3 (k0_pay9 (View.ld x0 rA) (View.ld x0 rB) (View.ld x0 rC)) (View.ld x0 rD)⟩]

/-- One store of the whole block tiles the buffer, so it covers it. -/
theorem cover0 (p0 : Vec F S16x128 .f32) (y : S16x128.Idx) :
    ∃ pc ∈ ([⟨rOut, p0⟩] : List (View.Piece (Elt F) S16x128 .f32)), y ∈ pc.1.set :=
  View.cover_of_tiled [⟨rOut, p0⟩] S16x128.size (by rfl) y

/-! ## The body's triple -/

set_option maxHeartbeats 1000000 in
/-- The kernel body on whole staging memrefs, the input's at read contents `x0` and the outputs' at anything, runs to
    the continuation holding the input's as it was and each output's at `out0_W` of the input's: the four loads read
    the slabs, the two loads of the output buffers read values nothing uses, and each output is stored whole. -/
theorem sound_kernel (c : Dev nD) (E : Set ℕ) (i : grid0.Coords)
    (arg2 : Memref sig .tc .vmem S16x128x1024 .f32) (harg2 : arg2.IsWhole)
    (arg3 : Memref sig .tc .vmem S16x128 .f32) (harg3 : arg3.IsWhole)
    (arg4 : Memref sig .tc .vmem S16x128 .f32) (harg4 : arg4.IsWhole)
    (x0 : Vec F S16x128x1024 .f32) (K : PUnit → sProp 𝕄) :
    iprop(owns (c : Thread nD τ) arg2 fullShare x0 ∗ (∃ d, owns (c : Thread nD τ) arg3 fullShare d)
        ∗ (∃ d, owns (c : Thread nD τ) arg4 fullShare d)
        ∗ (iprop(owns (c : Thread nD τ) arg2 fullShare x0 ∗ owns (c : Thread nD τ) arg3 fullShare (out0_1 x0)
            ∗ owns (c : Thread nD τ) arg4 fullShare (out0_2 x0)) -∗ K ⟨⟩))
      ⊢ wp frame (wpE (defs₀ (F := F)) Variants.none c none) E (cc0__reduce_kernel i arg2 harg2 arg3 harg3 arg4 harg4) K := by
  simp only [cc0__reduce_kernel_eq_skeleton]; unfold cc0__reduce_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-- info: 'Cert.KernelIdeal.FrameH.sound_kernel' depends on axioms: [propext, Classical.choice, Quot.sound] -/
#guard_msgs in #print axioms sound_kernel

end Cert.KernelIdeal.FrameH

end
-- ==== Proof.KIFrame.lean ====
/- The frame run of the program: the host operation before the one region, the region over its sixteen grid points, and
   the three stretches of host operations after it; every argument array ends as launched. -/
import proofs.«100338_j23983097381582_2_alg».proof.Proof.KIFrameBody

set_option maxRecDepth 16384

noncomputable section

namespace Cert.KernelIdeal.FrameH

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) := [hostOps1, hostOps1_1, hostOps1_2]

/-- Core `c`'s TensorCore buffer contents when the region is entered, as a valuation: after the host operation before
    the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The seven argument arrays. -/
abbrev argRefs : List (Ref sig .tc) := [main_arg0, main_arg1, main_arg2, main_arg3, main_arg4, main_arg5, main_arg6]
/-- The references no host operation after the region writes: the three arrays of the pipeline and the arguments. -/
abbrev keepRefs : List (Ref sig .tc) := main_v0 :: main_v1_0 :: main_v1_1 :: argRefs

/-- References of a list, each distinct from `y`, are none of them the one buffer an operation writing `y` writes. -/
theorem nw_of (R : List (Ref sig .tc)) (y : Ref sig .tc) (h : ∀ r ∈ R, r ≠ y) :
    ∀ r ∈ R, Proc.devRef (τ := τ) .tc r ∉ ({Proc.devRef .tc y} : Finset (DevRef τ sig)) := fun r hr => by
  rw [Finset.mem_singleton]; exact StableHlo.devRef_ne_of_ne (h r hr)

/-- The operation before the region writes no argument array. -/
theorem hostOps0_nw : (hostOps0 : List (HloOp τ sig (Elt F))).Forall fun op => ∀ r ∈ argRefs, Proc.devRef .tc r ∉ op.writes := by
  simp only [hostOps0, List.Forall, StableHlo.reshape_writes]
  exact nw_of _ _ (by decide)

/-- No operation after the region writes an array of the pipeline or an argument array: each writes its own result. -/
theorem hostOps1_nw : (hostOps1 : List (HloOp τ sig (Elt F))).Forall fun op => ∀ r ∈ keepRefs, Proc.devRef .tc r ∉ op.writes := by
  simp only [hostOps1, List.Forall, StableHlo.nullary_writes, StableHlo.unary_writes, StableHlo.binary_writes, StableHlo.ternary_writes]
  repeat' apply And.intro
  all_goals exact nw_of _ _ (by decide)
theorem hostOps1_1_nw : (hostOps1_1 : List (HloOp τ sig (Elt F))).Forall fun op => ∀ r ∈ keepRefs, Proc.devRef .tc r ∉ op.writes := by
  simp only [hostOps1_1, List.Forall, StableHlo.nullary_writes, StableHlo.unary_writes, StableHlo.binary_writes, StableHlo.ternary_writes]
  repeat' apply And.intro
  all_goals exact nw_of _ _ (by decide)
theorem hostOps1_2_nw : (hostOps1_2 : List (HloOp τ sig (Elt F))).Forall fun op => ∀ r ∈ keepRefs, Proc.devRef .tc r ∉ op.writes := by
  simp only [hostOps1_2, List.Forall, StableHlo.nullary_writes, StableHlo.unary_writes, StableHlo.binary_writes, StableHlo.ternary_writes]
  repeat' apply And.intro
  all_goals exact nw_of _ _ (by decide)

/-- They allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main around the region: the host operation before it, the region, the host operations after it. It reduces to the
    region continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- An operation of a stretch after the region is an operation of one of the three. -/
theorem tail_cases {p : HloOp τ sig (Elt F) → Prop} (h1 : (hostOps1 : List (HloOp τ sig (Elt F))).Forall p)
    (h2 : (hostOps1_1 : List (HloOp τ sig (Elt F))).Forall p) (h3 : (hostOps1_2 : List (HloOp τ sig (Elt F))).Forall p) :
    ∀ ops ∈ (tailOps : List (List (HloOp τ sig (Elt F)))), ∀ op ∈ ops, p op := by
  intro ops hops op hop
  simp only [List.mem_cons, List.mem_nil_iff, or_false] at hops
  rcases hops with rfl | rfl | rfl
  · exact (List.forall_iff_forall_mem.mp h1) op hop
  · exact (List.forall_iff_forall_mem.mp h2) op hop
  · exact (List.forall_iff_forall_mem.mp h3) op hop

/-- The operations after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_cases (p := fun op => op.bufs ⊆ StableHlo.tcRefs τ sig) hostOps1_sub hostOps1_1_sub hostOps1_2_sub ops hops op hop)
/-- They allocate nothing. -/
theorem sfx_fresh : ∀ ops ∈ (tailOps : List (List (HloOp τ sig (Elt F)))), ∀ op ∈ ops, op.fresh = ∅ :=
  tail_cases hostOps1_fresh hostOps1_1_fresh hostOps1_2_fresh
/-- None writes a reference of `keepRefs`. -/
theorem sfx_nw : ∀ ops ∈ (tailOps : List (List (HloOp τ sig (Elt F)))), ∀ op ∈ ops, ∀ r ∈ keepRefs, Proc.devRef .tc r ∉ op.writes :=
  tail_cases hostOps1_nw hostOps1_1_nw hostOps1_2_nw
/-- And so none writes an array of the pipeline. -/
theorem sfx_keeps : ∀ ops ∈ (tailOps : List (List (HloOp τ sig (Elt F)))), ∀ op ∈ ops,
    ∀ w, Proc.devRef .tc (Pipeline.arrRef spec0 w) ∉ op.writes := fun ops hops op hop w =>
  sfx_nw ops hops op hop _ ((by decide : ∀ w, Pipeline.arrRef spec0 w ∈ keepRefs) w)

/-- The host operation before the region writes no argument array: the region finds each as launched. -/
theorem V_arg (c : Dev nD) (r : Ref sig .tc) (hr : r ∈ argRefs) : V m c r = m ((c : Thread nD τ).loc r) :=
  StableHlo.after_of_forall_not_mem (b := Proc.devRef .tc r) _ _ (fun op hop => by
    simp only [List.flatten_cons, List.flatten_nil, List.append_nil] at hop
    exact (List.forall_iff_forall_mem.mp hostOps0_nw) op hop r hr)

/-- No host operation after the region writes an argument array, and none is an array of the pipeline: each ends as
    launched. -/
theorem W_arg (dats : (p : Fin _) → (c : Dev nD) → Dat τ (Elt F) Unit ℕ (UR sig nD τ) ℕ (cfgs p) c) (c : Dev nD)
    (r : Ref sig .tc) (hr : r ∈ argRefs) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact sfx_nw ops hops op hop' r (List.mem_cons_of_mem _ (List.mem_cons_of_mem _ (List.mem_cons_of_mem _ hr)))),
    Pipeline.withArrays_of_ne _ c (V0 m c) _ r ((by decide : ∀ r ∈ argRefs, ∀ w, Pipeline.arrRef spec0 w ≠ r) r hr)]
  exact V_arg m c r hr

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- An argument array at the end of a frame run: it bypasses the region, so the run's post has it at what the later
    operations leave, which is what was launched. -/
theorem end_arg (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r) (c : Dev nD)
    (b : Ref sig .tc) (hb : b ∈ argRefs) :
    r.2.mem ((c.tc : Thread nD τ).loc b) = m ((c.tc : Thread nD τ).loc b) :=
  ((h c).2 b (Pipeline.mem_restRefs_of b ((by decide : ∀ b ∈ argRefs, b.isScoped = false) b hb)
      ((by decide : ∀ b ∈ argRefs, ∀ w, (spec0 w).arr.view.ref ≠ b) b hb))).trans (W_arg m dats c b hb)

/-- The frame from a frame run: every argument array ends as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨end_arg m dats h c main_arg0 (by decide), end_arg m dats h c main_arg1 (by decide), end_arg m dats h c main_arg2 (by decide),
     end_arg m dats h c main_arg3 (by decide), end_arg m dats h c main_arg4 (by decide), end_arg m dats h c main_arg5 (by decide),
     end_arg m dats h c main_arg6 (by decide)⟩) h

/-! ## The pipeline's proof data -/

/-- The proof data of the one pipeline on core `c`: the arrays as the region finds them; after the body at point `t`
    the input's buffer at its block and each output's at `out0_W` of the input block; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-- The input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t`: the input's buffer at its block, each output's at some contents. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- And what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input's memref holds its block, the outputs' hold anything, so the body's triple applies;
    the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.FrameH.run_main' depends on axioms: [propext, Classical.choice, Quot.sound] -/
#guard_msgs in #print axioms run_main

/-- The frame: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (run_main m ρ)

end Cert.KernelIdeal.FrameH

end
-- ==== Proof.KerValue.lean ====
/-
  The host operations that follow the kernel region, as named functions.

  From the two arrays the region writes — the per-(b, c) sums s1 = Σ_hw x and s2 = Σ_hw x² — the program computes
  the channel mean `μ = (Σ_b s1) / 65536`, the second moment `(Σ_b s2) / 65536`, the clamped variance
  `max (second moment - μ²) 0`, its reciprocal square root after adding ε, the pooled entry `s1 / 1024`, and
  `new_x = γ · ((s1 / 1024 - μ) · rstd) + β`. The router weights are transposed, layer-normalised along the channel axis
  (their variance as the mean of squared deviations, selected against a not-a-number when the divisor is not positive),
  scaled and shifted and transposed back; the logits are the contraction of new_x with them plus the bias; the
  probabilities their softmax along the last axis. Each result buffer of the program after these operations is the
  corresponding function of the buffers before them.
-/
import proofs.«100338_j23983097381582_2_alg».proof.Proof.Gen.KernelIdeal.Launch
import Idealize.ShloMosaic.Lib.StableHlo.Run
import Idealize.ShloMosaic.Lib.Pipeline.Frame

noncomputable section

namespace Cert.KernelIdeal.ValueH

open Cert.KernelIdeal Idealize.ShloMosaic Idealize.ShloMosaic.TcCoe Idealize.SL.Sem Idealize.ShloMosaic.StableHlo
open Cert.KernelIdeal.Facts₀

variable {F : FTy → Type} [FloatOps F]

/-- The channel mean of a [64, 512] array of row sums: its column sums over 65536. -/
def colMean (s : FVec F S64x512 .f32) : FVec F S512 .f32 :=
  Host.divf (Host.reduceAdd s (constant S_ .f32 0x00000000#32) reducesTo_S64x512_S512_d0 h_S_)
    (broadcastInDim S512 ![] bcast_S_S512 (constant S_ .f32 0x47800000#32))

/-- The reciprocal standard deviation per channel: rsqrt (max (E[x²] - μ²) 0 + ε). -/
def rstd (s1 s2 : FVec F S64x512 .f32) : FVec F S512 .f32 :=
  Host.rsqrt (addf (maximumf (subf (colMean s2) (mulf (colMean s1) (colMean s1)))
      (broadcastInDim S512 ![] bcast_S_S512 (constant S_ .f32 0x00000000#32)))
    (broadcastInDim S512 ![] bcast_S_S512 (constant S_ .f32 0x3727C5AC#32)))

/-- new_x from the two arrays of sums and the batch-norm scale and shift. -/
def newX (s1 s2 : FVec F S64x512 .f32) (g β : FVec F S1x512 .f32) : FVec F S1x64x512 .f32 :=
  addf (mulf (broadcastInDim S1x64x512 ![0, 1, 2] bcast_S1x1x512_S1x64x512_0_1_2 (broadcastInDim S1x1x512 ![0, 2] bcast_S1x512_S1x1x512_0_2 g))
      (mulf (subf (broadcastInDim S1x64x512 ![1, 2] bcast_S64x512_S1x64x512_1_2
            (Host.divf s1 (broadcastInDim S64x512 ![] bcast_S_S64x512 (constant S_ .f32 0x44800000#32))))
          (broadcastInDim S1x64x512 ![0, 1, 2] bcast_S1x1x512_S1x64x512_0_1_2 (broadcastInDim S1x1x512 ![2] bcast_S512_S1x1x512_2 (colMean s1))))
        (broadcastInDim S1x64x512 ![0, 1, 2] bcast_S1x1x512_S1x64x512_0_1_2 (broadcastInDim S1x1x512 ![2] bcast_S512_S1x1x512_2 (rstd s1 s2)))))
    (broadcastInDim S1x64x512 ![0, 1, 2] bcast_S1x1x512_S1x64x512_0_1_2 (broadcastInDim S1x1x512 ![0, 2] bcast_S1x512_S1x1x512_0_2 β))

/-- The row mean of a [1, 16, 512] array, kept as a [1, 16, 1] column. -/
def rowMean (wt : FVec F S1x16x512 .f32) : FVec F S1x16x1 .f32 :=
  Host.divf (broadcastInDim S1x16x1 ![0, 1] bcast_S1x16_S1x16x1_0_1
      (Host.reduceAdd wt (constant S_ .f32 0x00000000#32) reducesTo_S1x16x512_S1x16_d2 h_S_))
    (broadcastInDim S1x16x1 ![] bcast_S_S1x16x1 (constant S_ .f32 0x44000000#32))

/-- The row variance of a [1, 16, 512] array as jnp.var computes it: the mean of squared deviations over
    `512 - ddof`, selected against a not-a-number when that divisor is not positive. -/
def rowVar (wt : FVec F S1x16x512 .f32) (ddof : IVec S_ 32) : FVec F S1x16x1 .f32 :=
  select (broadcastInDim S1x16x1 ![] bcast_S_S1x16x1
      (cmpf .ogt (subf (constant (F := F) S_ .f32 0x44000000#32) (sitofp .f32 ddof)) (constant (F := F) S_ .f32 0x00000000#32)))
    (Host.divf (broadcastInDim S1x16x1 ![0, 1] bcast_S1x16_S1x16x1_0_1
        (Host.reduceAdd (mulf (subf wt (broadcastInDim S1x16x512 ![0, 1, 2] bcast_S1x16x1_S1x16x512_0_1_2 (rowMean wt)))
            (subf wt (broadcastInDim S1x16x512 ![0, 1, 2] bcast_S1x16x1_S1x16x512_0_1_2 (rowMean wt))))
          (constant S_ .f32 0x00000000#32) reducesTo_S1x16x512_S1x16_d2 h_S_))
      (broadcastInDim S1x16x1 ![] bcast_S_S1x16x1 (subf (constant S_ .f32 0x44000000#32) (sitofp .f32 ddof))))
    (broadcastInDim S1x16x1 ![] bcast_S_S1x16x1 (id (constant (F := F) S_ .f32 0x7FC00000#32)))

/-- The layer-normalised router weights, [1, 512, 16]. -/
def wn (w : FVec F S1x512x16 .f32) (lg lb : FVec F S1x512 .f32) : FVec F S1x512x16 .f32 :=
  transpose S1x512x16 [0, 2, 1]
    (addf (mulf (mulf (subf (transpose S1x16x512 [0, 2, 1] w transposes_S1x512x16_S1x16x512_0_2_1)
            (broadcastInDim S1x16x512 ![0, 1, 2] bcast_S1x16x1_S1x16x512_0_1_2 (rowMean (transpose S1x16x512 [0, 2, 1] w transposes_S1x512x16_S1x16x512_0_2_1))))
          (broadcastInDim S1x16x512 ![0, 1, 2] bcast_S1x16x1_S1x16x512_0_1_2
            (Host.rsqrt (addf (rowVar (transpose S1x16x512 [0, 2, 1] w transposes_S1x512x16_S1x16x512_0_2_1) (constantI S_ 32 0#32))
              (broadcastInDim S1x16x1 ![] bcast_S_S1x16x1 (constant S_ .f32 0x3727C5AC#32))))))
        (broadcastInDim S1x16x512 ![0, 1, 2] bcast_S1x1x512_S1x16x512_0_1_2 (broadcastInDim S1x1x512 ![0, 2] bcast_S1x512_S1x1x512_0_2 lg)))
      (broadcastInDim S1x16x512 ![0, 1, 2] bcast_S1x1x512_S1x16x512_0_1_2 (broadcastInDim S1x1x512 ![0, 2] bcast_S1x512_S1x1x512_0_2 lb)))
    transposes_S1x16x512_S1x512x16_0_2_1

/-- The logits: new_x contracted with the normalised weights, plus the bias. -/
def logits (nx : FVec F S1x64x512 .f32) (wn : FVec F S1x512x16 .f32) (bias : FVec F S1x16 .f32) : FVec F S1x64x16 .f32 :=
  addf (Host.dotGeneral dot_S1x64x512_S1x512x16_S1x64x16_2_1_1_2_0_0 none nx wn)
    (broadcastInDim S1x64x16 ![0, 1, 2] bcast_S1x1x16_S1x64x16_0_1_2 (broadcastInDim S1x1x16 ![0, 2] bcast_S1x16_S1x1x16_0_2 bias))

/-- The exponentials of the logits less their row maximum. -/
def expShift (lg : FVec F S1x64x16 .f32) : FVec F S1x64x16 .f32 :=
  Host.exp (subf lg (broadcastInDim S1x64x16 ![0, 1, 2] bcast_S1x64x1_S1x64x16_0_1_2 (broadcastInDim S1x64x1 ![0, 1] bcast_S1x64_S1x64x1_0_1
    (maximumf (broadcastInDim S1x64 ![] bcast_S_S1x64 (constant S_ .f32 0xFF800000#32))
      (Host.reduce FloatOps.maximumf lg (constant S_ .f32 0xFF800000#32) reducesTo_S1x64x16_S1x64_d2 h_S_)))))

/-- The softmax of the logits along the last axis. -/
def probs (lg : FVec F S1x64x16 .f32) : FVec F S1x64x16 .f32 :=
  Host.divf (expShift lg) (broadcastInDim S1x64x16 ![0, 1, 2] bcast_S1x64x1_S1x64x16_0_1_2 (broadcastInDim S1x64x1 ![0, 1] bcast_S1x64_S1x64x1_0_1
    (Host.reduceAdd (expShift lg) (constant S_ .f32 0x00000000#32) reducesTo_S1x64x16_S1x64_d2 h_S_)))

/-- The operations after the region, in order. -/
abbrev tail : List (HloOp τ sig (Elt F)) := Gen.hostOps1 ++ Gen.hostOps1_1 ++ Gen.hostOps1_2

set_option maxHeartbeats 4000000 in
set_option maxRecDepth 65536 in
theorem res29_eq (W : Valuation τ sig (Elt F)) :
    after (tail (F := F)) W (main_v29 : DevRef τ sig)
      = newX (W (main_v1_0 : DevRef τ sig)) (W (main_v1_1 : DevRef τ sig)) (W (main_arg3 : DevRef τ sig)) (W (main_arg4 : DevRef τ sig)) := by
  unfold tail
  rw [after_append, after_append]
  after_results_simp
  rfl

set_option maxHeartbeats 4000000 in
set_option maxRecDepth 65536 in
theorem res53_eq (W : Valuation τ sig (Elt F)) :
    after (tail (F := F)) W (main_v53 : DevRef τ sig)
      = logits (newX (W (main_v1_0 : DevRef τ sig)) (W (main_v1_1 : DevRef τ sig)) (W (main_arg3 : DevRef τ sig)) (W (main_arg4 : DevRef τ sig)))
          (wn (W (main_arg1 : DevRef τ sig)) (W (main_arg5 : DevRef τ sig)) (W (main_arg6 : DevRef τ sig))) (W (main_arg2 : DevRef τ sig)) := by
  unfold tail
  rw [after_append, after_append]
  after_results_simp
  rfl

set_option maxHeartbeats 4000000 in
set_option maxRecDepth 65536 in
theorem res64_eq (W : Valuation τ sig (Elt F)) :
    after (tail (F := F)) W (main_v64 : DevRef τ sig)
      = probs (logits (newX (W (main_v1_0 : DevRef τ sig)) (W (main_v1_1 : DevRef τ sig)) (W (main_arg3 : DevRef τ sig)) (W (main_arg4 : DevRef τ sig)))
          (wn (W (main_arg1 : DevRef τ sig)) (W (main_arg5 : DevRef τ sig)) (W (main_arg6 : DevRef τ sig))) (W (main_arg2 : DevRef τ sig))) := by
  unfold tail
  rw [after_append, after_append]
  after_results_simp
  rfl

end Cert.KernelIdeal.ValueH

end
-- ==== Proof.KerRun.lean ====
/-
  The kernel program's run with its three results named: at the end of every execution the result buffers hold
  new_x, the logits and the probabilities, as the functions of module KerValue, of the two arrays of sums the region
  wrote and of the argument arrays as launched; the argument arrays end as launched.
-/
import proofs.«100338_j23983097381582_2_alg».proof.Proof.KIFrame
import proofs.«100338_j23983097381582_2_alg».proof.Proof.KerValue

noncomputable section

namespace Cert.KernelIdeal.RunH

open Cert.KernelIdeal Cert.KernelIdeal.Gen Cert.KernelIdeal.FrameH Cert.KernelIdeal.ValueH
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffer contents the operations after the region start from: the region's three arrays as it leaves them,
    every other buffer as the region found it. -/
abbrev W (c : Dev nD) : Valuation τ sig (Elt F) :=
  Pipeline.withArrays spec0 c (V0 m c) fun w => (dats m 0 c).arrAt w cfg0.N

/-- The three stretches after the region, flattened, are the one list of module KerValue. -/
theorem flatten_tail : (tailOps (F := F)).flatten = ValueH.tail := by
  simp only [List.flatten_cons, List.flatten_nil, List.append_nil, List.append_assoc]

theorem W_sum1 (c : Dev nD) : W m c (main_v1_0 : DevRef τ sig) = (dats m 0 c).arrAt 1 cfg0.N :=
  Pipeline.withArrays_arr spec0 launch0.win.arr_inj c _ _ 1
theorem W_sum2 (c : Dev nD) : W m c (main_v1_1 : DevRef τ sig) = (dats m 0 c).arrAt 2 cfg0.N :=
  Pipeline.withArrays_arr spec0 launch0.win.arr_inj c _ _ 2
theorem W_arg (c : Dev nD) (r : Ref sig .tc) (hr : r ∈ argRefs) : W m c (Proc.devRef .tc r) = m ((c : Thread nD τ).loc r) :=
  (Pipeline.withArrays_of_ne _ c (V0 m c) _ r ((by decide : ∀ r ∈ argRefs, ∀ w, Pipeline.arrRef spec0 w ≠ r) r hr)).trans
    (V_arg m c r hr)

/-- A result buffer at the end of the frame run: what the operations after the region leave there. -/
theorem end_res {r : PUnit × MemSt nD τ sig (Elt F)}
    (h : Pipeline.FramePost cfgs (dats m) 0 (Pipeline.afterTail₀ cfgs (dats m) 0 (V0 m) tailOps) r) (c : Dev nD)
    (b : Ref sig .tc) (hb : b ∈ [main_v29, main_v53, main_v64]) :
    r.2.mem ((c.tc : Thread nD τ).loc b) = StableHlo.after (ValueH.tail (F := F)) (W m c) (Proc.devRef .tc b) := by
  rw [(h c).2 b (Pipeline.mem_restRefs_of b ((by decide : ∀ b ∈ [main_v29, main_v53, main_v64], b.isScoped = false) b hb)
      ((by decide : ∀ b ∈ [main_v29, main_v53, main_v64], ∀ w, (spec0 w).arr.view.ref ≠ b) b hb))]
  unfold Pipeline.afterTail₀
  rw [flatten_tail]

/-- new_x, the logits and the probabilities of the kernel program, from the sums and the arguments as launched. -/
def kNewX (c : Dev nD) : FVec F S1x64x512 .f32 :=
  newX ((dats m 0 c).arrAt 1 cfg0.N) ((dats m 0 c).arrAt 2 cfg0.N) (m ((c : Thread nD τ).loc main_arg3)) (m ((c : Thread nD τ).loc main_arg4))
def kLogits (c : Dev nD) : FVec F S1x64x16 .f32 :=
  logits (kNewX m c) (wn (m ((c : Thread nD τ).loc main_arg1)) (m ((c : Thread nD τ).loc main_arg5)) (m ((c : Thread nD τ).loc main_arg6)))
    (m ((c : Thread nD τ).loc main_arg2))

/-- THE RUN with the results named. -/
theorem run : θ_run defs (onTc (τ := τ) (main (F := F))) ⟨m, fun _ => 0, ρ⟩ (fun r => ∀ c : Dev nD,
      r.2.mem ((c.tc : Thread nD τ).loc main_v29) = kNewX m c
      ∧ r.2.mem ((c.tc : Thread nD τ).loc main_v53) = kLogits m c
      ∧ r.2.mem ((c.tc : Thread nD τ).loc main_v64) = probs (kLogits m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨by rw [end_res m h c main_v29 (by decide), res29_eq, W_sum1, W_sum2, W_arg m c main_arg3 (by decide), W_arg m c main_arg4 (by decide)]; rfl,
     by rw [end_res m h c main_v53 (by decide), res53_eq, W_sum1, W_sum2, W_arg m c main_arg3 (by decide), W_arg m c main_arg4 (by decide),
          W_arg m c main_arg1 (by decide), W_arg m c main_arg5 (by decide), W_arg m c main_arg6 (by decide), W_arg m c main_arg2 (by decide)]; rfl,
     by rw [end_res m h c main_v64 (by decide), res64_eq, W_sum1, W_sum2, W_arg m c main_arg3 (by decide), W_arg m c main_arg4 (by decide),
          W_arg m c main_arg1 (by decide), W_arg m c main_arg5 (by decide), W_arg m c main_arg6 (by decide), W_arg m c main_arg2 (by decide)]; rfl,
     end_arg m (dats m) h c main_arg0 (by decide), end_arg m (dats m) h c main_arg1 (by decide), end_arg m (dats m) h c main_arg2 (by decide),
     end_arg m (dats m) h c main_arg3 (by decide), end_arg m (dats m) h c main_arg4 (by decide), end_arg m (dats m) h c main_arg5 (by decide),
     end_arg m (dats m) h c main_arg6 (by decide)⟩) (run_main m ρ)

end Cert.KernelIdeal.RunH

end
-- ==== Proof.Consts.lean ====
/-
  The float constants the two programs spell, as the extended reals their patterns denote:
  zero, 65536 (the number of entries per channel), 1024 (the number of positions per image and channel),
  and the ε added to the variance, a positive real.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_65536 : Ideal.ofBits .f32 0x47800000#32 = ((65536 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The ε of both normalisations: a positive real. -/
theorem ofBits_eps : ∃ e : ℝ, 0 < e ∧ Ideal.ofBits .f32 0x3727C5AC#32 = ((e : ℝ) : EReal) := by
  refine ⟨10995116 * (2 : ℝ) ^ (-40 : ℤ), by positivity, ?_⟩
  simp [Ideal.ofBits, Ideal.ieee, -EReal.coe_mul]

end Cert.Consts

end
-- ==== Proof.LibMergeLastTwo.lean ====
/-
  Merging the last two axes of a rank-5 array.

  A reshape [a, b, c, d, e] -> [a, b, c, n] with n = d · e keeps the row-major order, so entry (i, j, k, p · e + r) of the
  reshaped array is entry (i, j, k, p, r) of the array (`shapeCast_merge_apply`); the numbers below d · e are the
  p · e + r with p < d and r < e, once each (`sum_merged`); and the indices of the rank-5 array whose first three
  coordinates are (i, j, k) are the (i, j, k, p, r) (`filter_drop`). So the host's sum over the last two axes of the
  array is, entry by entry, the initial value plus the sum over the last axis of the reshaped array
  (`hostReduceAdd_lastTwo`), for any extents and any extended-real entries.
-/
import Idealize.ShloMosaic.Lib.Pipeline.Value
import Idealize.ShloMosaic.Lib.ValueIdx
import Idealize.ShloMosaic.PureOps.Ideal.Laws

noncomputable section

namespace Cert.Lib.MergeLastTwo

open Idealize.ShloMosaic Idealize.ShloMosaic.ValueIdx Finset

variable {a b c d e : ℕ}

/-- `p · e + r` is below `d · e` for `p < d`, `r < e`. -/
theorem merged_lt (p : Fin d) (r : Fin e) : p.val * e + r.val < d * e := by
  have hp := p.isLt
  have hr := r.isLt
  calc p.val * e + r.val < p.val * e + e := by omega
    _ = (p.val + 1) * e := by ring
    _ ≤ d * e := Nat.mul_le_mul_right e hp

/-- The reshaped array at (i, j, k, p · e + r) is the array at (i, j, k, p, r): the same row-major position. -/
theorem shapeCast_merge_apply {α : Type} {n : ℕ} (hn : d * e = n) (x : (⟨5, ![a, b, c, d, e]⟩ : Shape).Idx → α)
    (h : (⟨5, ![a, b, c, d, e]⟩ : Shape).ShapeCasts ⟨4, ![a, b, c, n]⟩)
    (i : Fin a) (j : Fin b) (k : Fin c) (p : Fin d) (r : Fin e) :
    shapeCast ⟨4, ![a, b, c, n]⟩ x h (ix4 i j k ⟨p.val * e + r.val, hn ▸ merged_lt p r⟩) = x (ix5 i j k p r) := by
  subst hn
  exact shapeCast_apply x h _ _ (by
    rw [Shape.rowMajor_val_five, Shape.rowMajor_val_four]
    show (((i.val * b + j.val) * c + k.val) * d + p.val) * e + r.val
      = ((i.val * b + j.val) * c + k.val) * (d * e) + (p.val * e + r.val)
    ring)

/-- A sum over the numbers below `d · e` is the double sum over `p < d`, `r < e` at `p · e + r`. -/
theorem sum_merged {M : Type} [AddCommMonoid M] {n : ℕ} (hn : d * e = n) (f : Fin n → M) :
    ∑ m : Fin n, f m = ∑ p : Fin d, ∑ r : Fin e, f ⟨p.val * e + r.val, hn ▸ merged_lt p r⟩ := by
  subst hn
  rw [← (finProdFinEquiv : Fin d × Fin e ≃ Fin (d * e)).sum_comp f, Fintype.sum_prod_type]
  refine sum_congr rfl fun p _ => sum_congr rfl fun r _ => congrArg f (Fin.ext ?_)
  rw [finProdFinEquiv_apply_val]
  show r.val + e * p.val = p.val * e + r.val
  ring

/-- Dropping the last two coordinates of (i, j, k, p, r) leaves (i, j, k). -/
theorem drop_ix5 (h' : (⟨5, ![a, b, c, d, e]⟩ : Shape).ReducesTo [3, 4] ⟨3, ![a, b, c]⟩)
    (i : Fin a) (j : Fin b) (k : Fin c) (p : Fin d) (r : Fin e) : h'.drop (ix5 i j k p r) = ix3 i j k :=
  funext fun x => Fin.ext (by match x with | ⟨0, _⟩ => rfl | ⟨1, _⟩ => rfl | ⟨2, _⟩ => rfl)

/-- The indices with first coordinates (i, j, k), listed by their last two. -/
def lastTwo (i : Fin a) (j : Fin b) (k : Fin c) : Fin d × Fin e ↪ (⟨5, ![a, b, c, d, e]⟩ : Shape).Idx :=
  ⟨fun pr => ix5 i j k pr.1 pr.2, fun pr pr' h => Prod.ext (congrFun h 3) (congrFun h 4)⟩

/-- The indices that drop to (i, j, k) are exactly those. -/
theorem filter_drop (h' : (⟨5, ![a, b, c, d, e]⟩ : Shape).ReducesTo [3, 4] ⟨3, ![a, b, c]⟩)
    (i : Fin a) (j : Fin b) (k : Fin c) :
    univ.filter (fun I : (⟨5, ![a, b, c, d, e]⟩ : Shape).Idx => h'.drop I = ix3 i j k) = univ.map (lastTwo i j k) := by
  ext I
  simp only [mem_filter, mem_univ, true_and, mem_map, lastTwo, Function.Embedding.coeFn_mk, Prod.exists]
  constructor
  · intro h
    refine ⟨I 3, I 4, ?_⟩
    have e0 : (I 0).val = i.val := congrArg Fin.val (congrFun h 0)
    have e1 : (I 1).val = j.val := congrArg Fin.val (congrFun h 1)
    have e2 : (I 2).val = k.val := congrArg Fin.val (congrFun h 2)
    refine funext fun x => Fin.ext ?_
    match x with
    | ⟨0, _⟩ => exact e0.symm
    | ⟨1, _⟩ => exact e1.symm
    | ⟨2, _⟩ => exact e2.symm
    | ⟨3, _⟩ => rfl
    | ⟨4, _⟩ => rfl
  · rintro ⟨p, r, rfl⟩
    exact drop_ix5 h' i j k p r

/-- THE HOST'S SUM OVER THE LAST TWO AXES, entry by entry: the initial value plus the sum over the merged axis of the
    reshaped array. -/
theorem hostReduceAdd_lastTwo {n : ℕ} (hn : d * e = n)
    (h' : (⟨5, ![a, b, c, d, e]⟩ : Shape).ReducesTo [3, 4] ⟨3, ![a, b, c]⟩)
    (hc : (⟨5, ![a, b, c, d, e]⟩ : Shape).ShapeCasts ⟨4, ![a, b, c, n]⟩)
    (x : (⟨5, ![a, b, c, d, e]⟩ : Shape).Idx → EReal) (init : EReal) (i : Fin a) (j : Fin b) (k : Fin c) :
    Ideal.hostReduceAdd h' x init (ix3 i j k)
      = init + ∑ m : Fin n, shapeCast ⟨4, ![a, b, c, n]⟩ x hc (ix4 i j k m) := by
  unfold Ideal.hostReduceAdd
  rw [filter_drop h' i j k, sum_map, Fintype.sum_prod_type, sum_merged hn]
  refine congrArg (init + ·) (sum_congr rfl fun p _ => sum_congr rfl fun r _ => ?_)
  exact (shapeCast_merge_apply hn x hc i j k p r).symm

end Cert.Lib.MergeLastTwo

end
-- ==== Proof.KerArrPay.lean ====
/- What one call of the kernel body leaves in its two output blocks, entry by entry, at the ideal values: entry (p, q) of
   the first is the sum of the 1024 entries of row (p, q) of the input block, and of the second the sum of their squares. -/
import proofs.«100338_j23983097381582_2_alg».proof.Proof.KIFrame
import proofs.«100338_j23983097381582_2_alg».proof.Proof.Consts
import proofs.«100338_j23983097381582_2_alg».proof.Proof.LibMergeLastTwo
import Idealize.ShloMosaic.Lib.Pipeline.Value
import Idealize.ShloMosaic.Lib.ValueIdx
import Idealize.ShloMosaic.PureOps.Ideal.Laws

noncomputable section

namespace Cert.KernelIdeal.ArrH

open Cert.KernelIdeal Cert.KernelIdeal.Gen Cert.KernelIdeal.FrameH
open Idealize.ShloMosaic Idealize.ShloMosaic.ValueIdx Idealize.ShloMosaic.TcCoe
open Cert.Lib.MergeLastTwo

theorem hz2 : (![0, 0] : Fin 2 → Nat) = fun _ => 0 := funext fun a => by fin_cases a <;> rfl

/-- The body's r-th load starts at column 256 · r of the input block. -/
theorem off_slab : ∀ r : Fin 4, k0_off1 (BitVec.ofNat 32 r.val) = ![0, 0, r.val * 256] := by decide

/-- Inserting k on the last axis of the index (p, q). -/
theorem lift_ix (p : Fin 16) (q : Fin 128) (k : Fin 256) :
    reduces_S16x128x256_S16x128.lift (ix2 p q) k = ix3 p q k :=
  funext fun a => Fin.ext (by match a with | ⟨0, _⟩ => rfl | ⟨1, _⟩ => rfl | ⟨2, _⟩ => rfl)

/-- A sum over the last axis of a [16, 128, 256] slab, at an entry. -/
theorem lane_sum (v : Vec Ideal S16x128x256 .f32) (p : Fin 16) (q : Fin 128) :
    multiReduction (F := Ideal) .add [2] S16x128 v 0x00000000#32 reduces_S16x128x256_S16x128 (.inl rfl) rfl (ix2 p q)
      = ∑ k : Fin 256, v (ix3 p q k) :=
  (Ideal.multiReduction_add_single v 0x00000000#32 reduces_S16x128x256_S16x128 (.inl rfl) rfl (ix2 p q)).trans
    (Finset.sum_congr rfl fun k _ => congrArg v (lift_ix p q k))

/-- Entry (p, q, k) of the r-th slab the body loads is entry (p, q, 256 · r + k) of the block. -/
theorem slab_apply (x0 : Vec Ideal S16x128x1024 .f32) (r : Fin 4) (p : Fin 16) (q : Fin 128) (k : Fin 256) :
    View.ld x0 (Rect.unit (s := S16x128x1024) (k0_off1 (BitVec.ofNat 32 r.val)) S16x128x256.size (k0_off1_inb r)) (ix3 p q k)
      = x0 (ix3 p q ⟨r.val * 256 + k.val, merged_lt r k⟩) := by
  show x0 _ = x0 _
  refine congrArg x0 (funext fun a => Fin.ext ?_)
  show k0_off1 (BitVec.ofNat 32 r.val) a + 1 * (ix3 p q k a).val = _
  rw [off_slab r]
  match a with
  | ⟨0, _⟩ => show 0 + 1 * p.val = p.val; omega
  | ⟨1, _⟩ => show 0 + 1 * q.val = q.val; omega
  | ⟨2, _⟩ => show r.val * 256 + 1 * k.val = r.val * 256 + k.val; omega

/-- THE FIRST OUTPUT BLOCK, entry by entry: the sum of the row of the input block. -/
theorem out0_1_apply (x0 : Vec Ideal S16x128x1024 .f32) (p : Fin 16) (q : Fin 128) :
    out0_1 x0 (ix2 p q) = ∑ k : Fin 1024, x0 (ix3 p q k) := by
  unfold out0_1
  rw [View.canon_unit_zero hz2]
  unfold k0_pay2 k0_pay8 k0_pay1 k0_pay4 k0_pay5 k0_pay6 k0_pay7
  simp only [shapeCast_self]
  rw [addf_apply, addf_apply, addf_apply, addf_apply, broadcast_apply, lane_sum, lane_sum, lane_sum, lane_sum,
    show (FloatOps.ofBits FTy.f32 0x00000000#32 : Ideal .f32) = 0 from Cert.Consts.ofBits_zero, zero_add,
    sum_merged (d := 4) (e := 256) (by norm_num : 4 * 256 = 1024), Fin.sum_univ_four]
  refine congrArg₂ (· + ·) (congrArg₂ (· + ·) (congrArg₂ (· + ·) ?_ ?_) ?_) ?_
  · exact Finset.sum_congr rfl fun k _ => slab_apply x0 0 p q k
  · exact Finset.sum_congr rfl fun k _ => slab_apply x0 1 p q k
  · exact Finset.sum_congr rfl fun k _ => slab_apply x0 2 p q k
  · exact Finset.sum_congr rfl fun k _ => slab_apply x0 3 p q k

/-- THE SECOND OUTPUT BLOCK, entry by entry: the sum of the squares of the row of the input block. -/
theorem out0_2_apply (x0 : Vec Ideal S16x128x1024 .f32) (p : Fin 16) (q : Fin 128) :
    out0_2 x0 (ix2 p q) = ∑ k : Fin 1024, x0 (ix3 p q k) * x0 (ix3 p q k) := by
  unfold out0_2
  rw [View.canon_unit_zero hz2]
  unfold k0_pay3 k0_pay9 k0_pay1 k0_pay4 k0_pay5 k0_pay6 k0_pay7
  simp only [shapeCast_self]
  rw [addf_apply, addf_apply, addf_apply, addf_apply, broadcast_apply, lane_sum, lane_sum, lane_sum, lane_sum,
    show (FloatOps.ofBits FTy.f32 0x00000000#32 : Ideal .f32) = 0 from Cert.Consts.ofBits_zero, zero_add,
    sum_merged (d := 4) (e := 256) (by norm_num : 4 * 256 = 1024), Fin.sum_univ_four]
  refine congrArg₂ (· + ·) (congrArg₂ (· + ·) (congrArg₂ (· + ·) ?_ ?_) ?_) ?_
  · exact Finset.sum_congr rfl fun k _ => (mulf_apply _ _ _).trans (congrArg₂ (· * ·) (slab_apply x0 0 p q k) (slab_apply x0 0 p q k))
  · exact Finset.sum_congr rfl fun k _ => (mulf_apply _ _ _).trans (congrArg₂ (· * ·) (slab_apply x0 1 p q k) (slab_apply x0 1 p q k))
  · exact Finset.sum_congr rfl fun k _ => (mulf_apply _ _ _).trans (congrArg₂ (· * ·) (slab_apply x0 2 p q k) (slab_apply x0 2 p q k))
  · exact Finset.sum_congr rfl fun k _ => (mulf_apply _ _ _).trans (congrArg₂ (· * ·) (slab_apply x0 3 p q k) (slab_apply x0 3 p q k))

end Cert.KernelIdeal.ArrH

end
-- ==== Proof.KerArr.lean ====
/- The kernel's two result arrays after the run, entry by entry, at the ideal values: entry (b, ch) of the first is the sum
   of the argument over the 32 × 32 positions of image b, channel ch, and of the second the sum of the squares. Each grid
   point (s, u) writes the 16 × 128 block of rows 16 s …, channels 128 u …; the sixteen blocks tile the [64, 512] arrays;
   the array the region reads is the argument with its last two axes merged. -/
import proofs.«100338_j23983097381582_2_alg».proof.Proof.KerArrPay

noncomputable section

namespace Cert.KernelIdeal.ArrH

open Cert.KernelIdeal Cert.KernelIdeal.Gen Cert.KernelIdeal.FrameH
open Idealize.ShloMosaic Idealize.ShloMosaic.ValueIdx Idealize.ShloMosaic.TcCoe Idealize.SL.Sem
open Idealize.ShloMosaic.Pipeline (Dat)
open Cert.Lib.MergeLastTwo

variable (m : (ℓ : Loc nD τ sig) → Buf (Elt Ideal) ℓ)

/-! ## The two arrays as functions of the merged array -/

/-- The sums over the last axis of a [64, 512, 1024] array. -/
def rowSum (X : S64x512x1024.Idx → EReal) : S64x512.Idx → EReal := fun i =>
  ∑ k : Fin 1024, X (ix3 (⟨(i 0).val, idx2_lt0 i⟩ : Fin 64) (⟨(i 1).val, idx2_lt1 i⟩ : Fin 512) k)

/-- The sums of squares over the last axis. -/
def rowSumSq (X : S64x512x1024.Idx → EReal) : S64x512.Idx → EReal := fun i =>
  ∑ k : Fin 1024, X (ix3 (⟨(i 0).val, idx2_lt0 i⟩ : Fin 64) (⟨(i 1).val, idx2_lt1 i⟩ : Fin 512) k)
    * X (ix3 (⟨(i 0).val, idx2_lt0 i⟩ : Fin 64) (⟨(i 1).val, idx2_lt1 i⟩ : Fin 512) k)

/-- A block of the array whose rows start at 16 · a0 and channels at 128 · a1: the body's first result on it is the
    matching block of the row sums. -/
theorem block_rowSum (x0 : Vec Ideal S16x128x1024 .f32) (X : S64x512x1024.Idx → EReal) (a0 a1 : ℕ)
    (hx : ∀ (p : Fin 16) (q : Fin 128) (k : Fin 1024) (i : S64x512x1024.Idx),
      (i 0).val = a0 * 16 + p.val → (i 1).val = a1 * 128 + q.val → (i 2).val = k.val → x0 (ix3 p q k) = X i)
    (j : S16x128.Idx) (i : S64x512.Idx) (h0 : (i 0).val = a0 * 16 + (j 0).val) (h1 : (i 1).val = a1 * 128 + (j 1).val) :
    out0_1 x0 j = rowSum X i := by
  obtain ⟨p, q, rfl⟩ : ∃ (p : Fin 16) (q : Fin 128), j = ix2 p q := ⟨j 0, j 1, eq_ix2 j⟩
  rw [out0_1_apply]
  unfold rowSum
  exact Finset.sum_congr rfl fun k _ => hx p q k _ h0 h1 rfl

/-- And its second result the matching block of the sums of squares. -/
theorem block_rowSumSq (x0 : Vec Ideal S16x128x1024 .f32) (X : S64x512x1024.Idx → EReal) (a0 a1 : ℕ)
    (hx : ∀ (p : Fin 16) (q : Fin 128) (k : Fin 1024) (i : S64x512x1024.Idx),
      (i 0).val = a0 * 16 + p.val → (i 1).val = a1 * 128 + q.val → (i 2).val = k.val → x0 (ix3 p q k) = X i)
    (j : S16x128.Idx) (i : S64x512.Idx) (h0 : (i 0).val = a0 * 16 + (j 0).val) (h1 : (i 1).val = a1 * 128 + (j 1).val) :
    out0_2 x0 j = rowSumSq X i := by
  obtain ⟨p, q, rfl⟩ : ∃ (p : Fin 16) (q : Fin 128), j = ix2 p q := ⟨j 0, j 1, eq_ix2 j⟩
  rw [out0_2_apply]
  unfold rowSumSq
  exact Finset.sum_congr rfl fun k _ => congrArg₂ (· * ·) (hx p q k _ h0 h1 rfl) (hx p q k _ h0 h1 rfl)

/-! ## The blocks of the sixteen grid points -/

/-- The printed index maps over the grid: point t is (t / 4, t % 4), and every window's block moves with it. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = t.val / 4 ∧ win0_1.index t (1 : Fin 2) = t.val % 4
    ∧ win0_2.index t (0 : Fin 2) = t.val / 4 ∧ win0_2.index t (1 : Fin 2) = t.val % 4 :=
  (by decide +kernel : ∀ t : Fin grid0.N, _)

/-- The input block at point t is rows 16 (t / 4) …, channels 128 (t % 4) … of the array the region reads. -/
theorem iblk_apply (c : Dev nD) (t : Fin cfg0.N) (p : Fin 16) (q : Fin 128) (k : Fin 1024) (i : S64x512x1024.Idx)
    (h0 : (i 0).val = t.val / 4 * 16 + p.val) (h1 : (i 1).val = t.val % 4 * 128 + q.val) (h2 : (i 2).val = k.val) :
    (iblk m c 0 t : Vec Ideal S16x128x1024 .f32) (ix3 p q k) = (V m c main_v0 : S64x512x1024.Idx → EReal) i := by
  obtain ⟨e0, e1, e2, -⟩ := idx_facts t
  unfold iblk
  rw [View.read_apply]
  show V m c main_v0 (((cfg0.win 0).blk t).view.emb (ix3 p q k)) = V m c main_v0 i
  refine congrArg _ (funext fun a => Fin.ext ?_)
  match a with
  | ⟨0, _⟩ => show win0_0.index t (0 : Fin 3) * 16 + 1 * p.val = (i 0).val; rw [e0, h0]; omega
  | ⟨1, _⟩ => show win0_0.index t (1 : Fin 3) * 128 + 1 * q.val = (i 1).val; rw [e1, h1]; omega
  | ⟨2, _⟩ => show win0_0.index t (2 : Fin 3) * 1024 + 1 * k.val = (i 2).val; rw [e2, h2]; omega

/-- What point t writes back to the first result array is block t of the row sums. -/
theorem flushed1_eq (c : Dev nD) (t : Fin cfg0.N) :
    (dats (F := Ideal) m 0 c).flushed 1 t = ((cfg0.win 1).blk t).view.read (Elt Ideal) (rowSum (V m c main_v0)) := by
  show (cfg0.win 1).cut (grid0.coords t) ((dats m 0 c).after 1 t) = _
  rw [after0_1]
  obtain ⟨-, -, -, e3, e4, -⟩ := idx_facts t
  funext j
  show out0_1 (iblk m c 0 t) j = rowSum (V m c main_v0) (((cfg0.win 1).blk t).view.emb j)
  refine block_rowSum (iblk m c 0 t) (V m c main_v0) (t.val / 4) (t.val % 4) (iblk_apply m c t) j _ ?_ ?_
  · show win0_1.index t (0 : Fin 2) * 16 + 1 * (j 0).val = t.val / 4 * 16 + (j 0).val; rw [e3]; omega
  · show win0_1.index t (1 : Fin 2) * 128 + 1 * (j 1).val = t.val % 4 * 128 + (j 1).val; rw [e4]; omega

/-- What point t writes back to the second result array is block t of the sums of squares. -/
theorem flushed2_eq (c : Dev nD) (t : Fin cfg0.N) :
    (dats (F := Ideal) m 0 c).flushed 2 t = ((cfg0.win 2).blk t).view.read (Elt Ideal) (rowSumSq (V m c main_v0)) := by
  show (cfg0.win 2).cut (grid0.coords t) ((dats m 0 c).after 2 t) = _
  rw [after0_2]
  obtain ⟨-, -, -, -, -, e5, e6⟩ := idx_facts t
  funext j
  show out0_2 (iblk m c 0 t) j = rowSumSq (V m c main_v0) (((cfg0.win 2).blk t).view.emb j)
  refine block_rowSumSq (iblk m c 0 t) (V m c main_v0) (t.val / 4) (t.val % 4) (iblk_apply m c t) j _ ?_ ?_
  · show win0_2.index t (0 : Fin 2) * 16 + 1 * (j 0).val = t.val / 4 * 16 + (j 0).val; rw [e5]; omega
  · show win0_2.index t (1 : Fin 2) * 128 + 1 * (j 1).val = t.val % 4 * 128 + (j 1).val; rw [e6]; omega

/-! ## The blocks tile the arrays -/

/-- An entry of a result array is in point t's block iff each coordinate is in the block's range. -/
theorem mem_blk1 (t : Fin cfg0.N) (i : S64x512.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v1_0).slice (win0_1.rect t)).set ↔ _
  rw [View.set_slice_whole, Rect.mem_set_unit]
  exact Iff.rfl
theorem mem_blk2 (t : Fin cfg0.N) (i : S64x512.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v1_1).slice (win0_2.rect t)).set ↔ _
  rw [View.set_slice_whole, Rect.mem_set_unit]
  exact Iff.rfl

/-- Row r, channel ch lie in the block of point 4 (r / 16) + ch / 128. -/
theorem cover1 (i : S64x512.Idx) : ∃ t : Fin cfg0.N, (cfg0.win 1).flush t = true ∧ i ∈ ((cfg0.win 1).blk t).view.set := by
  have hi0 : (i 0).val < 64 := idx2_lt0 i
  have hi1 : (i 1).val < 512 := idx2_lt1 i
  have hN : cfg0.N = 16 := N_0
  obtain ⟨t, ht⟩ : ∃ t : Fin cfg0.N, t.val = 4 * ((i 0).val / 16) + (i 1).val / 128 := ⟨⟨4 * ((i 0).val / 16) + (i 1).val / 128, by rw [hN]; omega⟩, rfl⟩
  obtain ⟨-, -, -, e3, e4, -⟩ := idx_facts t
  refine ⟨t, flush0_1 t, ?_⟩
  rw [mem_blk1]
  intro a
  match a with
  | ⟨0, _⟩ => show win0_1.index t (0 : Fin 2) * 16 ≤ (i 0).val ∧ (i 0).val < win0_1.index t (0 : Fin 2) * 16 + 16; rw [e3, ht]; omega
  | ⟨1, _⟩ => show win0_1.index t (1 : Fin 2) * 128 ≤ (i 1).val ∧ (i 1).val < win0_1.index t (1 : Fin 2) * 128 + 128; rw [e4, ht]; omega
theorem cover2 (i : S64x512.Idx) : ∃ t : Fin cfg0.N, (cfg0.win 2).flush t = true ∧ i ∈ ((cfg0.win 2).blk t).view.set := by
  have hi0 : (i 0).val < 64 := idx2_lt0 i
  have hi1 : (i 1).val < 512 := idx2_lt1 i
  have hN : cfg0.N = 16 := N_0
  obtain ⟨t, ht⟩ : ∃ t : Fin cfg0.N, t.val = 4 * ((i 0).val / 16) + (i 1).val / 128 := ⟨⟨4 * ((i 0).val / 16) + (i 1).val / 128, by rw [hN]; omega⟩, rfl⟩
  obtain ⟨-, -, -, -, -, e5, e6⟩ := idx_facts t
  refine ⟨t, flush0_2 t, ?_⟩
  rw [mem_blk2]
  intro a
  match a with
  | ⟨0, _⟩ => show win0_2.index t (0 : Fin 2) * 16 ≤ (i 0).val ∧ (i 0).val < win0_2.index t (0 : Fin 2) * 16 + 16; rw [e5, ht]; omega
  | ⟨1, _⟩ => show win0_2.index t (1 : Fin 2) * 128 ≤ (i 1).val ∧ (i 1).val < win0_2.index t (1 : Fin 2) * 128 + 128; rw [e6, ht]; omega

/-- So the first result array ends holding the row sums of the array the region reads, -/
theorem arr1_eq (c : Dev nD) : (dats (F := Ideal) m 0 c).arrAt 1 cfg0.N = rowSum (V m c main_v0) :=
  (dats m 0 c).arrAt_eq_of_cover 1 (rowSum (V m c main_v0)) (fun t _ => flushed1_eq m c t) cover1
/-- and the second the sums of squares. -/
theorem arr2_eq (c : Dev nD) : (dats (F := Ideal) m 0 c).arrAt 2 cfg0.N = rowSumSq (V m c main_v0) :=
  (dats m 0 c).arrAt_eq_of_cover 2 (rowSumSq (V m c main_v0)) (fun t _ => flushed2_eq m c t) cover2

/-! ## The array the region reads is the argument with its last two axes merged -/

theorem V_main_v0 (c : Dev nD) : (V m c main_v0 : S64x512x1024.Idx → EReal)
    = shapeCast S64x512x1024 (m ((c.tc : Thread nD τ).loc main_arg0) : S64x512x32x32.Idx → EReal) shapeCasts_S64x512x32x32_S64x512x1024 := by
  show StableHlo.after hostOps0 (fun b => m (c, b)) (Proc.devRef .tc main_v0) = _
  after_results
  rfl

/-- Entry (b, ch, 32 h + w) of the merged array is entry (b, ch, h, w) of the argument. -/
theorem merged_apply (x : S64x512x32x32.Idx → EReal) (b : Fin 64) (ch : Fin 512) (h : Fin 32) (w : Fin 32) :
    shapeCast S64x512x1024 x shapeCasts_S64x512x32x32_S64x512x1024 (ix3 b ch ⟨h.val * 32 + w.val, merged_lt h w⟩) = x (ix4 b ch h w) :=
  shapeCast_apply x _ _ _ (by
    rw [Shape.rowMajor_val_four, Shape.rowMajor_val_three]
    show ((b.val * 512 + ch.val) * 32 + h.val) * 32 + w.val = (b.val * 512 + ch.val) * 1024 + (h.val * 32 + w.val)
    ring)

/-! ## The result arrays as functions of the argument -/

/-- The sums of a [64, 512, 32, 32] array over its 32 × 32 positions. -/
def chanSum (x : S64x512x32x32.Idx → EReal) : S64x512.Idx → EReal := fun i =>
  ∑ h : Fin 32, ∑ w : Fin 32, x (ix4 (⟨(i 0).val, idx2_lt0 i⟩ : Fin 64) (⟨(i 1).val, idx2_lt1 i⟩ : Fin 512) h w)

/-- The sums of its squares over the positions. -/
def chanSumSq (x : S64x512x32x32.Idx → EReal) : S64x512.Idx → EReal := fun i =>
  ∑ h : Fin 32, ∑ w : Fin 32, x (ix4 (⟨(i 0).val, idx2_lt0 i⟩ : Fin 64) (⟨(i 1).val, idx2_lt1 i⟩ : Fin 512) h w)
    * x (ix4 (⟨(i 0).val, idx2_lt0 i⟩ : Fin 64) (⟨(i 1).val, idx2_lt1 i⟩ : Fin 512) h w)

theorem chanSum_apply (x : S64x512x32x32.Idx → EReal) (b : Fin 64) (ch : Fin 512) :
    chanSum x (ix2 b ch) = ∑ h : Fin 32, ∑ w : Fin 32, x (ix4 b ch h w) := rfl
theorem chanSumSq_apply (x : S64x512x32x32.Idx → EReal) (b : Fin 64) (ch : Fin 512) :
    chanSumSq x (ix2 b ch) = ∑ h : Fin 32, ∑ w : Fin 32, x (ix4 b ch h w) * x (ix4 b ch h w) := rfl

/-- A sum over the merged axis is the double sum over the positions. -/
theorem rowSum_merged (x : S64x512x32x32.Idx → EReal) :
    rowSum (shapeCast S64x512x1024 x shapeCasts_S64x512x32x32_S64x512x1024) = chanSum x := by
  funext i
  unfold rowSum chanSum
  rw [sum_merged (d := 32) (e := 32) (by norm_num : 32 * 32 = 1024)]
  exact Finset.sum_congr rfl fun h _ => Finset.sum_congr rfl fun w _ => merged_apply x _ _ h w
theorem rowSumSq_merged (x : S64x512x32x32.Idx → EReal) :
    rowSumSq (shapeCast S64x512x1024 x shapeCasts_S64x512x32x32_S64x512x1024) = chanSumSq x := by
  funext i
  unfold rowSumSq chanSumSq
  rw [sum_merged (d := 32) (e := 32) (by norm_num : 32 * 32 = 1024)]
  exact Finset.sum_congr rfl fun h _ => Finset.sum_congr rfl fun w _ =>
    congrArg₂ (· * ·) (merged_apply x _ _ h w) (merged_apply x _ _ h w)

/-- THE FIRST RESULT ARRAY after the run: the sums of the argument over the positions of each image and channel. -/
theorem sum1_array (c : Dev nD) :
    (dats (F := Ideal) m 0 c).arrAt 1 cfg0.N = chanSum (m ((c.tc : Thread nD τ).loc main_arg0)) :=
  (arr1_eq m c).trans ((congrArg rowSum (V_main_v0 m c)).trans (rowSum_merged _))

/-- THE SECOND RESULT ARRAY after the run: the sums of the squares. -/
theorem sum2_array (c : Dev nD) :
    (dats (F := Ideal) m 0 c).arrAt 2 cfg0.N = chanSumSq (m ((c.tc : Thread nD τ).loc main_arg0)) :=
  (arr2_eq m c).trans ((congrArg rowSumSq (V_main_v0 m c)).trans (rowSumSq_merged _))

/-- The same entry by entry, the argument array named `x`. -/
theorem sum1_final (c : Dev nD) (b : Fin 64) (ch : Fin 512) (x : S64x512x32x32.Idx → EReal)
    (hx : m ((c.tc : Thread nD τ).loc main_arg0) = x) :
    @Eq EReal (((dats (F := Ideal) m 0 c).arrAt 1 cfg0.N : S64x512.Idx → EReal) (ix2 b ch))
      (∑ h : Fin 32, ∑ w : Fin 32, x (ix4 b ch h w)) := by
  subst hx
  exact congrFun (sum1_array m c) (ix2 b ch)
theorem sum2_final (c : Dev nD) (b : Fin 64) (ch : Fin 512) (x : S64x512x32x32.Idx → EReal)
    (hx : m ((c.tc : Thread nD τ).loc main_arg0) = x) :
    @Eq EReal (((dats (F := Ideal) m 0 c).arrAt 2 cfg0.N : S64x512.Idx → EReal) (ix2 b ch))
      (∑ h : Fin 32, ∑ w : Fin 32, x (ix4 b ch h w) * x (ix4 b ch h w)) := by
  subst hx
  exact congrFun (sum2_array m c) (ix2 b ch)

end Cert.KernelIdeal.ArrH

end
-- ==== Proof.RefRun.lean ====
/-
  The reference program's @main as a straight line of host operations, and its run.

  @main is printed in two windows, and two of its statements are calls of module-local functions (the biased
  variance over the batch and spatial axes, which itself calls the select helper; and the same over the feature axis
  of the transposed weights). A call means the callee's body on the call's buffers, so @main is ONE list of
  operations once each body is written at its call site over that call's buffer record. The list is cut where the
  three results are complete:

    ops0  the channel statistics of the input, the normalised input scaled and shifted, and its spatial mean (%22);
    ops1  the transposed weights, their statistics along the feature axis, normalised, scaled, shifted, transposed back (%42);
    ops2  the contraction of the two, plus the bias (%46);
    ops3  the softmax of that along the last axis (%57).

  `main_eq` says @main is the sequence of these operations; `run_main` that every weakly fair execution from zero
  counters terminates with each buffer at the fold of the operations over the launch contents; `frame` that the seven
  argument buffers, which no operation writes, end as they started.
-/
import proofs.«100338_j23983097381582_2_alg».proof.Proof.Gen.ReferenceIdeal
import Idealize.ShloMosaic.Lib.StableHlo.Run
import Idealize.ShloMosaic.Lib.Pipeline.Regions

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The operations up to the first result: the per-channel mean and biased variance of the input over the batch and
    spatial axes (the variance through the called function, its select included), the input normalised by them, scaled
    and shifted per channel, and averaged over the spatial axes. -/
abbrev ops0 : List (HloOp τ sig (Elt F)) :=
  [ StableHlo.nullary main_cst (constant S_ .f32 0x00000000#32),
    StableHlo.binary main_arg0 main_cst main_v0 ((fun x v => Host.reduceAdd x v reducesTo_S64x512x32x32_S512_d0_2_3 h_S_) : (⟨S64x512x32x32, .f32⟩ : BufTy).Contents (Elt F) → (⟨S_, .f32⟩ : BufTy).Contents (Elt F) → (⟨S512, .f32⟩ : BufTy).Contents (Elt F)),
    StableHlo.nullary main_cst_0 (constant S_ .f32 0x47800000#32),
    StableHlo.unary main_cst_0 main_v1 (broadcastInDim S512 ![] bcast_S_S512 : (⟨S_, .f32⟩ : BufTy).Contents (Elt F) → (⟨S512, .f32⟩ : BufTy).Contents (Elt F)),
    StableHlo.binary main_v0 main_v1 main_v2 (Host.divf : (⟨S512, .f32⟩ : BufTy).Contents (Elt F) → (⟨S512, .f32⟩ : BufTy).Contents (Elt F) → (⟨S512, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_arg0 : StableHlo.TRef sig ⟨S64x512x32x32, .f32⟩) (.of main_call0_cst : StableHlo.TRef sig ⟨S_, .f32⟩) (.of main_call0_v0 : StableHlo.TRef sig ⟨S512, .f32⟩) (fun x v => Host.reduceAdd x v reducesTo_S64x512x32x32_S512_d0_2_3 h_S_),
    StableHlo.TRef.unary (.of main_call0_v0 : StableHlo.TRef sig ⟨S512, .f32⟩) (.of main_call0_v1 : StableHlo.TRef sig ⟨S1x512x1x1, .f32⟩) (broadcastInDim S1x512x1x1 ![1] bcast_S512_S1x512x1x1_1),
    StableHlo.TRef.nullary (.of main_call0_cst_0 : StableHlo.TRef sig ⟨S_, .f32⟩) (constant S_ .f32 0x47800000#32),
    StableHlo.TRef.unary (.of main_call0_cst_0 : StableHlo.TRef sig ⟨S_, .f32⟩) (.of main_call0_v2 : StableHlo.TRef sig ⟨S1x512x1x1, .f32⟩) (broadcastInDim S1x512x1x1 ![] bcast_S_S1x512x1x1),
    StableHlo.TRef.binary (.of main_call0_v1 : StableHlo.TRef sig ⟨S1x512x1x1, .f32⟩) (.of main_call0_v2 : StableHlo.TRef sig ⟨S1x512x1x1, .f32⟩) (.of main_call0_v3 : StableHlo.TRef sig ⟨S1x512x1x1, .f32⟩) Host.divf,
    StableHlo.TRef.unary (.of main_call0_v3 : StableHlo.TRef sig ⟨S1x512x1x1, .f32⟩) (.of main_call0_v4 : StableHlo.TRef sig ⟨S64x512x32x32, .f32⟩) (broadcastInDim S64x512x32x32 ![0, 1, 2, 3] bcast_S1x512x1x1_S64x512x32x32_0_1_2_3),
    StableHlo.TRef.binary (.of main_arg0 : StableHlo.TRef sig ⟨S64x512x32x32, .f32⟩) (.of main_call0_v4 : StableHlo.TRef sig ⟨S64x512x32x32, .f32⟩) (.of main_call0_v5 : StableHlo.TRef sig ⟨S64x512x32x32, .f32⟩) subf,
    StableHlo.TRef.binary (.of main_call0_v5 : StableHlo.TRef sig ⟨S64x512x32x32, .f32⟩) (.of main_call0_v5 : StableHlo.TRef sig ⟨S64x512x32x32, .f32⟩) (.of main_call0_v6 : StableHlo.TRef sig ⟨S64x512x32x32, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x47800000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S64x512x32x32, .f32⟩) (.of main_call0_cst_2 : StableHlo.TRef sig ⟨S_, .f32⟩) (.of main_call0_v9 : StableHlo.TRef sig ⟨S512, .f32⟩) (fun x v => Host.reduceAdd x v reducesTo_S64x512x32x32_S512_d0_2_3 h_S_),
    StableHlo.TRef.unary (.of main_call0_v8 : StableHlo.TRef sig ⟨S_, .f32⟩) (.of main_call0_v10 : StableHlo.TRef sig ⟨S512, .f32⟩) (broadcastInDim S512 ![] bcast_S_S512),
    StableHlo.TRef.binary (.of main_call0_v9 : StableHlo.TRef sig ⟨S512, .f32⟩) (.of main_call0_v10 : StableHlo.TRef sig ⟨S512, .f32⟩) (.of main_call0_v11 : StableHlo.TRef sig ⟨S512, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S512, .f32⟩) (broadcastInDim S512 ![] bcast_S_S512),
    StableHlo.TRef.ternary (.of main_call0_v12 : StableHlo.TRef sig ⟨S_, .i1⟩) (.of main_call0_v11 : StableHlo.TRef sig ⟨S512, .f32⟩) (.of main_call0_call0_v1 : StableHlo.TRef sig ⟨S512, .f32⟩) (.of main_v3 : StableHlo.TRef sig ⟨S512, .f32⟩) (fun p a b => select (broadcastInDim S512 ![] bcast_S_S512 p) a b),
    StableHlo.unary main_v2 main_v4 (broadcastInDim S1x512x1x1 ![1] bcast_S512_S1x512x1x1_1 : (⟨S512, .f32⟩ : BufTy).Contents (Elt F) → (⟨S1x512x1x1, .f32⟩ : BufTy).Contents (Elt F)),
    StableHlo.unary main_v4 main_v5 (broadcastInDim S64x512x32x32 ![0, 1, 2, 3] bcast_S1x512x1x1_S64x512x32x32_0_1_2_3 : (⟨S1x512x1x1, .f32⟩ : BufTy).Contents (Elt F) → (⟨S64x512x32x32, .f32⟩ : BufTy).Contents (Elt F)),
    StableHlo.binary main_arg0 main_v5 main_v6 (subf : (⟨S64x512x32x32, .f32⟩ : BufTy).Contents (Elt F) → (⟨S64x512x32x32, .f32⟩ : BufTy).Contents (Elt F) → (⟨S64x512x32x32, .f32⟩ : BufTy).Contents (Elt F)),
    StableHlo.nullary main_cst_1 (constant S_ .f32 0x3727C5AC#32),
    StableHlo.unary main_cst_1 main_v7 (broadcastInDim S512 ![] bcast_S_S512 : (⟨S_, .f32⟩ : BufTy).Contents (Elt F) → (⟨S512, .f32⟩ : BufTy).Contents (Elt F)),
    StableHlo.binary main_v3 main_v7 main_v8 (addf : (⟨S512, .f32⟩ : BufTy).Contents (Elt F) → (⟨S512, .f32⟩ : BufTy).Contents (Elt F) → (⟨S512, .f32⟩ : BufTy).Contents (Elt F)),
    StableHlo.unary main_v8 main_v9 (Host.rsqrt : (⟨S512, .f32⟩ : BufTy).Contents (Elt F) → (⟨S512, .f32⟩ : BufTy).Contents (Elt F)),
    StableHlo.unary main_v9 main_v10 (broadcastInDim S1x512x1x1 ![1] bcast_S512_S1x512x1x1_1 : (⟨S512, .f32⟩ : BufTy).Contents (Elt F) → (⟨S1x512x1x1, .f32⟩ : BufTy).Contents (Elt F)),
    StableHlo.unary main_v10 main_v11 (broadcastInDim S64x512x32x32 ![0, 1, 2, 3] bcast_S1x512x1x1_S64x512x32x32_0_1_2_3 : (⟨S1x512x1x1, .f32⟩ : BufTy).Contents (Elt F) → (⟨S64x512x32x32, .f32⟩ : BufTy).Contents (Elt F)),
    StableHlo.binary main_v6 main_v11 main_v12 (mulf : (⟨S64x512x32x32, .f32⟩ : BufTy).Contents (Elt F) → (⟨S64x512x32x32, .f32⟩ : BufTy).Contents (Elt F) → (⟨S64x512x32x32, .f32⟩ : BufTy).Contents (Elt F)),
    StableHlo.unary main_arg3 main_v13 (broadcastInDim S1x1x512x1x1 ![0, 2] bcast_S1x512_S1x1x512x1x1_0_2 : (⟨S1x512, .f32⟩ : BufTy).Contents (Elt F) → (⟨S1x1x512x1x1, .f32⟩ : BufTy).Contents (Elt F)),
    StableHlo.unary main_v12 main_v14 (broadcastInDim S1x64x512x32x32 ![1, 2, 3, 4] bcast_S64x512x32x32_S1x64x512x32x32_1_2_3_4 : (⟨S64x512x32x32, .f32⟩ : BufTy).Contents (Elt F) → (⟨S1x64x512x32x32, .f32⟩ : BufTy).Contents (Elt F)),
    StableHlo.unary main_v13 main_v15 (broadcastInDim S1x64x512x32x32 ![0, 1, 2, 3, 4] bcast_S1x1x512x1x1_S1x64x512x32x32_0_1_2_3_4 : (⟨S1x1x512x1x1, .f32⟩ : BufTy).Contents (Elt F) → (⟨S1x64x512x32x32, .f32⟩ : BufTy).Contents (Elt F)),
    StableHlo.binary main_v14 main_v15 main_v16 (mulf : (⟨S1x64x512x32x32, .f32⟩ : BufTy).Contents (Elt F) → (⟨S1x64x512x32x32, .f32⟩ : BufTy).Contents (Elt F) → (⟨S1x64x512x32x32, .f32⟩ : BufTy).Contents (Elt F)),
    StableHlo.unary main_arg4 main_v17 (broadcastInDim S1x1x512x1x1 ![0, 2] bcast_S1x512_S1x1x512x1x1_0_2 : (⟨S1x512, .f32⟩ : BufTy).Contents (Elt F) → (⟨S1x1x512x1x1, .f32⟩ : BufTy).Contents (Elt F)),
    StableHlo.unary main_v17 main_v18 (broadcastInDim S1x64x512x32x32 ![0, 1, 2, 3, 4] bcast_S1x1x512x1x1_S1x64x512x32x32_0_1_2_3_4 : (⟨S1x1x512x1x1, .f32⟩ : BufTy).Contents (Elt F) → (⟨S1x64x512x32x32, .f32⟩ : BufTy).Contents (Elt F)),
    StableHlo.binary main_v16 main_v18 main_v19 (addf : (⟨S1x64x512x32x32, .f32⟩ : BufTy).Contents (Elt F) → (⟨S1x64x512x32x32, .f32⟩ : BufTy).Contents (Elt F) → (⟨S1x64x512x32x32, .f32⟩ : BufTy).Contents (Elt F)),
    StableHlo.nullary main_cst_2 (constant S_ .f32 0x00000000#32),
    StableHlo.binary main_v19 main_cst_2 main_v20 ((fun x v => Host.reduceAdd x v reducesTo_S1x64x512x32x32_S1x64x512_d3_4 h_S_) : (⟨S1x64x512x32x32, .f32⟩ : BufTy).Contents (Elt F) → (⟨S_, .f32⟩ : BufTy).Contents (Elt F) → (⟨S1x64x512, .f32⟩ : BufTy).Contents (Elt F)),
    StableHlo.nullary main_cst_3 (constant S_ .f32 0x44800000#32),
    StableHlo.unary main_cst_3 main_v21 (broadcastInDim S1x64x512 ![] bcast_S_S1x64x512 : (⟨S_, .f32⟩ : BufTy).Contents (Elt F) → (⟨S1x64x512, .f32⟩ : BufTy).Contents (Elt F)),
    StableHlo.binary main_v20 main_v21 main_v22 (Host.divf : (⟨S1x64x512, .f32⟩ : BufTy).Contents (Elt F) → (⟨S1x64x512, .f32⟩ : BufTy).Contents (Elt F) → (⟨S1x64x512, .f32⟩ : BufTy).Contents (Elt F)) ]

/-- The operations of the second stretch: the weights transposed, their mean and biased variance along the feature
    axis (the variance through the called function), the weights normalised, scaled and shifted per feature, and
    transposed back. -/
abbrev ops1 : List (HloOp τ sig (Elt F)) :=
  [ StableHlo.unary main_arg1 main_v23 ((transpose S1x16x512 [0, 2, 1] · transposes_S1x512x16_S1x16x512_0_2_1) : (⟨S1x512x16, .f32⟩ : BufTy).Contents (Elt F) → (⟨S1x16x512, .f32⟩ : BufTy).Contents (Elt F)),
    StableHlo.nullary main_cst_4 (constant S_ .f32 0x00000000#32),
    StableHlo.binary main_v23 main_cst_4 main_v24 ((fun x v => Host.reduceAdd x v reducesTo_S1x16x512_S1x16_d2 h_S_) : (⟨S1x16x512, .f32⟩ : BufTy).Contents (Elt F) → (⟨S_, .f32⟩ : BufTy).Contents (Elt F) → (⟨S1x16, .f32⟩ : BufTy).Contents (Elt F)),
    StableHlo.unary main_v24 main_v25 (broadcastInDim S1x16x1 ![0, 1] bcast_S1x16_S1x16x1_0_1 : (⟨S1x16, .f32⟩ : BufTy).Contents (Elt F) → (⟨S1x16x1, .f32⟩ : BufTy).Contents (Elt F)),
    StableHlo.nullary main_cst_5 (constant S_ .f32 0x44000000#32),
    StableHlo.unary main_cst_5 main_v26 (broadcastInDim S1x16x1 ![] bcast_S_S1x16x1 : (⟨S_, .f32⟩ : BufTy).Contents (Elt F) → (⟨S1x16x1, .f32⟩ : BufTy).Contents (Elt F)),
    StableHlo.binary main_v25 main_v26 main_v27 (Host.divf : (⟨S1x16x1, .f32⟩ : BufTy).Contents (Elt F) → (⟨S1x16x1, .f32⟩ : BufTy).Contents (Elt F) → (⟨S1x16x1, .f32⟩ : BufTy).Contents (Elt F)),
    StableHlo.nullary main_c_6 (constantI S_ 32 0#32),
    StableHlo.TRef.nullary (.of main_call1_cst : StableHlo.TRef sig ⟨S_, .f32⟩) (constant S_ .f32 0x00000000#32),
    StableHlo.TRef.binary (.of main_v23 : StableHlo.TRef sig ⟨S1x16x512, .f32⟩) (.of main_call1_cst : StableHlo.TRef sig ⟨S_, .f32⟩) (.of main_call1_v0 : StableHlo.TRef sig ⟨S1x16, .f32⟩) (fun x v => Host.reduceAdd x v reducesTo_S1x16x512_S1x16_d2 h_S_),
    StableHlo.TRef.unary (.of main_call1_v0 : StableHlo.TRef sig ⟨S1x16, .f32⟩) (.of main_call1_v1 : StableHlo.TRef sig ⟨S1x16x1, .f32⟩) (broadcastInDim S1x16x1 ![0, 1] bcast_S1x16_S1x16x1_0_1),
    StableHlo.TRef.nullary (.of main_call1_cst_0 : StableHlo.TRef sig ⟨S_, .f32⟩) (constant S_ .f32 0x44000000#32),
    StableHlo.TRef.unary (.of main_call1_cst_0 : StableHlo.TRef sig ⟨S_, .f32⟩) (.of main_call1_v2 : StableHlo.TRef sig ⟨S1x16x1, .f32⟩) (broadcastInDim S1x16x1 ![] bcast_S_S1x16x1),
    StableHlo.TRef.binary (.of main_call1_v1 : StableHlo.TRef sig ⟨S1x16x1, .f32⟩) (.of main_call1_v2 : StableHlo.TRef sig ⟨S1x16x1, .f32⟩) (.of main_call1_v3 : StableHlo.TRef sig ⟨S1x16x1, .f32⟩) Host.divf,
    StableHlo.TRef.unary (.of main_call1_v3 : StableHlo.TRef sig ⟨S1x16x1, .f32⟩) (.of main_call1_v4 : StableHlo.TRef sig ⟨S1x16x512, .f32⟩) (broadcastInDim S1x16x512 ![0, 1, 2] bcast_S1x16x1_S1x16x512_0_1_2),
    StableHlo.TRef.binary (.of main_v23 : StableHlo.TRef sig ⟨S1x16x512, .f32⟩) (.of main_call1_v4 : StableHlo.TRef sig ⟨S1x16x512, .f32⟩) (.of main_call1_v5 : StableHlo.TRef sig ⟨S1x16x512, .f32⟩) subf,
    StableHlo.TRef.binary (.of main_call1_v5 : StableHlo.TRef sig ⟨S1x16x512, .f32⟩) (.of main_call1_v5 : StableHlo.TRef sig ⟨S1x16x512, .f32⟩) (.of main_call1_v6 : StableHlo.TRef sig ⟨S1x16x512, .f32⟩) mulf,
    StableHlo.TRef.unary (.of main_c_6 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x44000000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S1x16x512, .f32⟩) (.of main_call1_cst_2 : StableHlo.TRef sig ⟨S_, .f32⟩) (.of main_call1_v9 : StableHlo.TRef sig ⟨S1x16, .f32⟩) (fun x v => Host.reduceAdd x v reducesTo_S1x16x512_S1x16_d2 h_S_),
    StableHlo.TRef.unary (.of main_call1_v9 : StableHlo.TRef sig ⟨S1x16, .f32⟩) (.of main_call1_v10 : StableHlo.TRef sig ⟨S1x16x1, .f32⟩) (broadcastInDim S1x16x1 ![0, 1] bcast_S1x16_S1x16x1_0_1),
    StableHlo.TRef.unary (.of main_call1_v8 : StableHlo.TRef sig ⟨S_, .f32⟩) (.of main_call1_v11 : StableHlo.TRef sig ⟨S1x16x1, .f32⟩) (broadcastInDim S1x16x1 ![] bcast_S_S1x16x1),
    StableHlo.TRef.binary (.of main_call1_v10 : StableHlo.TRef sig ⟨S1x16x1, .f32⟩) (.of main_call1_v11 : StableHlo.TRef sig ⟨S1x16x1, .f32⟩) (.of main_call1_v12 : StableHlo.TRef sig ⟨S1x16x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S1x16x1, .f32⟩) (broadcastInDim S1x16x1 ![] bcast_S_S1x16x1),
    StableHlo.TRef.ternary (.of main_call1_v13 : StableHlo.TRef sig ⟨S_, .i1⟩) (.of main_call1_v12 : StableHlo.TRef sig ⟨S1x16x1, .f32⟩) (.of main_call1_call0_v1 : StableHlo.TRef sig ⟨S1x16x1, .f32⟩) (.of main_v28 : StableHlo.TRef sig ⟨S1x16x1, .f32⟩) (fun p a b => select (broadcastInDim S1x16x1 ![] bcast_S_S1x16x1 p) a b),
    StableHlo.unary main_v27 main_v29 (broadcastInDim S1x16x512 ![0, 1, 2] bcast_S1x16x1_S1x16x512_0_1_2 : (⟨S1x16x1, .f32⟩ : BufTy).Contents (Elt F) → (⟨S1x16x512, .f32⟩ : BufTy).Contents (Elt F)),
    StableHlo.binary main_v23 main_v29 main_v30 (subf : (⟨S1x16x512, .f32⟩ : BufTy).Contents (Elt F) → (⟨S1x16x512, .f32⟩ : BufTy).Contents (Elt F) → (⟨S1x16x512, .f32⟩ : BufTy).Contents (Elt F)),
    StableHlo.nullary main_cst_7 (constant S_ .f32 0x3727C5AC#32),
    StableHlo.unary main_cst_7 main_v31 (broadcastInDim S1x16x1 ![] bcast_S_S1x16x1 : (⟨S_, .f32⟩ : BufTy).Contents (Elt F) → (⟨S1x16x1, .f32⟩ : BufTy).Contents (Elt F)),
    StableHlo.binary main_v28 main_v31 main_v32 (addf : (⟨S1x16x1, .f32⟩ : BufTy).Contents (Elt F) → (⟨S1x16x1, .f32⟩ : BufTy).Contents (Elt F) → (⟨S1x16x1, .f32⟩ : BufTy).Contents (Elt F)),
    StableHlo.unary main_v32 main_v33 (Host.rsqrt : (⟨S1x16x1, .f32⟩ : BufTy).Contents (Elt F) → (⟨S1x16x1, .f32⟩ : BufTy).Contents (Elt F)),
    StableHlo.unary main_v33 main_v34 (broadcastInDim S1x16x512 ![0, 1, 2] bcast_S1x16x1_S1x16x512_0_1_2 : (⟨S1x16x1, .f32⟩ : BufTy).Contents (Elt F) → (⟨S1x16x512, .f32⟩ : BufTy).Contents (Elt F)),
    StableHlo.binary main_v30 main_v34 main_v35 (mulf : (⟨S1x16x512, .f32⟩ : BufTy).Contents (Elt F) → (⟨S1x16x512, .f32⟩ : BufTy).Contents (Elt F) → (⟨S1x16x512, .f32⟩ : BufTy).Contents (Elt F)),
    StableHlo.unary main_arg5 main_v36 (broadcastInDim S1x1x512 ![0, 2] bcast_S1x512_S1x1x512_0_2 : (⟨S1x512, .f32⟩ : BufTy).Contents (Elt F) → (⟨S1x1x512, .f32⟩ : BufTy).Contents (Elt F)),
    StableHlo.unary main_v36 main_v37 (broadcastInDim S1x16x512 ![0, 1, 2] bcast_S1x1x512_S1x16x512_0_1_2 : (⟨S1x1x512, .f32⟩ : BufTy).Contents (Elt F) → (⟨S1x16x512, .f32⟩ : BufTy).Contents (Elt F)),
    StableHlo.binary main_v35 main_v37 main_v38 (mulf : (⟨S1x16x512, .f32⟩ : BufTy).Contents (Elt F) → (⟨S1x16x512, .f32⟩ : BufTy).Contents (Elt F) → (⟨S1x16x512, .f32⟩ : BufTy).Contents (Elt F)),
    StableHlo.unary main_arg6 main_v39 (broadcastInDim S1x1x512 ![0, 2] bcast_S1x512_S1x1x512_0_2 : (⟨S1x512, .f32⟩ : BufTy).Contents (Elt F) → (⟨S1x1x512, .f32⟩ : BufTy).Contents (Elt F)),
    StableHlo.unary main_v39 main_v40 (broadcastInDim S1x16x512 ![0, 1, 2] bcast_S1x1x512_S1x16x512_0_1_2 : (⟨S1x1x512, .f32⟩ : BufTy).Contents (Elt F) → (⟨S1x16x512, .f32⟩ : BufTy).Contents (Elt F)),
    StableHlo.binary main_v38 main_v40 main_v41 (addf : (⟨S1x16x512, .f32⟩ : BufTy).Contents (Elt F) → (⟨S1x16x512, .f32⟩ : BufTy).Contents (Elt F) → (⟨S1x16x512, .f32⟩ : BufTy).Contents (Elt F)),
    StableHlo.unary main_v41 main_v42 ((transpose S1x512x16 [0, 2, 1] · transposes_S1x16x512_S1x512x16_0_2_1) : (⟨S1x16x512, .f32⟩ : BufTy).Contents (Elt F) → (⟨S1x512x16, .f32⟩ : BufTy).Contents (Elt F)) ]

/-- The contraction of the averaged input with the normalised weights over the feature axis, plus the broadcast bias. -/
abbrev ops2 : List (HloOp τ sig (Elt F)) :=
  [ StableHlo.binary main_v22 main_v42 main_v43 ((fun l r => Host.dotGeneral dot_S1x64x512_S1x512x16_S1x64x16_2_1_1_2_0_0 none l r) : (⟨S1x64x512, .f32⟩ : BufTy).Contents (Elt F) → (⟨S1x512x16, .f32⟩ : BufTy).Contents (Elt F) → (⟨S1x64x16, .f32⟩ : BufTy).Contents (Elt F)),
    StableHlo.unary main_arg2 main_v44 (broadcastInDim S1x1x16 ![0, 2] bcast_S1x16_S1x1x16_0_2 : (⟨S1x16, .f32⟩ : BufTy).Contents (Elt F) → (⟨S1x1x16, .f32⟩ : BufTy).Contents (Elt F)),
    StableHlo.unary main_v44 main_v45 (broadcastInDim S1x64x16 ![0, 1, 2] bcast_S1x1x16_S1x64x16_0_1_2 : (⟨S1x1x16, .f32⟩ : BufTy).Contents (Elt F) → (⟨S1x64x16, .f32⟩ : BufTy).Contents (Elt F)),
    StableHlo.binary main_v43 main_v45 main_v46 (addf : (⟨S1x64x16, .f32⟩ : BufTy).Contents (Elt F) → (⟨S1x64x16, .f32⟩ : BufTy).Contents (Elt F) → (⟨S1x64x16, .f32⟩ : BufTy).Contents (Elt F)) ]

/-- The softmax along the last axis: the running maximum (from minus infinity), the shifted exponentials, their sum,
    the quotient. -/
abbrev ops3 : List (HloOp τ sig (Elt F)) :=
  [ StableHlo.nullary main_cst_8 (constant S_ .f32 0xFF800000#32),
    StableHlo.binary main_v46 main_cst_8 main_v47 ((fun x v => Host.reduce FloatOps.maximumf x v reducesTo_S1x64x16_S1x64_d2 h_S_) : (⟨S1x64x16, .f32⟩ : BufTy).Contents (Elt F) → (⟨S_, .f32⟩ : BufTy).Contents (Elt F) → (⟨S1x64, .f32⟩ : BufTy).Contents (Elt F)),
    StableHlo.nullary main_cst_9 (constant S_ .f32 0xFF800000#32),
    StableHlo.unary main_cst_9 main_v48 (broadcastInDim S1x64 ![] bcast_S_S1x64 : (⟨S_, .f32⟩ : BufTy).Contents (Elt F) → (⟨S1x64, .f32⟩ : BufTy).Contents (Elt F)),
    StableHlo.binary main_v48 main_v47 main_v49 (maximumf : (⟨S1x64, .f32⟩ : BufTy).Contents (Elt F) → (⟨S1x64, .f32⟩ : BufTy).Contents (Elt F) → (⟨S1x64, .f32⟩ : BufTy).Contents (Elt F)),
    StableHlo.unary main_v49 main_v50 (broadcastInDim S1x64x1 ![0, 1] bcast_S1x64_S1x64x1_0_1 : (⟨S1x64, .f32⟩ : BufTy).Contents (Elt F) → (⟨S1x64x1, .f32⟩ : BufTy).Contents (Elt F)),
    StableHlo.unary main_v50 main_v51 (broadcastInDim S1x64x16 ![0, 1, 2] bcast_S1x64x1_S1x64x16_0_1_2 : (⟨S1x64x1, .f32⟩ : BufTy).Contents (Elt F) → (⟨S1x64x16, .f32⟩ : BufTy).Contents (Elt F)),
    StableHlo.binary main_v46 main_v51 main_v52 (subf : (⟨S1x64x16, .f32⟩ : BufTy).Contents (Elt F) → (⟨S1x64x16, .f32⟩ : BufTy).Contents (Elt F) → (⟨S1x64x16, .f32⟩ : BufTy).Contents (Elt F)),
    StableHlo.unary main_v52 main_v53 (Host.exp : (⟨S1x64x16, .f32⟩ : BufTy).Contents (Elt F) → (⟨S1x64x16, .f32⟩ : BufTy).Contents (Elt F)),
    StableHlo.nullary main_cst_10 (constant S_ .f32 0x00000000#32),
    StableHlo.binary main_v53 main_cst_10 main_v54 ((fun x v => Host.reduceAdd x v reducesTo_S1x64x16_S1x64_d2 h_S_) : (⟨S1x64x16, .f32⟩ : BufTy).Contents (Elt F) → (⟨S_, .f32⟩ : BufTy).Contents (Elt F) → (⟨S1x64, .f32⟩ : BufTy).Contents (Elt F)),
    StableHlo.unary main_v54 main_v55 (broadcastInDim S1x64x1 ![0, 1] bcast_S1x64_S1x64x1_0_1 : (⟨S1x64, .f32⟩ : BufTy).Contents (Elt F) → (⟨S1x64x1, .f32⟩ : BufTy).Contents (Elt F)),
    StableHlo.unary main_v55 main_v56 (broadcastInDim S1x64x16 ![0, 1, 2] bcast_S1x64x1_S1x64x16_0_1_2 : (⟨S1x64x1, .f32⟩ : BufTy).Contents (Elt F) → (⟨S1x64x16, .f32⟩ : BufTy).Contents (Elt F)),
    StableHlo.binary main_v53 main_v56 main_v57 (Host.divf : (⟨S1x64x16, .f32⟩ : BufTy).Contents (Elt F) → (⟨S1x64x16, .f32⟩ : BufTy).Contents (Elt F) → (⟨S1x64x16, .f32⟩ : BufTy).Contents (Elt F)) ]

/-- @main's operations in program order, the two calls written out at their sites. -/
abbrev ops : List (HloOp τ sig (Elt F)) := ops0 ++ ops1 ++ ops2 ++ ops3

/-- Folding over a concatenation is folding over the first part, then over the second from there. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- What holds of every member of two lists holds of every member of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- @main is that straight line. Both sides are closed programs: unfolding the two windows, the four function bodies at
    their calls and the buffer records at their fields on the left, and the sequence of the list on the right, gives
    the same chain of steps, each bind associated to the right by the definition of sequencing itself. The equation
    is therefore a reflexivity. -/
theorem main_eq (c : Dev nD) : main (F := F) c = seq ops := by
  chain_rfl

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops0_sub : (ops0 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub ..⟩
theorem ops1_sub : (ops1 : List (HloOp τ sig (Elt F))).Forall fun op => op.bufs ⊆ tcRefs τ sig :=
  ⟨unary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub ..⟩
theorem ops2_sub : (ops2 : List (HloOp τ sig (Elt F))).Forall fun op => op.bufs ⊆ tcRefs τ sig :=
  ⟨binary_bufs_sub .., unary_bufs_sub .., unary_bufs_sub .., binary_bufs_sub ..⟩
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
theorem ops_sub : (ops : List (HloOp τ sig (Elt F))).Forall fun op => op.bufs ⊆ tcRefs τ sig :=
  forall_append (forall_append (forall_append ops0_sub ops1_sub) ops2_sub) ops3_sub

/-- At the compiled mesh, for any float values, from any memory with zero counters: every weakly fair execution of
    @main on the TensorCores terminates, and every final state has each TensorCore buffer at the fold of the operations
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The arguments

No operation writes an argument buffer: the fold leaves each where it was (every operation's result buffer is another
reference, which is decided reference by reference). -/

theorem arg0_eq (V : Valuation τ sig (Elt F)) :
    after ops V (main_arg0 : DevRef τ sig) = V (main_arg0 : DevRef τ sig) := by
  simp only [ops, after_append]
  after_results_simp

theorem arg1_eq (V : Valuation τ sig (Elt F)) :
    after ops V (main_arg1 : DevRef τ sig) = V (main_arg1 : DevRef τ sig) := by
  simp only [ops, after_append]
  after_results_simp

theorem arg2_eq (V : Valuation τ sig (Elt F)) :
    after ops V (main_arg2 : DevRef τ sig) = V (main_arg2 : DevRef τ sig) := by
  simp only [ops, after_append]
  after_results_simp

theorem arg3_eq (V : Valuation τ sig (Elt F)) :
    after ops V (main_arg3 : DevRef τ sig) = V (main_arg3 : DevRef τ sig) := by
  simp only [ops, after_append]
  after_results_simp

theorem arg4_eq (V : Valuation τ sig (Elt F)) :
    after ops V (main_arg4 : DevRef τ sig) = V (main_arg4 : DevRef τ sig) := by
  simp only [ops, after_append]
  after_results_simp

theorem arg5_eq (V : Valuation τ sig (Elt F)) :
    after ops V (main_arg5 : DevRef τ sig) = V (main_arg5 : DevRef τ sig) := by
  simp only [ops, after_append]
  after_results_simp

theorem arg6_eq (V : Valuation τ sig (Elt F)) :
    after ops V (main_arg6 : DevRef τ sig) = V (main_arg6 : DevRef τ sig) := by
  simp only [ops, after_append]
  after_results_simp

/-- @main runs, and its seven argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _)⟩)
    (run_main m ρ)

end Cert.ReferenceIdeal.RunH

end
-- ==== Proof.RefDefs.lean ====
/-
  The reference program's three results as named functions of its arguments.

  new_x: the mean `μ` of each channel over batch and positions (a sum over the axes 0, 2, 3 over 65536); the variance as
  the mean of squared deviations from a mean computed the same way, over `65536 - ddof`, selected against a not-a-number
  when that divisor is not positive; the entries normalised, scaled by γ, shifted by β, and averaged over the 32 × 32
  positions. The router weights, logits and probabilities are computed as in the kernel program.
-/
import proofs.«100338_j23983097381582_2_alg».proof.Proof.Gen.ReferenceIdeal

noncomputable section

namespace Cert.ReferenceIdeal.ValueH

open Cert.ReferenceIdeal Idealize.ShloMosaic
open Cert.ReferenceIdeal.Facts₀

variable {F : FTy → Type} [FloatOps F]

/-- The channel mean: the sum over batch and positions (started from zero) over 65536. -/
def chanMean (x : FVec F S64x512x32x32 .f32) : FVec F S512 .f32 :=
  Host.divf (Host.reduceAdd x (constant S_ .f32 0x00000000#32) reducesTo_S64x512x32x32_S512_d0_2_3 h_S_)
    (broadcastInDim S512 ![] bcast_S_S512 (constant S_ .f32 0x47800000#32))

/-- The channel mean as jnp.var computes it for itself, kept as a [1, 512, 1, 1] array. -/
def chanMeanKept (x : FVec F S64x512x32x32 .f32) : FVec F S1x512x1x1 .f32 :=
  Host.divf (broadcastInDim S1x512x1x1 ![1] bcast_S512_S1x512x1x1_1
      (Host.reduceAdd x (constant S_ .f32 0x00000000#32) reducesTo_S64x512x32x32_S512_d0_2_3 h_S_))
    (broadcastInDim S1x512x1x1 ![] bcast_S_S1x512x1x1 (constant S_ .f32 0x47800000#32))

/-- The deviations from that mean. -/
def dev (x : FVec F S64x512x32x32 .f32) : FVec F S64x512x32x32 .f32 :=
  subf x (broadcastInDim S64x512x32x32 ![0, 1, 2, 3] bcast_S1x512x1x1_S64x512x32x32_0_1_2_3 (chanMeanKept x))

/-- The channel variance as jnp.var computes it. -/
def chanVar (x : FVec F S64x512x32x32 .f32) (ddof : IVec S_ 32) : FVec F S512 .f32 :=
  select (broadcastInDim S512 ![] bcast_S_S512
      (cmpf .ogt (subf (constant (F := F) S_ .f32 0x47800000#32) (sitofp .f32 ddof)) (constant (F := F) S_ .f32 0x00000000#32)))
    (Host.divf (Host.reduceAdd (mulf (dev x) (dev x)) (constant S_ .f32 0x00000000#32) reducesTo_S64x512x32x32_S512_d0_2_3 h_S_)
      (broadcastInDim S512 ![] bcast_S_S512 (subf (constant S_ .f32 0x47800000#32) (sitofp .f32 ddof))))
    (broadcastInDim S512 ![] bcast_S_S512 (id (constant (F := F) S_ .f32 0x7FC00000#32)))

/-- The normalised entries: (x - μ) · rsqrt (variance + ε), each channel's factors spread over batch and positions. -/
def normed (x : FVec F S64x512x32x32 .f32) : FVec F S64x512x32x32 .f32 :=
  mulf (subf x (broadcastInDim S64x512x32x32 ![0, 1, 2, 3] bcast_S1x512x1x1_S64x512x32x32_0_1_2_3
        (broadcastInDim S1x512x1x1 ![1] bcast_S512_S1x512x1x1_1 (chanMean x))))
    (broadcastInDim S64x512x32x32 ![0, 1, 2, 3] bcast_S1x512x1x1_S64x512x32x32_0_1_2_3
      (broadcastInDim S1x512x1x1 ![1] bcast_S512_S1x512x1x1_1
        (Host.rsqrt (addf (chanVar x (constantI S_ 32 0#32)) (broadcastInDim S512 ![] bcast_S_S512 (constant S_ .f32 0x3727C5AC#32))))))

/-- new_x: the normalised entries scaled and shifted, summed over the positions (from zero), over 1024. -/
def newX (x : FVec F S64x512x32x32 .f32) (g β : FVec F S1x512 .f32) : FVec F S1x64x512 .f32 :=
  Host.divf (Host.reduceAdd
      (addf (mulf (broadcastInDim S1x64x512x32x32 ![1, 2, 3, 4] bcast_S64x512x32x32_S1x64x512x32x32_1_2_3_4 (normed x))
          (broadcastInDim S1x64x512x32x32 ![0, 1, 2, 3, 4] bcast_S1x1x512x1x1_S1x64x512x32x32_0_1_2_3_4
            (broadcastInDim S1x1x512x1x1 ![0, 2] bcast_S1x512_S1x1x512x1x1_0_2 g)))
        (broadcastInDim S1x64x512x32x32 ![0, 1, 2, 3, 4] bcast_S1x1x512x1x1_S1x64x512x32x32_0_1_2_3_4
          (broadcastInDim S1x1x512x1x1 ![0, 2] bcast_S1x512_S1x1x512x1x1_0_2 β)))
      (constant S_ .f32 0x00000000#32) reducesTo_S1x64x512x32x32_S1x64x512_d3_4 h_S_)
    (broadcastInDim S1x64x512 ![] bcast_S_S1x64x512 (constant S_ .f32 0x44800000#32))

/-- The row mean of a [1, 16, 512] array, kept as a [1, 16, 1] column. -/
def rowMean (wt : FVec F S1x16x512 .f32) : FVec F S1x16x1 .f32 :=
  Host.divf (broadcastInDim S1x16x1 ![0, 1] bcast_S1x16_S1x16x1_0_1
      (Host.reduceAdd wt (constant S_ .f32 0x00000000#32) reducesTo_S1x16x512_S1x16_d2 h_S_))
    (broadcastInDim S1x16x1 ![] bcast_S_S1x16x1 (constant S_ .f32 0x44000000#32))

/-- The row variance of a [1, 16, 512] array as jnp.var computes it: the mean of squared deviations over
    `512 - ddof`, selected against a not-a-number when that divisor is not positive. -/
def rowVar (wt : FVec F S1x16x512 .f32) (ddof : IVec S_ 32) : FVec F S1x16x1 .f32 :=
  select (broadcastInDim S1x16x1 ![] bcast_S_S1x16x1
      (cmpf .ogt (subf (constant (F := F) S_ .f32 0x44000000#32) (sitofp .f32 ddof)) (constant (F := F) S_ .f32 0x00000000#32)))
    (Host.divf (broadcastInDim S1x16x1 ![0, 1] bcast_S1x16_S1x16x1_0_1
        (Host.reduceAdd (mulf (subf wt (broadcastInDim S1x16x512 ![0, 1, 2] bcast_S1x16x1_S1x16x512_0_1_2 (rowMean wt)))
            (subf wt (broadcastInDim S1x16x512 ![0, 1, 2] bcast_S1x16x1_S1x16x512_0_1_2 (rowMean wt))))
          (constant S_ .f32 0x00000000#32) reducesTo_S1x16x512_S1x16_d2 h_S_))
      (broadcastInDim S1x16x1 ![] bcast_S_S1x16x1 (subf (constant S_ .f32 0x44000000#32) (sitofp .f32 ddof))))
    (broadcastInDim S1x16x1 ![] bcast_S_S1x16x1 (id (constant (F := F) S_ .f32 0x7FC00000#32)))

/-- The layer-normalised router weights, [1, 512, 16]. -/
def wn (w : FVec F S1x512x16 .f32) (lg lb : FVec F S1x512 .f32) : FVec F S1x512x16 .f32 :=
  transpose S1x512x16 [0, 2, 1]
    (addf (mulf (mulf (subf (transpose S1x16x512 [0, 2, 1] w transposes_S1x512x16_S1x16x512_0_2_1)
            (broadcastInDim S1x16x512 ![0, 1, 2] bcast_S1x16x1_S1x16x512_0_1_2 (rowMean (transpose S1x16x512 [0, 2, 1] w transposes_S1x512x16_S1x16x512_0_2_1))))
          (broadcastInDim S1x16x512 ![0, 1, 2] bcast_S1x16x1_S1x16x512_0_1_2
            (Host.rsqrt (addf (rowVar (transpose S1x16x512 [0, 2, 1] w transposes_S1x512x16_S1x16x512_0_2_1) (constantI S_ 32 0#32))
              (broadcastInDim S1x16x1 ![] bcast_S_S1x16x1 (constant S_ .f32 0x3727C5AC#32))))))
        (broadcastInDim S1x16x512 ![0, 1, 2] bcast_S1x1x512_S1x16x512_0_1_2 (broadcastInDim S1x1x512 ![0, 2] bcast_S1x512_S1x1x512_0_2 lg)))
      (broadcastInDim S1x16x512 ![0, 1, 2] bcast_S1x1x512_S1x16x512_0_1_2 (broadcastInDim S1x1x512 ![0, 2] bcast_S1x512_S1x1x512_0_2 lb)))
    transposes_S1x16x512_S1x512x16_0_2_1

/-- The logits: new_x contracted with the normalised weights, plus the bias. -/
def logits (nx : FVec F S1x64x512 .f32) (wn : FVec F S1x512x16 .f32) (bias : FVec F S1x16 .f32) : FVec F S1x64x16 .f32 :=
  addf (Host.dotGeneral dot_S1x64x512_S1x512x16_S1x64x16_2_1_1_2_0_0 none nx wn)
    (broadcastInDim S1x64x16 ![0, 1, 2] bcast_S1x1x16_S1x64x16_0_1_2 (broadcastInDim S1x1x16 ![0, 2] bcast_S1x16_S1x1x16_0_2 bias))

/-- The exponentials of the logits less their row maximum. -/
def expShift (lg : FVec F S1x64x16 .f32) : FVec F S1x64x16 .f32 :=
  Host.exp (subf lg (broadcastInDim S1x64x16 ![0, 1, 2] bcast_S1x64x1_S1x64x16_0_1_2 (broadcastInDim S1x64x1 ![0, 1] bcast_S1x64_S1x64x1_0_1
    (maximumf (broadcastInDim S1x64 ![] bcast_S_S1x64 (constant S_ .f32 0xFF800000#32))
      (Host.reduce FloatOps.maximumf lg (constant S_ .f32 0xFF800000#32) reducesTo_S1x64x16_S1x64_d2 h_S_)))))

/-- The softmax of the logits along the last axis. -/
def probs (lg : FVec F S1x64x16 .f32) : FVec F S1x64x16 .f32 :=
  Host.divf (expShift lg) (broadcastInDim S1x64x16 ![0, 1, 2] bcast_S1x64x1_S1x64x16_0_1_2 (broadcastInDim S1x64x1 ![0, 1] bcast_S1x64_S1x64x1_0_1
    (Host.reduceAdd (expShift lg) (constant S_ .f32 0x00000000#32) reducesTo_S1x64x16_S1x64_d2 h_S_)))

end Cert.ReferenceIdeal.ValueH

end
-- ==== Proof.RefValue.lean ====
/-
  The reference's three results read off its run.

  The fold of @main's operations over any buffer contents holds, at the three result buffers, the named functions of
  the argument contents: the normalised, scaled, shifted and spatially averaged input at %22; the logits of that against
  the normalised weights at %46; their softmax at %57. The list of operations is cut where each result is complete, so
  each equation is read stretch by stretch: the stretch that computes a value holds, at the value's buffer, the
  composition of its operations' functions over the contents it started from; a later stretch writes other buffers
  only and leaves it; an earlier stretch leaves the arguments. The operations and the named functions apply the same
  pure functions in the same order, so once the fold is computed the two sides are one term.
-/
import proofs.«100338_j23983097381582_2_alg».proof.Proof.RefRun
import proofs.«100338_j23983097381582_2_alg».proof.Proof.RefDefs

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## What each stretch computes -/

set_option maxHeartbeats 4000000 in
set_option maxRecDepth 65536 in
/-- The first stretch, from any contents `W`: at %22 the first result as a function of the input, scale and shift. -/
theorem ops0_v22 (W : Valuation τ sig (Elt F)) :
    after ops0 W (main_v22 : DevRef τ sig)
      = ValueH.newX (W (main_arg0 : DevRef τ sig)) (W (main_arg3 : DevRef τ sig)) (W (main_arg4 : DevRef τ sig)) := by
  after_results_simp
  rfl

set_option maxHeartbeats 4000000 in
set_option maxRecDepth 65536 in
/-- The second stretch: at %42 the normalised weights as a function of the weights and their scale and shift. -/
theorem ops1_v42 (W : Valuation τ sig (Elt F)) :
    after ops1 W (main_v42 : DevRef τ sig)
      = ValueH.wn (W (main_arg1 : DevRef τ sig)) (W (main_arg5 : DevRef τ sig)) (W (main_arg6 : DevRef τ sig)) := by
  after_results_simp
  rfl

set_option maxHeartbeats 4000000 in
set_option maxRecDepth 65536 in
/-- The third stretch: at %46 the logits of what %22 and %42 hold, with the bias. -/
theorem ops2_v46 (W : Valuation τ sig (Elt F)) :
    after ops2 W (main_v46 : DevRef τ sig)
      = ValueH.logits (W (main_v22 : DevRef τ sig)) (W (main_v42 : DevRef τ sig)) (W (main_arg2 : DevRef τ sig)) := by
  after_results_simp
  rfl

set_option maxHeartbeats 4000000 in
set_option maxRecDepth 65536 in
/-- The last stretch: at %57 the softmax of what %46 holds. -/
theorem ops3_v57 (W : Valuation τ sig (Elt F)) :
    after ops3 W (main_v57 : DevRef τ sig) = ValueH.probs (W (main_v46 : DevRef τ sig)) := by
  after_results_simp
  rfl

/-! ## What each stretch leaves alone

A stretch writes its own values' buffers only: the arguments it reads, and the results of the stretches before it,
keep their contents (each operation's result buffer is another reference, decided reference by reference). -/

theorem ops0_keep_arg1 (W : Valuation τ sig (Elt F)) :
    after ops0 W (main_arg1 : DevRef τ sig) = W (main_arg1 : DevRef τ sig) := by
  after_results_simp

theorem ops0_keep_arg2 (W : Valuation τ sig (Elt F)) :
    after ops0 W (main_arg2 : DevRef τ sig) = W (main_arg2 : DevRef τ sig) := by
  after_results_simp

theorem ops0_keep_arg5 (W : Valuation τ sig (Elt F)) :
    after ops0 W (main_arg5 : DevRef τ sig) = W (main_arg5 : DevRef τ sig) := by
  after_results_simp

theorem ops0_keep_arg6 (W : Valuation τ sig (Elt F)) :
    after ops0 W (main_arg6 : DevRef τ sig) = W (main_arg6 : DevRef τ sig) := by
  after_results_simp

theorem ops1_keep_v22 (W : Valuation τ sig (Elt F)) :
    after ops1 W (main_v22 : DevRef τ sig) = W (main_v22 : DevRef τ sig) := by
  after_results_simp

theorem ops1_keep_arg2 (W : Valuation τ sig (Elt F)) :
    after ops1 W (main_arg2 : DevRef τ sig) = W (main_arg2 : DevRef τ sig) := by
  after_results_simp

theorem ops2_keep_v22 (W : Valuation τ sig (Elt F)) :
    after ops2 W (main_v22 : DevRef τ sig) = W (main_v22 : DevRef τ sig) := by
  after_results_simp

theorem ops3_keep_v22 (W : Valuation τ sig (Elt F)) :
    after ops3 W (main_v22 : DevRef τ sig) = W (main_v22 : DevRef τ sig) := by
  after_results_simp

theorem ops3_keep_v46 (W : Valuation τ sig (Elt F)) :
    after ops3 W (main_v46 : DevRef τ sig) = W (main_v46 : DevRef τ sig) := by
  after_results_simp

/-! ## The three results -/

/-- The first result, %22. -/
theorem res22_eq (V : Valuation τ sig (Elt F)) :
    after ops V (main_v22 : DevRef τ sig) = ValueH.newX (V (main_arg0 : DevRef τ sig)) (V (main_arg3 : DevRef τ sig)) (V (main_arg4 : DevRef τ sig)) := by
  simp only [ops, after_append]
  rw [ops3_keep_v22, ops2_keep_v22, ops1_keep_v22, ops0_v22]

/-- The second result, %46. -/
theorem res46_eq (V : Valuation τ sig (Elt F)) :
    after ops V (main_v46 : DevRef τ sig)
      = ValueH.logits (ValueH.newX (V (main_arg0 : DevRef τ sig)) (V (main_arg3 : DevRef τ sig)) (V (main_arg4 : DevRef τ sig))) (ValueH.wn (V (main_arg1 : DevRef τ sig)) (V (main_arg5 : DevRef τ sig)) (V (main_arg6 : DevRef τ sig))) (V (main_arg2 : DevRef τ sig)) := by
  simp only [ops, after_append]
  rw [ops3_keep_v46, ops2_v46, ops1_keep_v22, ops0_v22, ops1_v42, ops0_keep_arg1, ops0_keep_arg5, ops0_keep_arg6,
    ops1_keep_arg2, ops0_keep_arg2]

/-- The third result, %57. -/
theorem res57_eq (V : Valuation τ sig (Elt F)) :
    after ops V (main_v57 : DevRef τ sig)
      = ValueH.probs (ValueH.logits (ValueH.newX (V (main_arg0 : DevRef τ sig)) (V (main_arg3 : DevRef τ sig)) (V (main_arg4 : DevRef τ sig))) (ValueH.wn (V (main_arg1 : DevRef τ sig)) (V (main_arg5 : DevRef τ sig)) (V (main_arg6 : DevRef τ sig))) (V (main_arg2 : DevRef τ sig))) := by
  simp only [ops, after_append]
  rw [ops3_v57, ops2_v46, ops1_keep_v22, ops0_v22, ops1_v42, ops0_keep_arg1, ops0_keep_arg5, ops0_keep_arg6,
    ops1_keep_arg2, ops0_keep_arg2]

/-! ## The run, with the results named -/

/-- At the compiled mesh, for any float values, from any memory with zero counters: every weakly fair execution of
    @main terminates with the three results at the named functions of the argument arrays and the seven arguments
    unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v22) = ValueH.newX (m ((c.tc : Thread nD τ).loc main_arg0)) (m ((c.tc : Thread nD τ).loc main_arg3)) (m ((c.tc : Thread nD τ).loc main_arg4))
      ∧ r.2.mem ((c.tc : Thread nD τ).loc main_v46) = ValueH.logits (ValueH.newX (m ((c.tc : Thread nD τ).loc main_arg0)) (m ((c.tc : Thread nD τ).loc main_arg3)) (m ((c.tc : Thread nD τ).loc main_arg4))) (ValueH.wn (m ((c.tc : Thread nD τ).loc main_arg1)) (m ((c.tc : Thread nD τ).loc main_arg5)) (m ((c.tc : Thread nD τ).loc main_arg6))) (m ((c.tc : Thread nD τ).loc main_arg2))
      ∧ r.2.mem ((c.tc : Thread nD τ).loc main_v57) = ValueH.probs (ValueH.logits (ValueH.newX (m ((c.tc : Thread nD τ).loc main_arg0)) (m ((c.tc : Thread nD τ).loc main_arg3)) (m ((c.tc : Thread nD τ).loc main_arg4))) (ValueH.wn (m ((c.tc : Thread nD τ).loc main_arg1)) (m ((c.tc : Thread nD τ).loc main_arg5)) (m ((c.tc : Thread nD τ).loc main_arg6))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v22).trans (res22_eq _), (h c main_v46).trans (res46_eq _), (h c main_v57).trans (res57_eq _),
       (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (run_main m ρ)

end Cert.ReferenceIdeal.RunH

end
-- ==== Proof.KerRead.lean ====
/-
  The kernel program's new_x read at an entry (0, b, c), on the extended reals: with the two arrays of sums s1, s2,
  `new_x[0, b, c] = γ[c] · ((s1[b, c] / 1024 - μ[c]) · rstd[c]) + β[c]`, where `μ[c] = (0 + Σ_b s1[b, c]) / 65536` and
  `rstd[c] = rsqrt (max ((0 + Σ_b s2[b, c]) / 65536 - μ[c]²) 0 + ε)`: every broadcast reads one entry of its operand,
  the column sum is a sum over the 64 rows.
-/
import proofs.«100338_j23983097381582_2_alg».proof.Proof.KerValue
import proofs.«100338_j23983097381582_2_alg».proof.Proof.Consts
import Idealize.ShloMosaic.Lib.Pipeline.Value
import Idealize.ShloMosaic.Lib.ValueIdx
import Idealize.ShloMosaic.PureOps.Ideal.Laws

noncomputable section

namespace Cert.KernelIdeal.ValueH

open Cert.KernelIdeal Idealize.ShloMosaic Idealize.ShloMosaic.ValueIdx
open Cert.KernelIdeal.Facts₀

/-- A scalar broadcast to any shape reads the scalar. -/
theorem bcast_scalar_apply {t : Shape} {α : Type} (h : S_.BroadcastsInDim t (![] : Fin 0 → Fin t.rank)) (x : S_.Idx → α) (j : t.Idx) :
    broadcastInDim t ![] h x j = x ix0 :=
  broadcastInDim_apply _ h x j ix0 (fun a => a.elim0)

/-- A per-channel vector spread over [1, 64, 512] reads its channel's entry. -/
theorem spread_vec_apply {α : Type} (v : S512.Idx → α) (i : Fin 1) (b : Fin 64) (c : Fin 512) :
    broadcastInDim S1x64x512 ![0, 1, 2] bcast_S1x1x512_S1x64x512_0_1_2 (broadcastInDim S1x1x512 ![2] bcast_S512_S1x1x512_2 v) (ix3 i b c)
      = v (ix1 c) := by
  refine (broadcastInDim_apply _ _ _ (ix3 i b c) (ix3 (0 : Fin 1) (0 : Fin 1) c) (fun a => by
    match a with | ⟨0, _⟩ => rfl | ⟨1, _⟩ => rfl | ⟨2, _⟩ => rfl)).trans ?_
  exact broadcastInDim_apply _ _ _ _ (ix1 c) (fun a => by match a with | ⟨0, _⟩ => rfl)

/-- A [1, 512] parameter spread over [1, 64, 512] reads its channel's entry. -/
theorem spread_arg_apply {α : Type} (g : S1x512.Idx → α) (i : Fin 1) (b : Fin 64) (c : Fin 512) :
    broadcastInDim S1x64x512 ![0, 1, 2] bcast_S1x1x512_S1x64x512_0_1_2 (broadcastInDim S1x1x512 ![0, 2] bcast_S1x512_S1x1x512_0_2 g) (ix3 i b c)
      = g (ix2 (0 : Fin 1) c) := by
  refine (broadcastInDim_apply _ _ _ (ix3 i b c) (ix3 (0 : Fin 1) (0 : Fin 1) c) (fun a => by
    match a with | ⟨0, _⟩ => rfl | ⟨1, _⟩ => rfl | ⟨2, _⟩ => rfl)).trans ?_
  exact broadcastInDim_apply _ _ _ _ (ix2 (0 : Fin 1) c) (fun a => by match a with | ⟨0, _⟩ => rfl | ⟨1, _⟩ => rfl)

/-- A [64, 512] array given a leading unit axis reads the same entry. -/
theorem lead_apply {α : Type} (s : S64x512.Idx → α) (i : Fin 1) (b : Fin 64) (c : Fin 512) :
    broadcastInDim S1x64x512 ![1, 2] bcast_S64x512_S1x64x512_1_2 s (ix3 i b c) = s (ix2 b c) :=
  broadcastInDim_apply _ _ _ _ (ix2 b c) (fun a => by match a with | ⟨0, _⟩ => rfl | ⟨1, _⟩ => rfl)

/-- The channel mean at a channel: the column sum (started from zero) over 65536. -/
theorem colMean_apply (s : FVec Ideal S64x512 .f32) (c : Fin 512) :
    colMean s (ix1 c) = Ideal.div (0 + ∑ b : Fin 64, s (ix2 b c)) ((65536 : ℝ) : EReal) := by
  unfold colMean
  show Ideal.div (Ideal.hostReduceAdd reducesTo_S64x512_S512_d0 s (Ideal.ofBits .f32 0x00000000#32) (ix1 c))
      (broadcastInDim S512 ![] bcast_S_S512 (constant (F := Ideal) S_ .f32 0x47800000#32) (ix1 c)) = _
  rw [bcast_scalar_apply, Ideal.hostReduceAdd_single reducesTo_S64x512_S512_d0 (by decide : S64x512.Reduces [0] S512),
    Cert.Consts.ofBits_zero]
  show Ideal.div (0 + ∑ k : Fin 64, s _) (Ideal.ofBits .f32 0x47800000#32) = _
  rw [Cert.Consts.ofBits_65536]
  refine congrArg (fun z => Ideal.div (0 + z) _) (Finset.sum_congr rfl fun k _ => congrArg s (funext fun a => Fin.ext ?_))
  match a with | ⟨0, _⟩ => rfl | ⟨1, _⟩ => rfl

/-- The reciprocal standard deviation at a channel. -/
theorem rstd_apply (s1 s2 : FVec Ideal S64x512 .f32) (c : Fin 512) :
    rstd s1 s2 (ix1 c) = Ideal.rsqrt (max (colMean s2 (ix1 c) - colMean s1 (ix1 c) * colMean s1 (ix1 c)) 0
      + Ideal.ofBits .f32 0x3727C5AC#32) := by
  unfold rstd
  show Ideal.rsqrt (max (colMean s2 (ix1 c) - colMean s1 (ix1 c) * colMean s1 (ix1 c))
        (broadcastInDim S512 ![] bcast_S_S512 (constant (F := Ideal) S_ .f32 0x00000000#32) (ix1 c))
      + broadcastInDim S512 ![] bcast_S_S512 (constant (F := Ideal) S_ .f32 0x3727C5AC#32) (ix1 c)) = _
  rw [bcast_scalar_apply, bcast_scalar_apply]
  show Ideal.rsqrt (max _ (Ideal.ofBits .f32 0x00000000#32) + _) = _
  rw [Cert.Consts.ofBits_zero]
  rfl

/-- new_x at an entry. -/
theorem newX_apply (s1 s2 : FVec Ideal S64x512 .f32) (g β : FVec Ideal S1x512 .f32) (i : Fin 1) (b : Fin 64) (c : Fin 512) :
    newX s1 s2 g β (ix3 i b c)
      = g (ix2 (0 : Fin 1) c) * ((Ideal.div (s1 (ix2 b c)) ((1024 : ℝ) : EReal) - colMean s1 (ix1 c)) * rstd s1 s2 (ix1 c))
        + β (ix2 (0 : Fin 1) c) := by
  unfold newX
  show (broadcastInDim S1x64x512 ![0, 1, 2] bcast_S1x1x512_S1x64x512_0_1_2 (broadcastInDim S1x1x512 ![0, 2] bcast_S1x512_S1x1x512_0_2 g) (ix3 i b c))
      * ((broadcastInDim S1x64x512 ![1, 2] bcast_S64x512_S1x64x512_1_2
            (Host.divf s1 (broadcastInDim S64x512 ![] bcast_S_S64x512 (constant (F := Ideal) S_ .f32 0x44800000#32))) (ix3 i b c)
          - broadcastInDim S1x64x512 ![0, 1, 2] bcast_S1x1x512_S1x64x512_0_1_2 (broadcastInDim S1x1x512 ![2] bcast_S512_S1x1x512_2 (colMean s1)) (ix3 i b c))
        * broadcastInDim S1x64x512 ![0, 1, 2] bcast_S1x1x512_S1x64x512_0_1_2 (broadcastInDim S1x1x512 ![2] bcast_S512_S1x1x512_2 (rstd s1 s2)) (ix3 i b c))
      + broadcastInDim S1x64x512 ![0, 1, 2] bcast_S1x1x512_S1x64x512_0_1_2 (broadcastInDim S1x1x512 ![0, 2] bcast_S1x512_S1x1x512_0_2 β) (ix3 i b c) = _
  rw [spread_arg_apply, spread_arg_apply, spread_vec_apply, spread_vec_apply, lead_apply]
  show _ * ((Ideal.div (s1 (ix2 b c)) (broadcastInDim S64x512 ![] bcast_S_S64x512 (constant (F := Ideal) S_ .f32 0x44800000#32) (ix2 b c)) - _) * _) + _ = _
  rw [bcast_scalar_apply]
  show _ * ((Ideal.div (s1 (ix2 b c)) (Ideal.ofBits .f32 0x44800000#32) - _) * _) + _ = _
  rw [Cert.Consts.ofBits_1024]

end Cert.KernelIdeal.ValueH

end
-- ==== Proof.LibBatchNormPool.lean ====
/-
  Batch normalisation followed by a mean pool, on the extended reals, in two arrangements.

  For a finite batch `B` and a finite set of positions `P`, and real entries `x b p`:
  the ONE-PASS arrangement forms per-row sums `S1 b = ∑ p, x b p` and `S2 b = ∑ p, x b p * x b p`,
  the mean `μ = (∑ b, S1 b) / N`, the second moment `(∑ b, S2 b) / N`, the variance
  `max (second moment - μ * μ) 0`, and the output `g * ((S1 b / n - μ) * rsqrt (variance + ε)) + β`;
  the TWO-PASS arrangement forms the mean of all entries, the mean of the squared deviations, and the pooled
  mean over `p` of `(x b p - μ) * rsqrt (variance + ε) * g + β`.
  With `N = |B| * |P|`, `n = |P|`, `ε > 0` they agree: the mean of squared deviations is the second moment less
  the squared mean and is not negative, and the pooled mean of an affine function is the affine function of the pooled mean.
  All of it holds because every quantity is a real number; the statements are about extended reals that are
  coercions of reals.
-/
import Idealize.ShloMosaic.PureOps.Ideal

noncomputable section

namespace BatchNormPool

open Idealize.ShloMosaic
open scoped BigOperators

/-- A finite sum of real numbers read as extended reals is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, in the extended reals' division. -/
theorem div_coe_coe (a : ℝ) {y : ℝ} (h : y ≠ 0) : Ideal.div (a : EReal) (y : EReal) = ((a / y : ℝ) : EReal) := by
  rw [Ideal.div_coe h, ← EReal.coe_mul]; congr 1; ring

/-- The reciprocal square root of a positive real. -/
theorem rsqrt_coe_pos {y : ℝ} (h : 0 < y) : Ideal.rsqrt (y : EReal) = (((Real.sqrt y)⁻¹ : ℝ) : EReal) := by
  rw [Ideal.rsqrt_coe, if_neg (not_lt.mpr h.le), if_neg h.ne']

variable {B P : Type} [Fintype B] [Fintype P]

section Real

variable (x : B → P → ℝ) (N n : ℝ)

/-- The mean of all entries. -/
def mean : ℝ := (∑ b, ∑ p, x b p) / N

/-- The mean of the squared deviations is the second moment less the squared mean. -/
theorem var_eq (hN : N = (Fintype.card B : ℝ) * (Fintype.card P : ℝ)) (hN0 : N ≠ 0) :
    (∑ b, ∑ p, (x b p - mean x N) * (x b p - mean x N)) / N
      = (∑ b, ∑ p, x b p * x b p) / N - mean x N * mean x N := by
  have hS : (∑ b, ∑ p, x b p) = mean x N * N := by unfold mean; field_simp
  have h1 : ∀ b p, (x b p - mean x N) * (x b p - mean x N)
      = x b p * x b p - 2 * mean x N * x b p + mean x N * mean x N := fun b p => by ring
  simp only [h1, Finset.sum_add_distrib, Finset.sum_sub_distrib, ← Finset.mul_sum, Finset.sum_const,
    Finset.card_univ, nsmul_eq_mul]
  rw [hS]
  field_simp
  rw [hN]; ring

/-- The mean of the squared deviations is not negative. -/
theorem var_nonneg (hN0 : 0 < N) : 0 ≤ (∑ b, ∑ p, (x b p - mean x N) * (x b p - mean x N)) / N :=
  div_nonneg (Finset.sum_nonneg fun b _ => Finset.sum_nonneg fun p _ => mul_self_nonneg _) hN0.le

/-- The pooled mean of an affine function of the entries is the affine function of the pooled mean. -/
theorem pool_affine (b : B) (μ r g β : ℝ) (hn : n = (Fintype.card P : ℝ)) (hn0 : n ≠ 0) :
    (∑ p, ((x b p - μ) * r * g + β)) / n = g * (((∑ p, x b p) / n - μ) * r) + β := by
  have h1 : ∀ p, (x b p - μ) * r * g + β = (r * g) * x b p + (β - μ * r * g) := fun p => by ring
  simp only [h1, Finset.sum_add_distrib, ← Finset.mul_sum, Finset.sum_const, Finset.card_univ, nsmul_eq_mul]
  rw [← hn]; field_simp; ring

end Real

section Ext

variable (X : B → P → EReal) (Nn nn eps g β : EReal)

/-- The one-pass arrangement on the extended reals (every sum started from `0`, as a program starts it). -/
def onePass (b : B) : EReal :=
  g * ((Ideal.div (∑ p, X b p) nn - Ideal.div (0 + ∑ b, ∑ p, X b p) Nn)
      * Ideal.rsqrt (max (Ideal.div (0 + ∑ b, ∑ p, X b p * X b p) Nn
          - Ideal.div (0 + ∑ b, ∑ p, X b p) Nn * Ideal.div (0 + ∑ b, ∑ p, X b p) Nn) 0 + eps)) + β

/-- The two-pass arrangement on the extended reals. -/
def twoPass (b : B) : EReal :=
  Ideal.div (0 + ∑ p, ((X b p - Ideal.div (0 + ∑ b, ∑ p, X b p) Nn)
      * Ideal.rsqrt (Ideal.div (0 + ∑ b, ∑ p, (X b p - Ideal.div (0 + ∑ b, ∑ p, X b p) Nn)
          * (X b p - Ideal.div (0 + ∑ b, ∑ p, X b p) Nn)) Nn + eps) * g + β)) nn

/-- On real entries, with `N = |B| * |P|`, `n = |P|` and a positive `ε`, the two arrangements agree. -/
theorem onePass_eq_twoPass (x : B → P → ℝ) (N n e gr βr : ℝ)
    (hN : N = (Fintype.card B : ℝ) * (Fintype.card P : ℝ)) (hN0 : 0 < N)
    (hn : n = (Fintype.card P : ℝ)) (hn0 : 0 < n) (he : 0 < e) (b : B) :
    onePass (fun b p => ((x b p : ℝ) : EReal)) (N : EReal) (n : EReal) (e : EReal) (gr : EReal) (βr : EReal) b
      = twoPass (fun b p => ((x b p : ℝ) : EReal)) (N : EReal) (n : EReal) (e : EReal) (gr : EReal) (βr : EReal) b := by
  unfold onePass twoPass
  dsimp only
  have hmax : ∀ a : ℝ, max (a : EReal) 0 = ((max a 0 : ℝ) : EReal) := fun a =>
    (EReal.coe_strictMono.monotone.map_max (a := a) (b := 0)).symm
  have hmu : Ideal.div (0 + ∑ b, ∑ p, ((x b p : ℝ) : EReal)) (N : EReal) = ((mean x N : ℝ) : EReal) := by
    simp only [coe_sum, zero_add]; rw [div_coe_coe _ hN0.ne']; rfl
  rw [hmu]
  have hvar : Ideal.div (0 + ∑ b, ∑ p, (((x b p : ℝ) : EReal) - ((mean x N : ℝ) : EReal))
      * (((x b p : ℝ) : EReal) - ((mean x N : ℝ) : EReal))) (N : EReal)
      = (((∑ b, ∑ p, (x b p - mean x N) * (x b p - mean x N)) / N : ℝ) : EReal) := by
    simp only [← EReal.coe_sub, ← EReal.coe_mul, coe_sum, zero_add]; rw [div_coe_coe _ hN0.ne']
  have hex2 : Ideal.div (0 + ∑ b, ∑ p, ((x b p : ℝ) : EReal) * ((x b p : ℝ) : EReal)) (N : EReal)
      = (((∑ b, ∑ p, x b p * x b p) / N : ℝ) : EReal) := by
    simp only [← EReal.coe_mul, coe_sum, zero_add]; rw [div_coe_coe _ hN0.ne']
  rw [hvar, hex2, ← EReal.coe_mul, ← EReal.coe_sub, hmax, ← var_eq x N hN hN0.ne',
    max_eq_left (var_nonneg x N hN0), ← EReal.coe_add,
    rsqrt_coe_pos (add_pos_of_nonneg_of_pos (var_nonneg x N hN0) he)]
  simp only [← EReal.coe_sub, ← EReal.coe_mul, ← EReal.coe_add, coe_sum, zero_add]
  rw [div_coe_coe _ hn0.ne', div_coe_coe _ hn0.ne', ← EReal.coe_sub, ← EReal.coe_mul, ← EReal.coe_mul, ← EReal.coe_add,
    pool_affine x n b _ _ _ _ hn hn0.ne']

end Ext

end BatchNormPool

end
-- ==== Proof.KerBridge.lean ====
/-
  The kernel program's new_x at an entry (0, b, c) is the one-pass arrangement over the channel's entries, given that
  the two arrays the region writes hold, at (b, c), the sum and the sum of squares of the entries x[b, c, ·, ·].
-/
import proofs.«100338_j23983097381582_2_alg».proof.Proof.KerRead
import proofs.«100338_j23983097381582_2_alg».proof.Proof.LibBatchNormPool

noncomputable section

namespace Cert.KernelIdeal.ValueH

open Cert.KernelIdeal Idealize.ShloMosaic Idealize.ShloMosaic.ValueIdx

theorem newX_onePass (x : FVec Ideal S64x512x32x32 .f32) (s1 s2 : FVec Ideal S64x512 .f32) (g β : FVec Ideal S1x512 .f32)
    (h1 : ∀ (b : Fin 64) (ch : Fin 512), s1 (ix2 b ch) = ∑ h : Fin 32, ∑ w : Fin 32, x (ix4 b ch h w))
    (h2 : ∀ (b : Fin 64) (ch : Fin 512), s2 (ix2 b ch) = ∑ h : Fin 32, ∑ w : Fin 32, x (ix4 b ch h w) * x (ix4 b ch h w))
    (i : Fin 1) (b : Fin 64) (ch : Fin 512) :
    newX s1 s2 g β (ix3 i b ch)
      = BatchNormPool.onePass (fun (b : Fin 64) (pr : Fin 32 × Fin 32) => x (ix4 b ch pr.1 pr.2))
          ((65536 : ℝ) : EReal) ((1024 : ℝ) : EReal) (Ideal.ofBits .f32 0x3727C5AC#32)
          (g (ix2 (0 : Fin 1) ch)) (β (ix2 (0 : Fin 1) ch)) b := by
  rw [newX_apply, rstd_apply, colMean_apply, colMean_apply]
  unfold BatchNormPool.onePass
  simp only [h1, h2, Fintype.sum_prod_type]

end Cert.KernelIdeal.ValueH

end
-- ==== Proof.LibChannelSum.lean ====
/-
  Sums over all axes but the channel axis of a rank-4 array [a, b, d, e] (the statistics of a batch normalisation over
  batch and positions), and over the two position axes of a rank-5 array [a, b, c, d, e].

  The indices of [a, b, d, e] whose channel coordinate is `j` are the (i, j, p, r), once each (`filter_drop_chan`), so the
  host's sum over the axes 0, 2, 3, read at channel `j`, is the initial value plus the triple sum over i, p, r
  (`hostReduceAdd_chan`). The host's sum over the last two axes of a rank-5 array, read at (i, j, k), is the initial
  value plus the double sum over the last two coordinates (`hostReduceAdd_lastTwo_double`). For any extents and any
  extended-real entries.
-/
import proofs.«100338_j23983097381582_2_alg».proof.Proof.LibMergeLastTwo

noncomputable section

namespace Cert.Lib.ChannelSum

open Idealize.ShloMosaic Idealize.ShloMosaic.ValueIdx Finset

variable {a b c d e : ℕ}

/-- Dropping every coordinate of (i, j, p, r) but the channel leaves (j). -/
theorem drop_ix4 (h' : (⟨4, ![a, b, d, e]⟩ : Shape).ReducesTo [0, 2, 3] ⟨1, ![b]⟩)
    (i : Fin a) (j : Fin b) (p : Fin d) (r : Fin e) : h'.drop (ix4 i j p r) = ix1 j :=
  funext fun x => Fin.ext (by match x with | ⟨0, _⟩ => rfl)

/-- The indices with channel coordinate `j`, listed by their other three coordinates. -/
def chanFiber (j : Fin b) : Fin a × Fin d × Fin e ↪ (⟨4, ![a, b, d, e]⟩ : Shape).Idx :=
  ⟨fun q => ix4 q.1 j q.2.1 q.2.2, fun q q' h =>
    Prod.ext (congrFun h 0) (Prod.ext (congrFun h 2) (congrFun h 3))⟩

/-- The indices that drop to (j) are exactly those. -/
theorem filter_drop_chan (h' : (⟨4, ![a, b, d, e]⟩ : Shape).ReducesTo [0, 2, 3] ⟨1, ![b]⟩) (j : Fin b) :
    univ.filter (fun I : (⟨4, ![a, b, d, e]⟩ : Shape).Idx => h'.drop I = ix1 j) = univ.map (chanFiber j) := by
  ext I
  simp only [mem_filter, mem_univ, true_and, mem_map, chanFiber, Function.Embedding.coeFn_mk, Prod.exists]
  constructor
  · intro h
    refine ⟨I 0, I 2, I 3, ?_⟩
    have e1 : (I 1).val = j.val := congrArg Fin.val (congrFun h 0)
    refine funext fun x => Fin.ext ?_
    match x with
    | ⟨0, _⟩ => rfl
    | ⟨1, _⟩ => exact e1.symm
    | ⟨2, _⟩ => rfl
    | ⟨3, _⟩ => rfl
  · rintro ⟨i, p, r, rfl⟩
    exact drop_ix4 h' i j p r

/-- THE HOST'S SUM OVER BATCH AND POSITIONS at a channel: the initial value plus the triple sum. -/
theorem hostReduceAdd_chan (h' : (⟨4, ![a, b, d, e]⟩ : Shape).ReducesTo [0, 2, 3] ⟨1, ![b]⟩)
    (x : (⟨4, ![a, b, d, e]⟩ : Shape).Idx → EReal) (init : EReal) (j : Fin b) :
    Ideal.hostReduceAdd h' x init (ix1 j) = init + ∑ i : Fin a, ∑ pr : Fin d × Fin e, x (ix4 i j pr.1 pr.2) := by
  unfold Ideal.hostReduceAdd
  rw [filter_drop_chan h' j, sum_map, Fintype.sum_prod_type]
  rfl

/-- THE HOST'S SUM OVER THE LAST TWO AXES of a rank-5 array at (i, j, k): the initial value plus the sum over the pairs. -/
theorem hostReduceAdd_lastTwo_double (h' : (⟨5, ![a, b, c, d, e]⟩ : Shape).ReducesTo [3, 4] ⟨3, ![a, b, c]⟩)
    (x : (⟨5, ![a, b, c, d, e]⟩ : Shape).Idx → EReal) (init : EReal) (i : Fin a) (j : Fin b) (k : Fin c) :
    Ideal.hostReduceAdd h' x init (ix3 i j k) = init + ∑ pr : Fin d × Fin e, x (ix5 i j k pr.1 pr.2) := by
  unfold Ideal.hostReduceAdd
  rw [Cert.Lib.MergeLastTwo.filter_drop h' i j k, sum_map]
  rfl

end Cert.Lib.ChannelSum

end
-- ==== Proof.RefRead.lean ====
/-
  The reference program's new_x read at an entry (0, b, c), on the extended reals: the pooled mean over the 32 × 32
  positions of `(x[b', c, p] - μ[c]) · rsqrt (var[c] + ε) · γ[c] + β[c]`, with `μ[c]` the sum of the channel's entries over
  batch and positions (from zero) over 65536 and `var[c]` the sum of squared deviations from the same mean over 65536
  (the divisor `65536 - 0` is positive, so the selection takes the quotient).
-/
import proofs.«100338_j23983097381582_2_alg».proof.Proof.RefDefs
import proofs.«100338_j23983097381582_2_alg».proof.Proof.Consts
import proofs.«100338_j23983097381582_2_alg».proof.Proof.LibChannelSum
import proofs.«100338_j23983097381582_2_alg».proof.Proof.LibBatchNormPool
import Idealize.ShloMosaic.Lib.Pipeline.Value
import Idealize.ShloMosaic.Lib.ValueIdx
import Idealize.ShloMosaic.PureOps.Ideal.Laws

noncomputable section

namespace Cert.ReferenceIdeal.ValueH

open Cert.ReferenceIdeal Idealize.ShloMosaic Idealize.ShloMosaic.ValueIdx
open Cert.ReferenceIdeal.Facts₀

/-- A scalar broadcast to any shape reads the scalar. -/
theorem bcast_scalar_apply {t : Shape} {α : Type} (h : S_.BroadcastsInDim t (![] : Fin 0 → Fin t.rank)) (x : S_.Idx → α) (j : t.Idx) :
    broadcastInDim t ![] h x j = x ix0 :=
  broadcastInDim_apply _ h x j ix0 (fun a => a.elim0)

/-- A [1, 512, 1, 1] array spread over [64, 512, 32, 32] reads its channel's entry. -/
theorem kept4_apply {α : Type} (u : S1x512x1x1.Idx → α) (b : Fin 64) (c : Fin 512) (h : Fin 32) (w : Fin 32) :
    broadcastInDim S64x512x32x32 ![0, 1, 2, 3] bcast_S1x512x1x1_S64x512x32x32_0_1_2_3 u (ix4 b c h w)
      = u (ix4 (0 : Fin 1) c (0 : Fin 1) (0 : Fin 1)) :=
  broadcastInDim_apply _ _ _ _ (ix4 (0 : Fin 1) c (0 : Fin 1) (0 : Fin 1)) (fun a => by
    match a with | ⟨0, _⟩ => rfl | ⟨1, _⟩ => rfl | ⟨2, _⟩ => rfl | ⟨3, _⟩ => rfl)

/-- A per-channel vector kept as [1, 512, 1, 1] reads its channel's entry. -/
theorem keep4_apply {α : Type} (v : S512.Idx → α) (i : Fin 1) (c : Fin 512) (h w : Fin 1) :
    broadcastInDim S1x512x1x1 ![1] bcast_S512_S1x512x1x1_1 v (ix4 i c h w) = v (ix1 c) :=
  broadcastInDim_apply _ _ _ _ (ix1 c) (fun a => by match a with | ⟨0, _⟩ => rfl)

/-- A [64, 512, 32, 32] array given a leading unit axis reads the same entry. -/
theorem lead5_apply {α : Type} (y : S64x512x32x32.Idx → α) (i : Fin 1) (b : Fin 64) (c : Fin 512) (h w : Fin 32) :
    broadcastInDim S1x64x512x32x32 ![1, 2, 3, 4] bcast_S64x512x32x32_S1x64x512x32x32_1_2_3_4 y (ix5 i b c h w) = y (ix4 b c h w) :=
  broadcastInDim_apply _ _ _ _ (ix4 b c h w) (fun a => by
    match a with | ⟨0, _⟩ => rfl | ⟨1, _⟩ => rfl | ⟨2, _⟩ => rfl | ⟨3, _⟩ => rfl)

/-- A [1, 512] parameter spread over [1, 64, 512, 32, 32] reads its channel's entry. -/
theorem spread5_apply {α : Type} (g : S1x512.Idx → α) (i : Fin 1) (b : Fin 64) (c : Fin 512) (h w : Fin 32) :
    broadcastInDim S1x64x512x32x32 ![0, 1, 2, 3, 4] bcast_S1x1x512x1x1_S1x64x512x32x32_0_1_2_3_4
        (broadcastInDim S1x1x512x1x1 ![0, 2] bcast_S1x512_S1x1x512x1x1_0_2 g) (ix5 i b c h w)
      = g (ix2 (0 : Fin 1) c) := by
  refine (broadcastInDim_apply _ _ _ (ix5 i b c h w) (ix5 (0 : Fin 1) (0 : Fin 1) c (0 : Fin 1) (0 : Fin 1)) (fun a => by
    match a with | ⟨0, _⟩ => rfl | ⟨1, _⟩ => rfl | ⟨2, _⟩ => rfl | ⟨3, _⟩ => rfl | ⟨4, _⟩ => rfl)).trans ?_
  exact broadcastInDim_apply _ _ _ _ (ix2 (0 : Fin 1) c) (fun a => by match a with | ⟨0, _⟩ => rfl | ⟨1, _⟩ => rfl)

/-- The channel's entries as a function of batch index and position pair. -/
def chanOf (x : FVec Ideal S64x512x32x32 .f32) (c : Fin 512) : Fin 64 → Fin 32 × Fin 32 → EReal :=
  fun b pr => x (ix4 b c pr.1 pr.2)

/-- The host's sum over batch and positions, from zero, at a channel. -/
theorem chanSum_apply (y : FVec Ideal S64x512x32x32 .f32) (c : Fin 512) :
    Host.reduceAdd y (constant (F := Ideal) S_ .f32 0x00000000#32) reducesTo_S64x512x32x32_S512_d0_2_3 h_S_ (ix1 c)
      = 0 + ∑ b : Fin 64, ∑ pr : Fin 32 × Fin 32, y (ix4 b c pr.1 pr.2) := by
  show Ideal.hostReduceAdd reducesTo_S64x512x32x32_S512_d0_2_3 y (Ideal.ofBits .f32 0x00000000#32) (ix1 c) = _
  rw [Cert.Lib.ChannelSum.hostReduceAdd_chan, Cert.Consts.ofBits_zero]

/-- The channel mean at a channel. -/
theorem chanMean_apply (x : FVec Ideal S64x512x32x32 .f32) (c : Fin 512) :
    chanMean x (ix1 c) = Ideal.div (0 + ∑ b : Fin 64, ∑ pr : Fin 32 × Fin 32, chanOf x c b pr) ((65536 : ℝ) : EReal) := by
  unfold chanMean
  show Ideal.div (Host.reduceAdd x (constant (F := Ideal) S_ .f32 0x00000000#32) reducesTo_S64x512x32x32_S512_d0_2_3 h_S_ (ix1 c))
      (broadcastInDim S512 ![] bcast_S_S512 (constant (F := Ideal) S_ .f32 0x47800000#32) (ix1 c)) = _
  rw [chanSum_apply, bcast_scalar_apply]
  show Ideal.div _ (Ideal.ofBits .f32 0x47800000#32) = _
  rw [Cert.Consts.ofBits_65536]
  rfl

/-- The mean jnp.var computes for itself is the same number. -/
theorem chanMeanKept_apply (x : FVec Ideal S64x512x32x32 .f32) (c : Fin 512) :
    chanMeanKept x (ix4 (0 : Fin 1) c (0 : Fin 1) (0 : Fin 1))
      = Ideal.div (0 + ∑ b : Fin 64, ∑ pr : Fin 32 × Fin 32, chanOf x c b pr) ((65536 : ℝ) : EReal) := by
  unfold chanMeanKept
  show Ideal.div (broadcastInDim S1x512x1x1 ![1] bcast_S512_S1x512x1x1_1
        (Host.reduceAdd x (constant (F := Ideal) S_ .f32 0x00000000#32) reducesTo_S64x512x32x32_S512_d0_2_3 h_S_) (ix4 (0 : Fin 1) c (0 : Fin 1) (0 : Fin 1)))
      (broadcastInDim S1x512x1x1 ![] bcast_S_S1x512x1x1 (constant (F := Ideal) S_ .f32 0x47800000#32) (ix4 (0 : Fin 1) c (0 : Fin 1) (0 : Fin 1))) = _
  rw [keep4_apply, chanSum_apply, bcast_scalar_apply]
  show Ideal.div _ (Ideal.ofBits .f32 0x47800000#32) = _
  rw [Cert.Consts.ofBits_65536]
  rfl

/-- A deviation at an entry. -/
theorem dev_apply (x : FVec Ideal S64x512x32x32 .f32) (b : Fin 64) (c : Fin 512) (h w : Fin 32) :
    dev x (ix4 b c h w) = x (ix4 b c h w)
      - Ideal.div (0 + ∑ b : Fin 64, ∑ pr : Fin 32 × Fin 32, chanOf x c b pr) ((65536 : ℝ) : EReal) := by
  unfold dev
  show x (ix4 b c h w) - broadcastInDim S64x512x32x32 ![0, 1, 2, 3] bcast_S1x512x1x1_S64x512x32x32_0_1_2_3 (chanMeanKept x) (ix4 b c h w) = _
  rw [kept4_apply, chanMeanKept_apply]

/-- The divisor of the variance: 65536 less the integer zero read as a float. -/
theorem divisor_eq : (((65536 : ℝ) : EReal) - ((((0#32 : BitVec 32).toInt : ℤ) : ℝ) : EReal)) = ((65536 : ℝ) : EReal) := by
  simp

/-- The channel variance at a channel, the degrees-of-freedom correction zero. -/
theorem chanVar_apply (x : FVec Ideal S64x512x32x32 .f32) (c : Fin 512) :
    chanVar x (constantI S_ 32 0#32) (ix1 c)
      = Ideal.div (0 + ∑ b : Fin 64, ∑ pr : Fin 32 × Fin 32,
          (chanOf x c b pr - Ideal.div (0 + ∑ b : Fin 64, ∑ pr : Fin 32 × Fin 32, chanOf x c b pr) ((65536 : ℝ) : EReal))
          * (chanOf x c b pr - Ideal.div (0 + ∑ b : Fin 64, ∑ pr : Fin 32 × Fin 32, chanOf x c b pr) ((65536 : ℝ) : EReal)))
        ((65536 : ℝ) : EReal) := by
  unfold chanVar
  show Scalar.select (broadcastInDim S512 ![] bcast_S_S512
        (cmpf .ogt (subf (constant (F := Ideal) S_ .f32 0x47800000#32) (sitofp .f32 (constantI S_ 32 0#32))) (constant (F := Ideal) S_ .f32 0x00000000#32)) (ix1 c))
      (Ideal.div (Host.reduceAdd (mulf (dev x) (dev x)) (constant (F := Ideal) S_ .f32 0x00000000#32) reducesTo_S64x512x32x32_S512_d0_2_3 h_S_ (ix1 c))
        (broadcastInDim S512 ![] bcast_S_S512 (subf (constant (F := Ideal) S_ .f32 0x47800000#32) (sitofp .f32 (constantI S_ 32 0#32))) (ix1 c)))
      (broadcastInDim S512 ![] bcast_S_S512 (id (constant (F := Ideal) S_ .f32 0x7FC00000#32)) (ix1 c)) = _
  rw [bcast_scalar_apply, bcast_scalar_apply, bcast_scalar_apply, chanSum_apply]
  have hdiv : subf (constant (F := Ideal) S_ .f32 0x47800000#32) (sitofp .f32 (constantI S_ 32 0#32)) ix0 = ((65536 : ℝ) : EReal) := by
    show Ideal.ofBits .f32 0x47800000#32 - ((((0#32 : BitVec 32).toInt : ℤ) : ℝ) : EReal) = _
    rw [Cert.Consts.ofBits_65536, divisor_eq]
  have hcmp : cmpf .ogt (subf (constant (F := Ideal) S_ .f32 0x47800000#32) (sitofp .f32 (constantI S_ 32 0#32))) (constant (F := Ideal) S_ .f32 0x00000000#32) ix0 = 1#1 := by
    show Ideal.cmp .ogt (subf (constant (F := Ideal) S_ .f32 0x47800000#32) (sitofp .f32 (constantI S_ 32 0#32)) ix0) (Ideal.ofBits .f32 0x00000000#32) = 1#1
    rw [hdiv, Cert.Consts.ofBits_zero]
    unfold Ideal.cmp
    simp
  rw [hcmp, hdiv, select_one]
  refine congrArg (fun z => Ideal.div (0 + z) _) (Finset.sum_congr rfl fun b _ => Finset.sum_congr rfl fun pr _ => ?_)
  show dev x (ix4 b c pr.1 pr.2) * dev x (ix4 b c pr.1 pr.2) = _
  rw [dev_apply]
  rfl

/-- A normalised entry. -/
theorem normed_apply (x : FVec Ideal S64x512x32x32 .f32) (b : Fin 64) (c : Fin 512) (h w : Fin 32) :
    normed x (ix4 b c h w) = (x (ix4 b c h w) - chanMean x (ix1 c))
      * Ideal.rsqrt (chanVar x (constantI S_ 32 0#32) (ix1 c) + Ideal.ofBits .f32 0x3727C5AC#32) := by
  unfold normed
  show (x (ix4 b c h w) - broadcastInDim S64x512x32x32 ![0, 1, 2, 3] bcast_S1x512x1x1_S64x512x32x32_0_1_2_3
        (broadcastInDim S1x512x1x1 ![1] bcast_S512_S1x512x1x1_1 (chanMean x)) (ix4 b c h w))
      * broadcastInDim S64x512x32x32 ![0, 1, 2, 3] bcast_S1x512x1x1_S64x512x32x32_0_1_2_3
        (broadcastInDim S1x512x1x1 ![1] bcast_S512_S1x512x1x1_1
          (Host.rsqrt (addf (chanVar x (constantI S_ 32 0#32)) (broadcastInDim S512 ![] bcast_S_S512 (constant (F := Ideal) S_ .f32 0x3727C5AC#32))))) (ix4 b c h w) = _
  rw [kept4_apply, kept4_apply, keep4_apply, keep4_apply]
  show _ * Ideal.rsqrt (chanVar x (constantI S_ 32 0#32) (ix1 c) + broadcastInDim S512 ![] bcast_S_S512 (constant (F := Ideal) S_ .f32 0x3727C5AC#32) (ix1 c)) = _
  rw [bcast_scalar_apply]
  rfl

/-- new_x at an entry: the two-pass arrangement over the channel's entries. -/
theorem newX_apply (x : FVec Ideal S64x512x32x32 .f32) (g β : FVec Ideal S1x512 .f32) (i : Fin 1) (b : Fin 64) (c : Fin 512) :
    newX x g β (ix3 i b c)
      = BatchNormPool.twoPass (chanOf x c) ((65536 : ℝ) : EReal) ((1024 : ℝ) : EReal) (Ideal.ofBits .f32 0x3727C5AC#32)
          (g (ix2 (0 : Fin 1) c)) (β (ix2 (0 : Fin 1) c)) b := by
  unfold newX BatchNormPool.twoPass
  show Ideal.div (Host.reduceAdd
        (addf (mulf (broadcastInDim S1x64x512x32x32 ![1, 2, 3, 4] bcast_S64x512x32x32_S1x64x512x32x32_1_2_3_4 (normed x))
            (broadcastInDim S1x64x512x32x32 ![0, 1, 2, 3, 4] bcast_S1x1x512x1x1_S1x64x512x32x32_0_1_2_3_4
              (broadcastInDim S1x1x512x1x1 ![0, 2] bcast_S1x512_S1x1x512x1x1_0_2 g)))
          (broadcastInDim S1x64x512x32x32 ![0, 1, 2, 3, 4] bcast_S1x1x512x1x1_S1x64x512x32x32_0_1_2_3_4
            (broadcastInDim S1x1x512x1x1 ![0, 2] bcast_S1x512_S1x1x512x1x1_0_2 β)))
        (constant (F := Ideal) S_ .f32 0x00000000#32) reducesTo_S1x64x512x32x32_S1x64x512_d3_4 h_S_ (ix3 i b c))
      (broadcastInDim S1x64x512 ![] bcast_S_S1x64x512 (constant (F := Ideal) S_ .f32 0x44800000#32) (ix3 i b c)) = _
  rw [bcast_scalar_apply]
  show Ideal.div (Ideal.hostReduceAdd reducesTo_S1x64x512x32x32_S1x64x512_d3_4 _ (Ideal.ofBits .f32 0x00000000#32) (ix3 i b c))
      (Ideal.ofBits .f32 0x44800000#32) = _
  rw [Cert.Lib.ChannelSum.hostReduceAdd_lastTwo_double, Cert.Consts.ofBits_zero, Cert.Consts.ofBits_1024]
  refine congrArg (fun z => Ideal.div (0 + z) _) (Finset.sum_congr rfl fun pr _ => ?_)
  show broadcastInDim S1x64x512x32x32 ![1, 2, 3, 4] bcast_S64x512x32x32_S1x64x512x32x32_1_2_3_4 (normed x) (ix5 i b c pr.1 pr.2)
      * broadcastInDim S1x64x512x32x32 ![0, 1, 2, 3, 4] bcast_S1x1x512x1x1_S1x64x512x32x32_0_1_2_3_4
          (broadcastInDim S1x1x512x1x1 ![0, 2] bcast_S1x512_S1x1x512x1x1_0_2 g) (ix5 i b c pr.1 pr.2)
      + broadcastInDim S1x64x512x32x32 ![0, 1, 2, 3, 4] bcast_S1x1x512x1x1_S1x64x512x32x32_0_1_2_3_4
          (broadcastInDim S1x1x512x1x1 ![0, 2] bcast_S1x512_S1x1x512x1x1_0_2 β) (ix5 i b c pr.1 pr.2) = _
  rw [lead5_apply, spread5_apply, spread5_apply, normed_apply, chanMean_apply, chanVar_apply]
  rfl

end Cert.ReferenceIdeal.ValueH

end
-- ==== Proof.Bridge.lean ====
/-
  The two programs' new_x are one array, on real inputs: entry by entry the kernel program's is the one-pass
  arrangement of the channel's entries and the reference's the two-pass arrangement, which agree when the entries,
  the scale and the shift are reals (module LibBatchNormPool: 65536 = 64 · (32 · 32) entries per channel, 1024 = 32 · 32
  positions, ε positive).
-/
import proofs.«100338_j23983097381582_2_alg».proof.Proof.KerBridge
import proofs.«100338_j23983097381582_2_alg».proof.Proof.RefRead

noncomputable section

namespace Cert.Bridge

open Idealize.ShloMosaic Idealize.ShloMosaic.ValueIdx

theorem newX_eq (x : FVec Ideal Cert.KernelIdeal.S64x512x32x32 .f32) (s1 s2 : FVec Ideal Cert.KernelIdeal.S64x512 .f32)
    (g β : FVec Ideal Cert.KernelIdeal.S1x512 .f32)
    (hx : ∀ i, ∃ r : ℝ, x i = (r : EReal)) (hg : ∀ i, ∃ r : ℝ, g i = (r : EReal)) (hβ : ∀ i, ∃ r : ℝ, β i = (r : EReal))
    (h1 : ∀ (b : Fin 64) (ch : Fin 512), s1 (ix2 b ch) = ∑ h : Fin 32, ∑ w : Fin 32, x (ix4 b ch h w))
    (h2 : ∀ (b : Fin 64) (ch : Fin 512), s2 (ix2 b ch) = ∑ h : Fin 32, ∑ w : Fin 32, x (ix4 b ch h w) * x (ix4 b ch h w)) :
    Cert.KernelIdeal.ValueH.newX s1 s2 g β = Cert.ReferenceIdeal.ValueH.newX x g β := by
  funext j
  obtain ⟨i, b, ch, rfl⟩ : ∃ (i : Fin 1) (b : Fin 64) (ch : Fin 512), j = ix3 i b ch := ⟨j 0, j 1, j 2, eq_ix3 j⟩
  rw [Cert.KernelIdeal.ValueH.newX_onePass x s1 s2 g β h1 h2]
  refine Eq.trans ?_ (Cert.ReferenceIdeal.ValueH.newX_apply x g β i b ch).symm
  choose xr hxr using hx
  obtain ⟨gr, hgr⟩ := hg (ix2 (0 : Fin 1) ch)
  obtain ⟨βr, hβr⟩ := hβ (ix2 (0 : Fin 1) ch)
  obtain ⟨e, he, hee⟩ := Cert.Consts.ofBits_eps
  have hX : Cert.ReferenceIdeal.ValueH.chanOf x ch = fun b pr => ((xr (ix4 b ch pr.1 pr.2) : ℝ) : EReal) := by
    funext b pr; exact hxr _
  have hX' : (fun (b : Fin 64) (pr : Fin 32 × Fin 32) => x (ix4 b ch pr.1 pr.2)) = fun b pr => ((xr (ix4 b ch pr.1 pr.2) : ℝ) : EReal) := by
    funext b pr; exact hxr _
  rw [hX, hX', hgr, hβr, hee]
  have hN : (65536 : ℝ) = (Fintype.card (Fin 64) : ℝ) * (Fintype.card (Fin 32 × Fin 32) : ℝ) := by
    rw [Fintype.card_prod, Fintype.card_fin, Fintype.card_fin]; norm_num
  have hn : (1024 : ℝ) = (Fintype.card (Fin 32 × Fin 32) : ℝ) := by
    rw [Fintype.card_prod, Fintype.card_fin]; norm_num
  exact BatchNormPool.onePass_eq_twoPass (B := Fin 64) (P := Fin 32 × Fin 32)
    (fun (b : Fin 64) (pr : Fin 32 × Fin 32) => xr (ix4 b ch pr.1 pr.2)) 65536 1024 e gr βr hN (by norm_num) hn (by norm_num) he b

end Cert.Bridge

end
-- ==== Proof.SharedTail.lean ====
/-
  The two programs compute the router weights, the logits and the probabilities by the same operations: the functions
  named for the kernel program and for the reference are the same functions.
-/
import proofs.«100338_j23983097381582_2_alg».proof.Proof.KerValue
import proofs.«100338_j23983097381582_2_alg».proof.Proof.RefDefs

noncomputable section

namespace Cert.SharedTail

open Idealize.ShloMosaic

variable {F : FTy → Type} [FloatOps F]

theorem wn_eq : (Cert.KernelIdeal.ValueH.wn (F := F)) = Cert.ReferenceIdeal.ValueH.wn (F := F) := rfl
theorem logits_eq : (Cert.KernelIdeal.ValueH.logits (F := F)) = Cert.ReferenceIdeal.ValueH.logits (F := F) := rfl
theorem probs_eq : (Cert.KernelIdeal.ValueH.probs (F := F)) = Cert.ReferenceIdeal.ValueH.probs (F := F) := rfl

end Cert.SharedTail

end
-- ==== Proof.Finite.lean ====
/-
  What the precondition says: every entry of the input array, of the batch-norm scale and of the batch-norm shift is a
  real number. The precondition is a conjunction, one conjunct per argument, of "every entry's absolute value is below
  +∞"; on the extended reals `max a (-a) < ⊤` holds of the reals only.
-/
import proofs.«100338_j23983097381582_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.FiniteH

open Cert.Pre_finite_inputs Idealize.ShloMosaic Idealize.ShloMosaic.ValueIdx

variable [Facts]

/-- The pattern of +∞. -/
theorem ofBits_inf : Ideal.ofBits .f32 0x7F800000#32 = ⊤ := by
  simp [Ideal.ofBits, Ideal.ieee]

/-- An extended real whose absolute value is below +∞ is a real. -/
theorem real_of_abs_lt (a : EReal) (h : Ideal.cmp .olt (max a (-a)) (Ideal.ofBits .f32 0x7F800000#32) = 1#1) :
    ∃ r : ℝ, a = (r : EReal) := by
  rw [ofBits_inf] at h
  unfold Ideal.cmp at h
  have hlt : max a (-a) < ⊤ := by
    by_contra hn
    simp [hn] at h
  induction a using EReal.rec with
  | bot => simp at hlt
  | coe r => exact ⟨r, rfl⟩
  | top => simp at hlt

instance : Subsingleton S_.Idx := ⟨fun a b => funext fun d => d.elim0⟩

/-- One conjunct of the precondition: all entries of an array below +∞ in absolute value. -/
theorem all_real {s : Shape} {axes : List (Fin s.rank)} (x : FVec Ideal s .f32) (hb : S_.BroadcastsInDim s (![] : Fin 0 → Fin s.rank))
    (hr : s.ReducesTo axes S_) (hS : 0 < S_.numel)
    (e : Host.reduce IntOp.andi (cmpf .olt (Host.absf x) (broadcastInDim s ![] hb (constant (F := Ideal) S_ .f32 0x7F800000#32)))
      (constantI S_ 1 1#1) hr hS ix0 = 1#1) (i : s.Idx) : ∃ r : ℝ, x i = (r : EReal) := by
  have h1 := Host.reduce_andi_all _ _ hr hS ix0 e i
  refine real_of_abs_lt (x i) ?_
  have hb' : broadcastInDim s ![] hb (constant (F := Ideal) S_ .f32 0x7F800000#32) i = Ideal.ofBits .f32 0x7F800000#32 :=
    broadcastInDim_apply _ hb _ i ix0 (fun a => a.elim0)
  rw [← hb']
  exact h1

/-- THE PRECONDITION READ: the input, the scale and the shift hold reals. -/
theorem real_of_pre (x : FVec Ideal S64x512x32x32 .f32) (a1 : FVec Ideal S1x512x16 .f32) (a2 : FVec Ideal S1x16 .f32)
    (a3 a4 a5 a6 : FVec Ideal S1x512 .f32) (h : fn (F := Ideal) x a1 a2 a3 a4 a5 a6 = fun _ => 1#1) :
    (∀ i, ∃ r : ℝ, x i = (r : EReal)) ∧ (∀ i, ∃ r : ℝ, a3 i = (r : EReal)) ∧ (∀ i, ∃ r : ℝ, a4 i = (r : EReal)) := by
  have h0 := congrFun h ix0
  dsimp only [fn, fn_part1, andi] at h0
  simp only [IntOp.andi_eq_one] at h0
  obtain ⟨⟨⟨⟨⟨⟨e0, -⟩, -⟩, e3⟩, e4⟩, -⟩, -⟩ := h0
  exact ⟨all_real x _ _ _ e0, all_real a3 _ _ _ e3, all_real a4 _ _ _ e4⟩

end Cert.Pre_finite_inputs.FiniteH

end
-- ==== Proof.lean ====
/-
  A router that batch-normalises a [64, 512, 32, 32] input over batch and positions, mean-pools it over the positions,
  and routes the pooled [64, 512] rows through layer-normalised weights and a softmax.

  The kernel program reads the input ONCE: its one region writes, per (b, c), the sum and the sum of squares of the 1024
  entries x[b, c, ·, ·]; the host operations after it form the channel mean μ and the variance as
  `max (E[x²] - μ²) 0`, and new_x[b, c] = γ[c] · ((Σ x[b, c, ·, ·] / 1024 - μ[c]) · rsqrt (var[c] + ε)) + β[c].
  The reference forms μ, the variance as the mean of squared deviations, normalises every entry, scales and shifts it,
  and averages over the positions. On real inputs the two agree (module Bridge, over module LibBatchNormPool: the mean of
  squared deviations is E[x²] - μ² and is not negative; the mean of an affine function is the affine function of the mean),
  and everything after new_x is computed by the same operations in both programs (module SharedTail).

  The three frames: the kernel program's at both float instances from its frame run (the region's body stores each
  output block whole, whatever it held), the reference's from its run as a list of host operations. The idealisation
  rewrote nothing, so `preserves` has nothing to state.
-/
import proofs.«100338_j23983097381582_2_alg».proof.Defs
import proofs.«100338_j23983097381582_2_alg».proof.Proof.Gen.Kernel
import proofs.«100338_j23983097381582_2_alg».proof.Proof.Gen.KernelIdeal
import proofs.«100338_j23983097381582_2_alg».proof.Proof.Gen.ReferenceIdeal
import proofs.«100338_j23983097381582_2_alg».proof.Proof.Gen.Pre_finite_inputs
import proofs.«100338_j23983097381582_2_alg».proof.Proof.KFrame
import proofs.«100338_j23983097381582_2_alg».proof.Proof.KIFrame
import proofs.«100338_j23983097381582_2_alg».proof.Proof.KerRun
import proofs.«100338_j23983097381582_2_alg».proof.Proof.KerArr
import proofs.«100338_j23983097381582_2_alg».proof.Proof.RefValue
import proofs.«100338_j23983097381582_2_alg».proof.Proof.Bridge
import proofs.«100338_j23983097381582_2_alg».proof.Proof.SharedTail
import proofs.«100338_j23983097381582_2_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.FrameH.frame m ρ
theorem frame_ki : Cert.frame_KernelIdeal := fun m ρ _ => Cert.KernelIdeal.FrameH.frame m ρ
theorem frame_ri : Cert.frame_ReferenceIdeal := fun m ρ _ => Cert.ReferenceIdeal.RunH.frame (F := Ideal) m ρ

/-- The idealisation rewrote no operation. -/
theorem preserves : Cert.preserves_Kernel_KernelIdeal := trivial

/-- From memories that agree on the arguments, the kernel program's new_x (from the sums its region wrote) is the
    reference's; the logits and the probabilities follow by the same operations. -/
theorem algebraic : Cert.algebraic_KernelIdeal_ReferenceIdeal := by
  intro m ρ m' ρ' hpre hagree
  refine ⟨fun c => Cert.KernelIdeal.RunH.kNewX m c, fun c => Cert.KernelIdeal.RunH.kLogits m c,
    fun c => Cert.KernelIdeal.ValueH.probs (Cert.KernelIdeal.RunH.kLogits m c), Cert.KernelIdeal.RunH.run (F := Ideal) m ρ, ?_⟩
  refine (θ_run Cert.ReferenceIdeal.defs _ _).mono (fun r h c => ?_) (Cert.ReferenceIdeal.RunH.run (F := Ideal) m' ρ')
  obtain ⟨h22, h46, h57, hargs⟩ := h c
  obtain ⟨a0, a1, a2, a3, a4, a5, a6⟩ := hagree c
  obtain ⟨hx, hg, hβ⟩ := Cert.Pre_finite_inputs.FiniteH.real_of_pre _ _ _ _ _ _ _ (hpre c)
  have hnx : Cert.ReferenceIdeal.ValueH.newX (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      = Cert.KernelIdeal.RunH.kNewX m c := by
    rw [a0, a3, a4]
    exact (Cert.Bridge.newX_eq _ _ _ _ _ hx hg hβ (fun b ch => Cert.KernelIdeal.ArrH.sum1_final m c b ch _ rfl) (fun b ch => Cert.KernelIdeal.ArrH.sum2_final m c b ch _ rfl)).symm
  refine ⟨h22.trans hnx, h46.trans ?_, h57.trans ?_, hargs⟩
  · rw [hnx, a1, a2, a5, a6]; rfl
  · rw [hnx, a1, a2, a5, a6]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
